-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x19 : Shape := ⟨2, ![50000, 19]⟩
abbrev S50000x14 : Shape := ⟨2, ![50000, 14]⟩
abbrev S1000000x1 : Shape := ⟨2, ![1000000, 1]⟩
abbrev S2x1000000 : Shape := ⟨2, ![2, 1000000]⟩
abbrev S19x64 : Shape := ⟨2, ![19, 64]⟩
abbrev S64 : Shape := ⟨1, ![64]⟩
abbrev S14x64 : Shape := ⟨2, ![14, 64]⟩
abbrev S129x64 : Shape := ⟨2, ![129, 64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S50000x19 : S_.BroadcastsInDim S50000x19 (![] : Fin 0 → Fin S50000x19.rank)
  reducesTo_S50000x19_S_d0_1 : S50000x19.ReducesTo [0, 1] S_
  h_S_ : 0 < S_.numel
  bcast_S_S50000x14 : S_.BroadcastsInDim S50000x14 (![] : Fin 0 → Fin S50000x14.rank)
  reducesTo_S50000x14_S_d0_1 : S50000x14.ReducesTo [0, 1] S_
  bcast_S_S1000000x1 : S_.BroadcastsInDim S1000000x1 (![] : Fin 0 → Fin S1000000x1.rank)
  reducesTo_S1000000x1_S_d0_1 : S1000000x1.ReducesTo [0, 1] S_
  bcast_S_S19x64 : S_.BroadcastsInDim S19x64 (![] : Fin 0 → Fin S19x64.rank)
  reducesTo_S19x64_S_d0_1 : S19x64.ReducesTo [0, 1] S_
  bcast_S_S64 : S_.BroadcastsInDim S64 (![] : Fin 0 → Fin S64.rank)
  reducesTo_S64_S_d0 : S64.ReducesTo [0] S_
  bcast_S_S14x64 : S_.BroadcastsInDim S14x64 (![] : Fin 0 → Fin S14x64.rank)
  reducesTo_S14x64_S_d0_1 : S14x64.ReducesTo [0, 1] S_
  bcast_S_S129x64 : S_.BroadcastsInDim S129x64 (![] : Fin 0 → Fin S129x64.rank)
  reducesTo_S129x64_S_d0_1 : S129x64.ReducesTo [0, 1] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg15 : FVec F S64 .f32) (main_arg16 : FVec F S64x1 .f32) (main_arg17 : FVec F S1 .f32) (main_v63 : IVec S_ 1) (main_v67 : IVec S_ 1) : IVec S_ 1 :=
  let main_v68 : IVec S_ 1 := andi main_v63 main_v67
  let main_v69 : FVec F S64 .f32 := Host.absf main_arg15
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x1 .f32 := Host.absf main_arg16
  let main_cst_28 : FVec F S_ .f32 := constant S_ .f32 0x7F800000#32
  let main_v75 : FVec F S64x1 .f32 := broadcastInDim S64x1 ![] bcast_S_S64x1 main_cst_28
  let main_v76 : IVec S64x1 1 := cmpf .olt main_v74 main_v75
  let main_c_29 : IVec S_ 1 := constantI S_ 1 1#1
  let main_v77 : IVec S_ 1 := (fun x v => Host.reduce IntOp.andi x v reducesTo_S64x1_S_d0_1 h_S_) main_v76 main_c_29
  let main_v78 : IVec S_ 1 := andi main_v73 main_v77
  let main_v79 : FVec F S1 .f32 := Host.absf main_arg17
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  main_v83

def fn_part3 {F : FTy → Type} [FloatOps F] (main_arg12 : FVec F S129x64 .f32) (main_arg13 : FVec F S64 .f32) (main_arg14 : FVec F S64x64 .f32) (main_arg15 : FVec F S64 .f32) (main_arg16 : FVec F S64x1 .f32) (main_arg17 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S129x64 .f32 := Host.absf main_arg12
  let main_cst_20 : FVec F S_ .f32 := constant S_ .f32 0x7F800000#32
  let main_v55 : FVec F S129x64 .f32 := broadcastInDim S129x64 ![] bcast_S_S129x64 main_cst_20
  let main_v56 : IVec S129x64 1 := cmpf .olt main_v54 main_v55
  let main_c_21 : IVec S_ 1 := constantI S_ 1 1#1
  let main_v57 : IVec S_ 1 := (fun x v => Host.reduce IntOp.andi x v reducesTo_S129x64_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x64 .f32 := Host.absf main_arg14
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg15 main_arg16 main_arg17 main_v63 main_v67

def fn_part2 {F : FTy → Type} [FloatOps F] (main_arg8 : FVec F S129x64 .f32) (main_arg9 : FVec F S64 .f32) (main_arg10 : FVec F S64x64 .f32) (main_arg11 : FVec F S64 .f32) (main_arg12 : FVec F S129x64 .f32) (main_arg13 : FVec F S64 .f32) (main_arg14 : FVec F S64x64 .f32) (main_arg15 : FVec F S64 .f32) (main_arg16 : FVec F S64x1 .f32) (main_arg17 : FVec F S1 .f32) (main_v33 : IVec S_ 1) : IVec S_ 1 :=
  let main_v34 : FVec F S129x64 .f32 := Host.absf main_arg8
  let main_cst_12 : FVec F S_ .f32 := constant S_ .f32 0x7F800000#32
  let main_v35 : FVec F S129x64 .f32 := broadcastInDim S129x64 ![] bcast_S_S129x64 main_cst_12
  let main_v36 : IVec S129x64 1 := cmpf .olt main_v34 main_v35
  let main_c_13 : IVec S_ 1 := constantI S_ 1 1#1
  let main_v37 : IVec S_ 1 := (fun x v => Host.reduce IntOp.andi x v reducesTo_S129x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_arg14 main_arg15 main_arg16 main_arg17 main_v48 main_v49 main_v50

def fn_part1 {F : FTy → Type} [FloatOps F] (main_arg5 : FVec F S64 .f32) (main_arg6 : FVec F S14x64 .f32) (main_arg7 : FVec F S64 .f32) (main_arg8 : FVec F S129x64 .f32) (main_arg9 : FVec F S64 .f32) (main_arg10 : FVec F S64x64 .f32) (main_arg11 : FVec F S64 .f32) (main_arg12 : FVec F S129x64 .f32) (main_arg13 : FVec F S64 .f32) (main_arg14 : FVec F S64x64 .f32) (main_arg15 : FVec F S64 .f32) (main_arg16 : FVec F S64x1 .f32) (main_arg17 : FVec F S1 .f32) (main_v13 : IVec S_ 1) (main_v16 : IVec S19x64 1) : IVec S_ 1 :=
  let main_c_5 : IVec S_ 1 := constantI S_ 1 1#1
  let main_v17 : IVec S_ 1 := (fun x v => Host.reduce IntOp.andi x v reducesTo_S19x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S14x64 .f32 := Host.absf main_arg6
  let main_cst_8 : FVec F S_ .f32 := constant S_ .f32 0x7F800000#32
  let main_v25 : FVec F S14x64 .f32 := broadcastInDim S14x64 ![] bcast_S_S14x64 main_cst_8
  let main_v26 : IVec S14x64 1 := cmpf .olt main_v24 main_v25
  let main_c_9 : IVec S_ 1 := constantI S_ 1 1#1
  let main_v27 : IVec S_ 1 := (fun x v => Host.reduce IntOp.andi x v reducesTo_S14x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S50000x19 .f32) (main_arg1 : FVec F S50000x14 .f32) (main_arg2 : FVec F S1000000x1 .f32) (main_arg3 : IVec S2x1000000 32) (main_arg4 : FVec F S19x64 .f32) (main_arg5 : FVec F S64 .f32) (main_arg6 : FVec F S14x64 .f32) (main_arg7 : FVec F S64 .f32) (main_arg8 : FVec F S129x64 .f32) (main_arg9 : FVec F S64 .f32) (main_arg10 : FVec F S64x64 .f32) (main_arg11 : FVec F S64 .f32) (main_arg12 : FVec F S129x64 .f32) (main_arg13 : FVec F S64 .f32) (main_arg14 : FVec F S64x64 .f32) (main_arg15 : FVec F S64 .f32) (main_arg16 : FVec F S64x1 .f32) (main_arg17 : FVec F S1 .f32) : IVec S_ 1 :=
  let main_v0 : FVec F S50000x19 .f32 := Host.absf main_arg0
  let main_cst : FVec F S_ .f32 := constant S_ .f32 0x7F800000#32
  let main_v1 : FVec F S50000x19 .f32 := broadcastInDim S50000x19 ![] bcast_S_S50000x19 main_cst
  let main_v2 : IVec S50000x19 1 := cmpf .olt main_v0 main_v1
  let main_c : IVec S_ 1 := constantI S_ 1 1#1
  let main_v3 : IVec S_ 1 := (fun x v => Host.reduce IntOp.andi x v reducesTo_S50000x19_S_d0_1 h_S_) main_v2 main_c
  let main_v4 : FVec F S50000x14 .f32 := Host.absf main_arg1
  let main_cst_0 : FVec F S_ .f32 := constant S_ .f32 0x7F800000#32
  let main_v5 : FVec F S50000x14 .f32 := broadcastInDim S50000x14 ![] bcast_S_S50000x14 main_cst_0
  let main_v6 : IVec S50000x14 1 := cmpf .olt main_v4 main_v5
  let main_c_1 : IVec S_ 1 := constantI S_ 1 1#1
  let main_v7 : IVec S_ 1 := (fun x v => Host.reduce IntOp.andi x v reducesTo_S50000x14_S_d0_1 h_S_) main_v6 main_c_1
  let main_v8 : IVec S_ 1 := andi main_v3 main_v7
  let main_v9 : FVec F S1000000x1 .f32 := Host.absf main_arg2
  let main_cst_2 : FVec F S_ .f32 := constant S_ .f32 0x7F800000#32
  let main_v10 : FVec F S1000000x1 .f32 := broadcastInDim S1000000x1 ![] bcast_S_S1000000x1 main_cst_2
  let main_v11 : IVec S1000000x1 1 := cmpf .olt main_v9 main_v10
  let main_c_3 : IVec S_ 1 := constantI S_ 1 1#1
  let main_v12 : IVec S_ 1 := (fun x v => Host.reduce IntOp.andi x v reducesTo_S1000000x1_S_d0_1 h_S_) main_v11 main_c_3
  let main_v13 : IVec S_ 1 := andi main_v8 main_v12
  let main_v14 : FVec F S19x64 .f32 := Host.absf main_arg4
  let main_cst_4 : FVec F S_ .f32 := constant S_ .f32 0x7F800000#32
  let main_v15 : FVec F S19x64 .f32 := broadcastInDim S19x64 ![] bcast_S_S19x64 main_cst_4
  let main_v16 : IVec S19x64 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S50000x19 : Shape := ⟨2, ![50000, 19]⟩
abbrev S50000x14 : Shape := ⟨2, ![50000, 14]⟩
abbrev S1000000x1 : Shape := ⟨2, ![1000000, 1]⟩
abbrev S2x1000000 : Shape := ⟨2, ![2, 1000000]⟩
abbrev S19x64 : Shape := ⟨2, ![19, 64]⟩
abbrev S64 : Shape := ⟨1, ![64]⟩
abbrev S14x64 : Shape := ⟨2, ![14, 64]⟩
abbrev S129x64 : Shape := ⟨2, ![129, 64]⟩
abbrev S64x64 : Shape := ⟨2, ![64, 64]⟩
abbrev S64x1 : Shape := ⟨2, ![64, 1]⟩
abbrev S1 : Shape := ⟨1, ![1]⟩
abbrev S1x64 : Shape := ⟨2, ![1, 64]⟩
abbrev S50000x64 : Shape := ⟨2, ![50000, 64]⟩
abbrev S5000x19 : Shape := ⟨2, ![5000, 19]⟩
abbrev S5000x64 : Shape := ⟨2, ![5000, 64]⟩
abbrev S5000x14 : Shape := ⟨2, ![5000, 14]⟩
abbrev S1x1000000 : Shape := ⟨2, ![1, 1000000]⟩
abbrev S1000000 : Shape := ⟨1, ![1000000]⟩
abbrev S_ : Shape := ⟨0, ![]⟩
abbrev S1000000x64 : Shape := ⟨2, ![1000000, 64]⟩
abbrev S5000x1 : Shape := ⟨2, ![5000, 1]⟩
abbrev S5000x129 : Shape := ⟨2, ![5000, 129]⟩
abbrev S1x1 : Shape := ⟨2, ![1, 1]⟩
abbrev S50000x1 : Shape := ⟨2, ![50000, 1]⟩
abbrev S50000 : Shape := ⟨1, ![50000]⟩

abbrev nBuf : Space → Nat
  | .hbm => 75
  | .vmem => 42
  | .smem => 0
  | _ => 0

abbrev bufTy : (tb : Table) → Fin (tcTables nBuf tb) → BufTy
  | .hbm, ⟨0, _⟩ => ⟨S50000x19, .f32⟩
  | .hbm, ⟨1, _⟩ => ⟨S50000x14, .f32⟩
  | .hbm, ⟨2, _⟩ => ⟨S1000000x1, .f32⟩
  | .hbm, ⟨3, _⟩ => ⟨S2x1000000, .i32⟩
  | .hbm, ⟨4, _⟩ => ⟨S19x64, .f32⟩
  | .hbm, ⟨5, _⟩ => ⟨S64, .f32⟩
  | .hbm, ⟨6, _⟩ => ⟨S14x64, .f32⟩
  | .hbm, ⟨7, _⟩ => ⟨S64, .f32⟩
  | .hbm, ⟨8, _⟩ => ⟨S129x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S129x64, .f32⟩
  | .hbm, ⟨13, _⟩ => ⟨S64, .f32⟩
  | .hbm, ⟨14, _⟩ => ⟨S64x64, .f32⟩
  | .hbm, ⟨15, _⟩ => ⟨S64, .f32⟩
  | .hbm, ⟨16, _⟩ => ⟨S64x1, .f32⟩
  | .hbm, ⟨17, _⟩ => ⟨S1, .f32⟩
  | .hbm, ⟨18, _⟩ => ⟨S1x64, .f32⟩
  | .hbm, ⟨19, _⟩ => ⟨S50000x64, .f32⟩
  | .hbm, ⟨20, _⟩ => ⟨S1x64, .f32⟩
  | .hbm, ⟨21, _⟩ => ⟨S50000x64, .f32⟩
  | .hbm, ⟨22, _⟩ => ⟨S50000x64, .bf16⟩
  | .hbm, ⟨23, _⟩ => ⟨S50000x64, .bf16⟩
  | .hbm, ⟨24, _⟩ => ⟨S1x1000000, .i32⟩
  | .hbm, ⟨25, _⟩ => ⟨S1000000, .i32⟩
  | .hbm, ⟨26, _⟩ => ⟨S1x1000000, .i32⟩
  | .hbm, ⟨27, _⟩ => ⟨S1000000, .i32⟩
  | .hbm, ⟨28, _⟩ => ⟨S_, .i32⟩
  | .hbm, ⟨29, _⟩ => ⟨S1000000, .i32⟩
  | .hbm, ⟨30, _⟩ => ⟨S1000000, .i1⟩
  | .hbm, ⟨31, _⟩ => ⟨S_, .i32⟩
  | .hbm, ⟨32, _⟩ => ⟨S1000000, .i32⟩
  | .hbm, ⟨33, _⟩ => ⟨S1000000, .i32⟩
  | .hbm, ⟨34, _⟩ => ⟨S1000000, .i32⟩
  | .hbm, ⟨35, _⟩ => ⟨S1000000x1, .i32⟩
  | .hbm, ⟨36, _⟩ => ⟨S1000000x64, .bf16⟩
  | .hbm, ⟨37, _⟩ => ⟨S_, .i32⟩
  | .hbm, ⟨38, _⟩ => ⟨S1000000, .i32⟩
  | .hbm, ⟨39, _⟩ => ⟨S1000000, .i1⟩
  | .hbm, ⟨40, _⟩ => ⟨S_, .i32⟩
  | .hbm, ⟨41, _⟩ => ⟨S1000000, .i32⟩
  | .hbm, ⟨42, _⟩ => ⟨S1000000, .i32⟩
  | .hbm, ⟨43, _⟩ => ⟨S1000000, .i32⟩
  | .hbm, ⟨44, _⟩ => ⟨S1000000x1, .i32⟩
  | .hbm, ⟨45, _⟩ => ⟨S1000000x64, .bf16⟩
  | .hbm, ⟨46, _⟩ => ⟨S1x64, .f32⟩
  | .hbm, ⟨47, _⟩ => ⟨S1x64, .f32⟩
  | .hbm, ⟨48, _⟩ => ⟨S1000000x64, .f32⟩
  | .hbm, ⟨49, _⟩ => ⟨S_, .f32⟩
  | .hbm, ⟨50, _⟩ => ⟨S50000x64, .f32⟩
  | .hbm, ⟨51, _⟩ => ⟨S1000000x1, .i32⟩
  | .hbm, ⟨52, _⟩ => ⟨S50000x64, .f32⟩
  | .hbm, ⟨53, _⟩ => ⟨S50000x64, .f32⟩
  | .hbm, ⟨54, _⟩ => ⟨S50000x64, .bf16⟩
  | .hbm, ⟨55, _⟩ => ⟨S_, .i32⟩
  | .hbm, ⟨56, _⟩ => ⟨S1000000, .i32⟩
  | .hbm, ⟨57, _⟩ => ⟨S1000000, .i1⟩
  | .hbm, ⟨58, _⟩ => ⟨S_, .i32⟩
  | .hbm, ⟨59, _⟩ => ⟨S1000000, .i32⟩
  | .hbm, ⟨60, _⟩ => ⟨S1000000, .i32⟩
  | .hbm, ⟨61, _⟩ => ⟨S1000000, .i32⟩
  | .hbm, ⟨62, _⟩ => ⟨S1000000x1, .i32⟩
  | .hbm, ⟨63, _⟩ => ⟨S1000000x64, .bf16⟩
  | .hbm, ⟨64, _⟩ => ⟨S1x64, .f32⟩
  | .hbm, ⟨65, _⟩ => ⟨S1x64, .f32⟩
  | .hbm, ⟨66, _⟩ => ⟨S1000000x64, .f32⟩
  | .hbm, ⟨67, _⟩ => ⟨S_, .f32⟩
  | .hbm, ⟨68, _⟩ => ⟨S50000x64, .f32⟩
  | .hbm, ⟨69, _⟩ => ⟨S1000000x1, .i32⟩
  | .hbm, ⟨70, _⟩ => ⟨S50000x64, .f32⟩
  | .hbm, ⟨71, _⟩ => ⟨S50000x64, .f32⟩
  | .hbm, ⟨72, _⟩ => ⟨S1x1, .f32⟩
  | .hbm, ⟨73, _⟩ => ⟨S50000x1, .f32⟩
  | .hbm, ⟨74, _⟩ => ⟨S50000, .f32⟩
  | .local _ .vmem, ⟨0, _⟩ => ⟨S5000x19, .f32⟩
  | .local _ .vmem, ⟨1, _⟩ => ⟨S5000x19, .f32⟩
  | .local _ .vmem, ⟨2, _⟩ => ⟨S19x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x14, .f32⟩
  | .local _ .vmem, ⟨7, _⟩ => ⟨S5000x14, .f32⟩
  | .local _ .vmem, ⟨8, _⟩ => ⟨S14x64, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | .local _ .vmem, ⟨12, _⟩ => ⟨S5000x64, .bf16⟩
  | .local _ .vmem, ⟨13, _⟩ => ⟨S5000x64, .bf16⟩
  | .local _ .vmem, ⟨14, _⟩ => ⟨S5000x1, .f32⟩
  | .local _ .vmem, ⟨15, _⟩ => ⟨S5000x1, .f32⟩
  | .local _ .vmem, ⟨16, _⟩ => ⟨S5000x64, .bf16⟩
  | .local _ .vmem, ⟨17, _⟩ => ⟨S5000x64, .bf16⟩
  | .local _ .vmem, ⟨18, _⟩ => ⟨S129x64, .f32⟩
  | .local _ .vmem, ⟨19, _⟩ => ⟨S1x64, .f32⟩
  | .local _ .vmem, ⟨20, _⟩ => ⟨S64x64, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | .local _ .vmem, ⟨24, _⟩ => ⟨S5000x64, .bf16⟩
  | .local _ .vmem, ⟨25, _⟩ => ⟨S5000x64, .bf16⟩
  | .local _ .vmem, ⟨26, _⟩ => ⟨S5000x1, .f32⟩
  | .local _ .vmem, ⟨27, _⟩ => ⟨S5000x1, .f32⟩
  | .local _ .vmem, ⟨28, _⟩ => ⟨S5000x64, .bf16⟩
  | .local _ .vmem, ⟨29, _⟩ => ⟨S5000x64, .bf16⟩
  | .local _ .vmem, ⟨30, _⟩ => ⟨S129x64, .f32⟩
  | .local _ .vmem, ⟨31, _⟩ => ⟨S1x64, .f32⟩
  | .local _ .vmem, ⟨32, _⟩ => ⟨S64x64, .f32⟩
  | .local _ .vmem, ⟨33, _⟩ => ⟨S1x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S64x1, .f32⟩
  | .local _ .vmem, ⟨39, _⟩ => ⟨S1x1, .f32⟩
  | .local _ .vmem, ⟨40, _⟩ => ⟨S5000x1, .f32⟩
  | .local _ .vmem, ⟨41, _⟩ => ⟨S5000x1, .f32⟩
  | _, _ => ⟨S50000x19, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_c : Ref sig .tc := ⟨.hbm, 28, rfl⟩
abbrev main_v10 : Ref sig .tc := ⟨.hbm, 29, rfl⟩
abbrev main_v11 : Ref sig .tc := ⟨.hbm, 30, rfl⟩
abbrev main_c_0 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_c_1 : Ref sig .tc := ⟨.hbm, 37, rfl⟩
abbrev main_v17 : Ref sig .tc := ⟨.hbm, 38, rfl⟩
abbrev main_v18 : Ref sig .tc := ⟨.hbm, 39, rfl⟩
abbrev main_c_2 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_3 : Ref sig .tc := ⟨.hbm, 55, rfl⟩
abbrev main_v32 : Ref sig .tc := ⟨.hbm, 56, rfl⟩
abbrev main_v33 : Ref sig .tc := ⟨.hbm, 57, rfl⟩
abbrev main_c_4 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_5 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg7_0 : Ref sig .tc := ⟨.vmem, 22, rfl⟩
abbrev cc2_stg7_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg6_0 : Ref sig .tc := ⟨.vmem, 33, rfl⟩
abbrev cc3_stg7_0 : Ref sig .tc := ⟨.vmem, 34, rfl⟩
abbrev cc3_stg7_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg3_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem7_0 : DmaSem sig := 22
abbrev cc2_sem7_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem4_0 : DmaSem sig := 31
abbrev cc3_sem5_0 : DmaSem sig := 32
abbrev cc3_sem6_0 : DmaSem sig := 33
abbrev cc3_sem7_0 : DmaSem sig := 34
abbrev cc3_sem7_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem3_0 : DmaSem sig := 40
abbrev cc4_sem3_1 : DmaSem sig := 41

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x19 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S19x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x14 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S14x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S129x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![200], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x64 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S129x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x64 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  shapeCasts_S64_S1x64 : S64.ShapeCasts S1x64
  inb_S5000x19_S5000x19_0_0 : ∀ a, (![0, 0] : Fin 2 → Nat) a + S5000x19.size a ≤ S5000x19.size a
  h_S5000x19 : 0 < S5000x19.numel
  bitsLt_bf16_f32 : FTy.bits .bf16 < FTy.bits .f32
  inb_S19x64_S19x64_0_0 : ∀ a, (![0, 0] : Fin 2 → Nat) a + S19x64.size a ≤ S19x64.size a
  h_S19x64 : 0 < S19x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  inb_S5000x14_S5000x14_0_0 : ∀ a, (![0, 0] : Fin 2 → Nat) a + S5000x14.size a ≤ S5000x14.size a
  h_S5000x14 : 0 < S5000x14.numel
  inb_S14x64_S14x64_0_0 : ∀ a, (![0, 0] : Fin 2 → Nat) a + S14x64.size a ≤ S14x64.size a
  h_S14x64 : 0 < S14x64.numel
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  concatenates_S5000x64_S5000x1_S5000x64_S5000x129_d1 : Shape.Concatenates [S5000x64, S5000x1, S5000x64] S5000x129 1
  inb_S129x64_S129x64_0_0 : ∀ a, (![0, 0] : Fin 2 → Nat) a + S129x64.size a ≤ S129x64.size a
  h_S129x64 : 0 < S129x64.numel
  inb_S64x64_S64x64_0_0 : ∀ a, (![0, 0] : Fin 2 → Nat) a + S64x64.size a ≤ S64x64.size a
  h_S64x64 : 0 < S64x64.numel
  bcast_S_S50000x64 : S_.BroadcastsInDim S50000x64 (![] : Fin 0 → Fin S50000x64.rank)
  shapeCasts_S1_S1x1 : S1.ShapeCasts S1x1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  shapeCasts_S50000x1_S50000 : S50000x1.ShapeCasts S50000
  dot_S5000x19_S19x64_S5000x64_1_0_0_1_n_n_wf : DotDims.WF S5000x19 S19x64 S5000x64 [1] [0] [0] [1] [] []
  dot_S5000x14_S14x64_S5000x64_1_0_0_1_n_n_wf : DotDims.WF S5000x14 S14x64 S5000x64 [1] [0] [0] [1] [] []
  gather_S50000x64_S1000000x1_S1000000x64_1_0_n_n_0_1_164_wf : GatherDims.WF S50000x64 S1000000x1 S1000000x64 [1] [0] [] [0] [] 1 ![1, 64]
  dot_S5000x129_S129x64_S5000x64_1_0_0_1_n_n_wf : DotDims.WF S5000x129 S129x64 S5000x64 [1] [0] [0] [1] [] []
  dot_S5000x64_S64x64_S5000x64_1_0_0_1_n_n_wf : DotDims.WF S5000x64 S64x64 S5000x64 [1] [0] [0] [1] [] []
  scatter_S50000x64_S1000000x1_S1000000x64_1_0_0_1_wf : ScatterDims.WF S50000x64 S1000000x1 S1000000x64 [1] [0] [0] 1
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x19.size a ≤ S50000x19.size a
  hwx0_0 : ∀ i : grid0.Coords, EltTy.bits .f32 = 32 ∨ (Rect.block (s := S50000x19) S5000x19.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S19x64.size a ≤ S19x64.size a
  hwx0_1 : ∀ i : grid0.Coords, EltTy.bits .f32 = 32 ∨ (Rect.block (s := S19x64) S19x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x14.size a ≤ S50000x14.size a
  hwx1_0 : ∀ i : grid1.Coords, EltTy.bits .f32 = 32 ∨ (Rect.block (s := S50000x14) S5000x14.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S14x64.size a ≤ S14x64.size a
  hwx1_1 : ∀ i : grid1.Coords, EltTy.bits .f32 = 32 ∨ (Rect.block (s := S14x64) S14x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S1000000x64.size a
  hwx2_0 : ∀ i : grid2.Coords, EltTy.bits .bf16 = 32 ∨ (Rect.block (s := S1000000x64) S5000x64.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S1000000x1.size a
  hwx2_1 : ∀ i : grid2.Coords, EltTy.bits .f32 = 32 ∨ (Rect.block (s := S1000000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S1000000x64.size a
  hwx2_2 : ∀ i : grid2.Coords, EltTy.bits .bf16 = 32 ∨ (Rect.block (s := S1000000x64) S5000x64.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S129x64.size a ≤ S129x64.size a
  hwx2_3 : ∀ i : grid2.Coords, EltTy.bits .f32 = 32 ∨ (Rect.block (s := S129x64) S129x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x64.size a ≤ S1000000x64.size a
  hwx2_7 : ∀ i : grid2.Coords, EltTy.bits .f32 = 32 ∨ (Rect.block (s := S1000000x64) S5000x64.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S1000000x64.size a
  hwx3_0 : ∀ i : grid3.Coords, EltTy.bits .bf16 = 32 ∨ (Rect.block (s := S1000000x64) S5000x64.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S1000000x1.size a
  hwx3_1 : ∀ i : grid3.Coords, EltTy.bits .f32 = 32 ∨ (Rect.block (s := S1000000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S1000000x64.size a
  hwx3_2 : ∀ i : grid3.Coords, EltTy.bits .bf16 = 32 ∨ (Rect.block (s := S1000000x64) S5000x64.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S129x64.size a ≤ S129x64.size a
  hwx3_3 : ∀ i : grid3.Coords, EltTy.bits .f32 = 32 ∨ (Rect.block (s := S129x64) S129x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x64.size a ≤ S64x64.size a
  hwx3_5 : ∀ i : grid3.Coords, EltTy.bits .f32 = 32 ∨ (Rect.block (s := S64x64) S64x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x64.size a ≤ S1000000x64.size a
  hwx3_7 : ∀ i : grid3.Coords, EltTy.bits .f32 = 32 ∨ (Rect.block (s := S1000000x64) S5000x64.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x1.size a ≤ S64x1.size a
  hwx4_1 : ∀ i : grid4.Coords, EltTy.bits .f32 = 32 ∨ (Rect.block (s := S64x1) S64x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1.size a ≤ S1x1.size a
  hwx4_2 : ∀ i : grid4.Coords, EltTy.bits .f32 = 32 ∨ (Rect.block (s := S1x1) S1x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x1.size a ≤ S50000x1.size a
  hwx4_3 : ∀ i : grid4.Coords, EltTy.bits .f32 = 32 ∨ (Rect.block (s := S50000x1) S5000x1.size (cc4_transform_3 i) (hinb4_3 i)).WholeWords (EltTy.packing .f32)

variable [Facts₀]

def dot_S5000x19_S19x64_S5000x64_1_0_0_1_n_n : DotDims S5000x19 S19x64 S5000x64 where
  lhsContracting := [1]
  rhsContracting := [0]
  lhsNonContracting := [0]
  rhsNonContracting := [1]
  lhsBatch := []
  rhsBatch := []
  wf := dot_S5000x19_S19x64_S5000x64_1_0_0_1_n_n_wf
def dot_S5000x14_S14x64_S5000x64_1_0_0_1_n_n : DotDims S5000x14 S14x64 S5000x64 where
  lhsContracting := [1]
  rhsContracting := [0]
  lhsNonContracting := [0]
  rhsNonContracting := [1]
  lhsBatch := []
  rhsBatch := []
  wf := dot_S5000x14_S14x64_S5000x64_1_0_0_1_n_n_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def dot_S5000x129_S129x64_S5000x64_1_0_0_1_n_n : DotDims S5000x129 S129x64 S5000x64 where
  lhsContracting := [1]
  rhsContracting := [0]
  lhsNonContracting := [0]
  rhsNonContracting := [1]
  lhsBatch := []
  rhsBatch := []
  wf := dot_S5000x129_S129x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_arg0) S5000x19.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S19x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S5000x14.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S14x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v16) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v23) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S129x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v24) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg10) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v25) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v26) S5000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v38) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg2) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v16) S5000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg12) S129x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v39) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg14) S64x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v40) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v41) S5000x64.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v45) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg16) S64x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v46) S1x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v47) S5000x1.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x19 : Shape := ⟨2, ![50000, 19]⟩
abbrev S50000x14 : Shape := ⟨2, ![50000, 14]⟩
abbrev S1000000x1 : Shape := ⟨2, ![1000000, 1]⟩
abbrev S2x1000000 : Shape := ⟨2, ![2, 1000000]⟩
abbrev S19x64 : Shape := ⟨2, ![19, 64]⟩
abbrev S64 : Shape := ⟨1, ![64]⟩
abbrev S14x64 : Shape := ⟨2, ![14, 64]⟩
abbrev S129x64 : Shape := ⟨2, ![129, 64]⟩
abbrev S64x64 : Shape := ⟨2, ![64, 64]⟩
abbrev S64x1 : Shape := ⟨2, ![64, 1]⟩
abbrev S1 : Shape := ⟨1, ![1]⟩
abbrev S50000x64 : Shape := ⟨2, ![50000, 64]⟩
abbrev S1x64 : Shape := ⟨2, ![1, 64]⟩
abbrev S_ : Shape := ⟨0, ![]⟩
abbrev S1x1000000 : Shape := ⟨2, ![1, 1000000]⟩
abbrev S1000000 : Shape := ⟨1, ![1000000]⟩
abbrev S1000000x64 : Shape := ⟨2, ![1000000, 64]⟩
abbrev S1000000x129 : Shape := ⟨2, ![1000000, 129]⟩
abbrev S50000x1 : Shape := ⟨2, ![50000, 1]⟩
abbrev S1x1 : Shape := ⟨2, ![1, 1]⟩
abbrev S50000 : Shape := ⟨1, ![50000]⟩

abbrev nBuf : Space → Nat
  | .hbm => 111
  | .vmem => 0
  | .smem => 0
  | _ => 0

abbrev bufTy : (tb : Table) → Fin (tcTables nBuf tb) → BufTy
  | .hbm, ⟨0, _⟩ => ⟨S50000x19, .f32⟩
  | .hbm, ⟨1, _⟩ => ⟨S50000x14, .f32⟩
  | .hbm, ⟨2, _⟩ => ⟨S1000000x1, .f32⟩
  | .hbm, ⟨3, _⟩ => ⟨S2x1000000, .i32⟩
  | .hbm, ⟨4, _⟩ => ⟨S19x64, .f32⟩
  | .hbm, ⟨5, _⟩ => ⟨S64, .f32⟩
  | .hbm, ⟨6, _⟩ => ⟨S14x64, .f32⟩
  | .hbm, ⟨7, _⟩ => ⟨S64, .f32⟩
  | .hbm, ⟨8, _⟩ => ⟨S129x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S129x64, .f32⟩
  | .hbm, ⟨13, _⟩ => ⟨S64, .f32⟩
  | .hbm, ⟨14, _⟩ => ⟨S64x64, .f32⟩
  | .hbm, ⟨15, _⟩ => ⟨S64, .f32⟩
  | .hbm, ⟨16, _⟩ => ⟨S64x1, .f32⟩
  | .hbm, ⟨17, _⟩ => ⟨S1, .f32⟩
  | .hbm, ⟨18, _⟩ => ⟨S50000x64, .f32⟩
  | .hbm, ⟨19, _⟩ => ⟨S1x64, .f32⟩
  | .hbm, ⟨20, _⟩ => ⟨S50000x64, .f32⟩
  | .hbm, ⟨21, _⟩ => ⟨S50000x64, .f32⟩
  | .hbm, ⟨22, _⟩ => ⟨S_, .f32⟩
  | .hbm, ⟨23, _⟩ => ⟨S50000x64, .f32⟩
  | .hbm, ⟨24, _⟩ => ⟨S50000x64, .f32⟩
  | .hbm, ⟨25, _⟩ => ⟨S50000x64, .f32⟩
  | .hbm, ⟨26, _⟩ => ⟨S1x64, .f32⟩
  | .hbm, ⟨27, _⟩ => ⟨S50000x64, .f32⟩
  | .hbm, ⟨28, _⟩ => ⟨S50000x64, .f32⟩
  | .hbm, ⟨29, _⟩ => ⟨S_, .f32⟩
  | .hbm, ⟨30, _⟩ => ⟨S50000x64, .f32⟩
  | .hbm, ⟨31, _⟩ => ⟨S50000x64, .f32⟩
  | .hbm, ⟨32, _⟩ => ⟨S1x1000000, .i32⟩
  | .hbm, ⟨33, _⟩ => ⟨S1000000, .i32⟩
  | .hbm, ⟨34, _⟩ => ⟨S1x1000000, .i32⟩
  | .hbm, ⟨35, _⟩ => ⟨S1000000, .i32⟩
  | .hbm, ⟨36, _⟩ => ⟨S_, .i32⟩
  | .hbm, ⟨37, _⟩ => ⟨S1000000, .i32⟩
  | .hbm, ⟨38, _⟩ => ⟨S1000000, .i1⟩
  | .hbm, ⟨39, _⟩ => ⟨S_, .i32⟩
  | .hbm, ⟨40, _⟩ => ⟨S1000000, .i32⟩
  | .hbm, ⟨41, _⟩ => ⟨S1000000, .i32⟩
  | .hbm, ⟨42, _⟩ => ⟨S1000000, .i32⟩
  | .hbm, ⟨43, _⟩ => ⟨S1000000x1, .i32⟩
  | .hbm, ⟨44, _⟩ => ⟨S1000000x64, .f32⟩
  | .hbm, ⟨45, _⟩ => ⟨S_, .i32⟩
  | .hbm, ⟨46, _⟩ => ⟨S1000000, .i32⟩
  | .hbm, ⟨47, _⟩ => ⟨S1000000, .i1⟩
  | .hbm, ⟨48, _⟩ => ⟨S_, .i32⟩
  | .hbm, ⟨49, _⟩ => ⟨S1000000, .i32⟩
  | .hbm, ⟨50, _⟩ => ⟨S1000000, .i32⟩
  | .hbm, ⟨51, _⟩ => ⟨S1000000, .i32⟩
  | .hbm, ⟨52, _⟩ => ⟨S1000000x1, .i32⟩
  | .hbm, ⟨53, _⟩ => ⟨S1000000x64, .f32⟩
  | .hbm, ⟨54, _⟩ => ⟨S1000000x129, .f32⟩
  | .hbm, ⟨55, _⟩ => ⟨S1000000x64, .f32⟩
  | .hbm, ⟨56, _⟩ => ⟨S1x64, .f32⟩
  | .hbm, ⟨57, _⟩ => ⟨S1000000x64, .f32⟩
  | .hbm, ⟨58, _⟩ => ⟨S1000000x64, .f32⟩
  | .hbm, ⟨59, _⟩ => ⟨S_, .f32⟩
  | .hbm, ⟨60, _⟩ => ⟨S1000000x64, .f32⟩
  | .hbm, ⟨61, _⟩ => ⟨S1000000x64, .f32⟩
  | .hbm, ⟨62, _⟩ => ⟨S1000000x64, .f32⟩
  | .hbm, ⟨63, _⟩ => ⟨S1x64, .f32⟩
  | .hbm, ⟨64, _⟩ => ⟨S1000000x64, .f32⟩
  | .hbm, ⟨65, _⟩ => ⟨S1000000x64, .f32⟩
  | .hbm, ⟨66, _⟩ => ⟨S_, .f32⟩
  | .hbm, ⟨67, _⟩ => ⟨S50000x64, .f32⟩
  | .hbm, ⟨68, _⟩ => ⟨S1000000x1, .i32⟩
  | .hbm, ⟨69, _⟩ => ⟨S50000x64, .f32⟩
  | .hbm, ⟨70, _⟩ => ⟨S50000x64, .f32⟩
  | .hbm, ⟨71, _⟩ => ⟨S_, .i32⟩
  | .hbm, ⟨72, _⟩ => ⟨S1000000, .i32⟩
  | .hbm, ⟨73, _⟩ => ⟨S1000000, .i1⟩
  | .hbm, ⟨74, _⟩ => ⟨S_, .i32⟩
  | .hbm, ⟨75, _⟩ => ⟨S1000000, .i32⟩
  | .hbm, ⟨76, _⟩ => ⟨S1000000, .i32⟩
  | .hbm, ⟨77, _⟩ => ⟨S1000000, .i32⟩
  | .hbm, ⟨78, _⟩ => ⟨S1000000x1, .i32⟩
  | .hbm, ⟨79, _⟩ => ⟨S1000000x64, .f32⟩
  | .hbm, ⟨80, _⟩ => ⟨S_, .i32⟩
  | .hbm, ⟨81, _⟩ => ⟨S1000000, .i32⟩
  | .hbm, ⟨82, _⟩ => ⟨S1000000, .i1⟩
  | .hbm, ⟨83, _⟩ => ⟨S_, .i32⟩
  | .hbm, ⟨84, _⟩ => ⟨S1000000, .i32⟩
  | .hbm, ⟨85, _⟩ => ⟨S1000000, .i32⟩
  | .hbm, ⟨86, _⟩ => ⟨S1000000, .i32⟩
  | .hbm, ⟨87, _⟩ => ⟨S1000000x1, .i32⟩
  | .hbm, ⟨88, _⟩ => ⟨S1000000x64, .f32⟩
  | .hbm, ⟨89, _⟩ => ⟨S1000000x129, .f32⟩
  | .hbm, ⟨90, _⟩ => ⟨S1000000x64, .f32⟩
  | .hbm, ⟨91, _⟩ => ⟨S1x64, .f32⟩
  | .hbm, ⟨92, _⟩ => ⟨S1000000x64, .f32⟩
  | .hbm, ⟨93, _⟩ => ⟨S1000000x64, .f32⟩
  | .hbm, ⟨94, _⟩ => ⟨S_, .f32⟩
  | .hbm, ⟨95, _⟩ => ⟨S1000000x64, .f32⟩
  | .hbm, ⟨96, _⟩ => ⟨S1000000x64, .f32⟩
  | .hbm, ⟨97, _⟩ => ⟨S1000000x64, .f32⟩
  | .hbm, ⟨98, _⟩ => ⟨S1x64, .f32⟩
  | .hbm, ⟨99, _⟩ => ⟨S1000000x64, .f32⟩
  | .hbm, ⟨100, _⟩ => ⟨S1000000x64, .f32⟩
  | .hbm, ⟨101, _⟩ => ⟨S_, .f32⟩
  | .hbm, ⟨102, _⟩ => ⟨S50000x64, .f32⟩
  | .hbm, ⟨103, _⟩ => ⟨S1000000x1, .i32⟩
  | .hbm, ⟨104, _⟩ => ⟨S50000x64, .f32⟩
  | .hbm, ⟨105, _⟩ => ⟨S50000x64, .f32⟩
  | .hbm, ⟨106, _⟩ => ⟨S50000x1, .f32⟩
  | .hbm, ⟨107, _⟩ => ⟨S1x1, .f32⟩
  | .hbm, ⟨108, _⟩ => ⟨S50000x1, .f32⟩
  | .hbm, ⟨109, _⟩ => ⟨S50000x1, .f32⟩
  | .hbm, ⟨110, _⟩ => ⟨S50000, .f32⟩
  | _, _ => ⟨S50000x19, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_0 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_c : Ref sig .tc := ⟨.hbm, 36, rfl⟩
abbrev main_v16 : Ref sig .tc := ⟨.hbm, 37, rfl⟩
abbrev main_v17 : Ref sig .tc := ⟨.hbm, 38, rfl⟩
abbrev main_c_1 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c_2 : Ref sig .tc := ⟨.hbm, 45, rfl⟩
abbrev main_v23 : Ref sig .tc := ⟨.hbm, 46, rfl⟩
abbrev main_v24 : Ref sig .tc := ⟨.hbm, 47, rfl⟩
abbrev main_c_3 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_4 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_5 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_c_6 : Ref sig .tc := ⟨.hbm, 71, rfl⟩
abbrev main_v45 : Ref sig .tc := ⟨.hbm, 72, rfl⟩
abbrev main_v46 : Ref sig .tc := ⟨.hbm, 73, rfl⟩
abbrev main_c_7 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_c_8 : Ref sig .tc := ⟨.hbm, 80, rfl⟩
abbrev main_v52 : Ref sig .tc := ⟨.hbm, 81, rfl⟩
abbrev main_v53 : Ref sig .tc := ⟨.hbm, 82, rfl⟩
abbrev main_c_9 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_10 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_11 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x64_S1000000x1_S1000000x64_S1000000x129_d1 : Shape.Concatenates [S1000000x64, S1000000x1, S1000000x64] S1000000x129 1
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  dot_S50000x19_S19x64_S50000x64_1_0_0_1_n_n_wf : DotDims.WF S50000x19 S19x64 S50000x64 [1] [0] [0] [1] [] []
  dot_S50000x14_S14x64_S50000x64_1_0_0_1_n_n_wf : DotDims.WF S50000x14 S14x64 S50000x64 [1] [0] [0] [1] [] []
  gather_S50000x64_S1000000x1_S1000000x64_1_0_n_n_0_1_164_wf : GatherDims.WF S50000x64 S1000000x1 S1000000x64 [1] [0] [] [0] [] 1 ![1, 64]
  dot_S1000000x129_S129x64_S1000000x64_1_0_0_1_n_n_wf : DotDims.WF S1000000x129 S129x64 S1000000x64 [1] [0] [0] [1] [] []
  dot_S1000000x64_S64x64_S1000000x64_1_0_0_1_n_n_wf : DotDims.WF S1000000x64 S64x64 S1000000x64 [1] [0] [0] [1] [] []
  scatter_S50000x64_S1000000x1_S1000000x64_1_0_0_1_wf : ScatterDims.WF S50000x64 S1000000x1 S1000000x64 [1] [0] [0] 1
  dot_S50000x64_S64x1_S50000x1_1_0_0_1_n_n_wf : DotDims.WF S50000x64 S64x1 S50000x1 [1] [0] [0] [1] [] []

variable [Facts₀]

def dot_S50000x19_S19x64_S50000x64_1_0_0_1_n_n : DotDims S50000x19 S19x64 S50000x64 where
  lhsContracting := [1]
  rhsContracting := [0]
  lhsNonContracting := [0]
  rhsNonContracting := [1]
  lhsBatch := []
  rhsBatch := []
  wf := dot_S50000x19_S19x64_S50000x64_1_0_0_1_n_n_wf
def dot_S50000x14_S14x64_S50000x64_1_0_0_1_n_n : DotDims S50000x14 S14x64 S50000x64 where
  lhsContracting := [1]
  rhsContracting := [0]
  lhsNonContracting := [0]
  rhsNonContracting := [1]
  lhsBatch := []
  rhsBatch := []
  wf := dot_S50000x14_S14x64_S50000x64_1_0_0_1_n_n_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def dot_S1000000x129_S129x64_S1000000x64_1_0_0_1_n_n : DotDims S1000000x129 S129x64 S1000000x64 where
  lhsContracting := [1]
  rhsContracting := [0]
  lhsNonContracting := [0]
  rhsNonContracting := [1]
  lhsBatch := []
  rhsBatch := []
  wf := dot_S1000000x129_S129x64_S1000000x64_1_0_0_1_n_n_wf
def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf

class Facts : Prop extends Facts₀ where

variable [Facts]
-- ==== Proof.KRun.lean ====
/-
  The idealized kernel's run with its RESULT named.

  Every weakly fair execution of the program terminates without a fault, and in the final memory the result
  buffer holds what the fold of the program's segments leaves there (the contents after the last stretch of host
  operations), while every argument array is as launched.  The argument is the one that gives the frame: the
  launch over the eleven segments, the last thread state read against the final memory — read here at one more
  buffer, the result.
-/
import proofs.«175801_j82394652607046_2_alg».proof.Proof.Gen.KernelIdeal.Frame

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_result : θ_run defs (onTc (τ := τ) (main (F := F))) ⟨m, fun _ => 0, ρ⟩ (fun r => ∀ c : Dev nD,
      r.2.mem ((c.tc : Thread nD τ).loc main_v48) = W11 m ρ c (Proc.devRef .tc main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v48 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c),
       (h c _ (mem_uc main_arg12 (by decide))).trans (W11_main_arg12 m ρ c),
       (h c _ (mem_uc main_arg13 (by decide))).trans (W11_main_arg13 m ρ c),
       (h c _ (mem_uc main_arg14 (by decide))).trans (W11_main_arg14 m ρ c),
       (h c _ (mem_uc main_arg15 (by decide))).trans (W11_main_arg15 m ρ c),
       (h c _ (mem_uc main_arg16 (by decide))).trans (W11_main_arg16 m ρ c),
       (h c _ (mem_uc main_arg17 (by decide))).trans (W11_main_arg17 m ρ c)⟩)

end Cert.KernelIdeal.Val

end
-- ==== Proof.Spec.lean ====
/-
  The functions both programs compute, stated once over plain index types.

  Every layer of the network is an affine row map: row `r` of the result is `x[r,·] · w + b`, optionally
  followed by the positive part.  Arrays are functions from a literal index type to the extended reals; nothing
  here mentions a program.
-/
import Idealize.ShloMosaic.PureOps.Ideal
import Idealize.ShloMosaic.Lib.ValueIdx

noncomputable section

namespace Cert.Spec

open Idealize.ShloMosaic Idealize.ShloMosaic.ValueIdx

/-- A rank-2 array of extended reals. -/
abbrev A2 (a b : ℕ) : Type := (⟨2, ![a, b]⟩ : Shape).Idx → EReal
/-- A rank-1 array of extended reals. -/
abbrev A1 (a : ℕ) : Type := (⟨1, ![a]⟩ : Shape).Idx → EReal

/-- The affine row map: entry `(r, j)` is `∑ₖ x[r,k] · w[k,j] + b[j]`. -/
def affine (M K N : ℕ) (x : A2 M K) (w : A2 K N) (b : A1 N) : A2 M N :=
  fun i => (∑ k : Fin K, x (ix2 (i 0) k) * w (ix2 k (i 1))) + b (ix1 (i 1))

/-- The affine row map followed by the positive part: entry `(r, j)` is `max (∑ₖ x[r,k] · w[k,j] + b[j]) 0`. -/
def affineRelu (M K N : ℕ) (x : A2 M K) (w : A2 K N) (b : A1 N) : A2 M N :=
  fun i => max ((∑ k : Fin K, x (ix2 (i 0) k) * w (ix2 k (i 1))) + b (ix1 (i 1))) 0

theorem affine_apply (M K N : ℕ) (x : A2 M K) (w : A2 K N) (b : A1 N) (r : Fin M) (j : Fin N) :
    affine M K N x w b (ix2 r j) = (∑ k : Fin K, x (ix2 r k) * w (ix2 k j)) + b (ix1 j) := rfl

theorem affineRelu_apply (M K N : ℕ) (x : A2 M K) (w : A2 K N) (b : A1 N) (r : Fin M) (j : Fin N) :
    affineRelu M K N x w b (ix2 r j) = max ((∑ k : Fin K, x (ix2 r k) * w (ix2 k j)) + b (ix1 j)) 0 := rfl

/-- The two-layer map of the edge network on an already joined input: a positive-part layer, then an affine one. -/
def twoLayer (M K : ℕ) (x : A2 M K) (w1 : A2 K 64) (b1 : A1 64) (w2 : A2 64 64) (b2 : A1 64) : A2 M 64 :=
  affine M 64 64 (affineRelu M K 64 x w1 b1) w2 b2

end Cert.Spec

end
-- ==== Proof.Terms.lean ====
/-
  The network as ONE function of its eighteen arguments.

  Node embeddings are a positive-part affine map of the node features.  Each edge takes the embedding rows of its
  two ends (a gather, negative indices wrapped), joins them with its own feature, and maps the joined row through
  a two-layer network; the messages are summed into the rows their edges end in (a scatter-addition from zero) and
  added to the embeddings.  This is done once towards the row nodes, once more towards the column nodes from the
  updated row embeddings, and the final column embeddings are mapped to one score each.  The gathers, the
  scatter-additions and the concatenation are kept as the operations they are: both programs apply the same ones.
-/
import proofs.«175801_j82394652607046_2_alg».proof.KernelIdeal
import proofs.«175801_j82394652607046_2_alg».proof.Proof.Gen.KernelIdeal
import proofs.«175801_j82394652607046_2_alg».proof.Proof.Spec
import Idealize.ShloMosaic.PureOps.Ideal

noncomputable section

namespace Cert.KernelIdeal.Val

open Cert.KernelIdeal Cert.KernelIdeal.Facts₀ Cert.KernelIdeal.Facts
open Idealize.ShloMosaic Idealize.ShloMosaic.TcCoe Idealize.SL.Sem

/-- A flat array of signed edge-end indices. -/
abbrev IdxVec : Type := (⟨S1000000, .i32⟩ : BufTy).Contents (Elt Ideal)
/-- The same as a one-column array, the form a gather or a scatter takes. -/
abbrev IdxCol : Type := (⟨S1000000x1, .i32⟩ : BufTy).Contents (Elt Ideal)
/-- The edge index array: two rows of edge ends. -/
abbrev EdgeIdx : Type := (⟨S2x1000000, .i32⟩ : BufTy).Contents (Elt Ideal)

/-- Row 0 of the edge index array: the row end of each edge. -/
def rowEnds (e : EdgeIdx) : IdxVec :=
  shapeCast S1000000 (extractStridedSlice S1x1000000 ![0, 0] e slices_S2x1000000_S1x1000000_0_0) shapeCasts_S1x1000000_S1000000
/-- Row 1 of the edge index array: the column end of each edge. -/
def colEnds (e : EdgeIdx) : IdxVec :=
  shapeCast S1000000 (extractStridedSlice S1x1000000 ![1, 0] e slices_S2x1000000_S1x1000000_1_0) shapeCasts_S1x1000000_S1000000
/-- Indices as a column, a negative one first moved up by the table's 50000 rows (the wrap of a gather). -/
def wrapped (v : IdxVec) : IdxCol :=
  broadcastInDim S1000000x1 ![0] bcast_S1000000_S1000000x1_0
    (select (cmpi .slt v (broadcastInDim S1000000 ![] bcast_S_S1000000 (constantI S_ 32 0#32)))
      (addi v (broadcastInDim S1000000 ![] bcast_S_S1000000 (constantI S_ 32 50000#32))) v)
/-- Indices as a column, unchanged (the segment ids of a scatter-addition). -/
def asCol (v : IdxVec) : IdxCol := broadcastInDim S1000000x1 ![0] bcast_S1000000_S1000000x1_0 v
/-- Rows of a 50000-row table picked by a column of indices. -/
def pick (tbl : S50000x64.Idx → EReal) (i : IdxCol) : S1000000x64.Idx → EReal :=
  Host.gather gather_S50000x64_S1000000x1_S1000000x64_1_0_n_n_0_1_164 tbl i
/-- Messages summed into the rows their segment ids name, from zero. -/
def gatherSum (i : IdxCol) (msg : S1000000x64.Idx → EReal) : S50000x64.Idx → EReal :=
  Host.scatterAdd (F := Ideal) (φ := .f32) scatter_S50000x64_S1000000x1_S1000000x64_1_0_0_1
    (broadcastInDim S50000x64 ![] bcast_S_S50000x64 (constant (F := Ideal) S_ .f32 0x00000000#32)) i msg

/-- The joined edge input: an embedding row, the edge feature, an embedding row. -/
abbrev Joined : Shape := ⟨2, ![1000000, 129]⟩

/-- The three pieces joined along the feature axis. -/
def joined (hcat : Shape.Concatenates [S1000000x64, S1000000x1, S1000000x64] Joined 1)
    (a : S1000000x64.Idx → EReal) (e : S1000000x1.Idx → EReal) (b : S1000000x64.Idx → EReal) : Joined.Idx → EReal :=
  concatenate Joined 1 [⟨S1000000x64, a⟩, ⟨S1000000x1, e⟩, ⟨S1000000x64, b⟩] hcat

section Whole

variable (hcat : Shape.Concatenates [S1000000x64, S1000000x1, S1000000x64] Joined 1)
variable (x0 : S50000x19.Idx → EReal) (x1 : S50000x14.Idx → EReal) (x2 : S1000000x1.Idx → EReal) (x3 : EdgeIdx)
  (x4 : S19x64.Idx → EReal) (x5 : S64.Idx → EReal) (x6 : S14x64.Idx → EReal) (x7 : S64.Idx → EReal)
  (x8 : S129x64.Idx → EReal) (x9 : S64.Idx → EReal) (x10 : S64x64.Idx → EReal) (x11 : S64.Idx → EReal)
  (x12 : S129x64.Idx → EReal) (x13 : S64.Idx → EReal) (x14 : S64x64.Idx → EReal) (x15 : S64.Idx → EReal)
  (x16 : S64x1.Idx → EReal) (x17 : S1.Idx → EReal)

/-- The column-node embeddings. -/
def colEmb : S50000x64.Idx → EReal := Cert.Spec.affineRelu 50000 19 64 x0 x4 x5
/-- The row-node embeddings. -/
def rowEmb : S50000x64.Idx → EReal := Cert.Spec.affineRelu 50000 14 64 x1 x6 x7
/-- The messages towards the row nodes. -/
def msgToRows : S1000000x64.Idx → EReal :=
  Cert.Spec.twoLayer 1000000 129
    (joined hcat (pick (colEmb x0 x4 x5) (wrapped (colEnds x3))) x2 (pick (rowEmb x1 x6 x7) (wrapped (rowEnds x3)))) x8 x9 x10 x11
/-- The updated row-node embeddings. -/
def rowEmb' : S50000x64.Idx → EReal :=
  addf (F := Ideal) (φ := .f32) (rowEmb x1 x6 x7) (gatherSum (asCol (rowEnds x3)) (msgToRows hcat x0 x1 x2 x3 x4 x5 x6 x7 x8 x9 x10 x11))
/-- The messages towards the column nodes. -/
def msgToCols : S1000000x64.Idx → EReal :=
  Cert.Spec.twoLayer 1000000 129
    (joined hcat (pick (rowEmb' hcat x0 x1 x2 x3 x4 x5 x6 x7 x8 x9 x10 x11) (wrapped (rowEnds x3))) x2
      (pick (colEmb x0 x4 x5) (wrapped (colEnds x3)))) x12 x13 x14 x15
/-- The updated column-node embeddings. -/
def colEmb' : S50000x64.Idx → EReal :=
  addf (F := Ideal) (φ := .f32) (colEmb x0 x4 x5)
    (gatherSum (asCol (colEnds x3)) (msgToCols hcat x0 x1 x2 x3 x4 x5 x6 x7 x8 x9 x10 x11 x12 x13 x14 x15))
/-- The scores, one per column node. -/
def scores : S50000.Idx → EReal :=
  shapeCast S50000 (Cert.Spec.affine 50000 64 1 (colEmb' hcat x0 x1 x2 x3 x4 x5 x6 x7 x8 x9 x10 x11 x12 x13 x14 x15) x16 x17)
    shapeCasts_S50000x1_S50000

end Whole

end Cert.KernelIdeal.Val

end
-- ==== Proof.FoldA.lean ====
/-
  The idealized kernel's buffers between its segments.

  The program is six stretches of host operations around five pallas regions.  A buffer that a stretch does not
  write, and that is not an output array of a region, holds after it what it held before; an input array of a
  region is left as the region found it.  Walking a buffer back through the segments in this way reaches either
  the launch memory (the arguments) or the segment that wrote it.  What each stretch writes is then read off its
  operations: reshapes of the bias vectors, the two rows of the edge index array with negative indices wrapped,
  the gathers of embedding rows, the scatter-additions of the messages, the residual additions.
-/
import proofs.«175801_j82394652607046_2_alg».proof.Proof.Gen.KernelIdeal.Frame
import Idealize.ShloMosaic.Lib.StableHlo.Run
import proofs.«175801_j82394652607046_2_alg».proof.Proof.Terms

set_option maxRecDepth 16384

noncomputable section

namespace Cert.KernelIdeal.Val

open Cert.KernelIdeal Cert.KernelIdeal.Gen
open Idealize.ShloMosaic Idealize.ShloMosaic.TcCoe Idealize.ShloMosaic.Tactic Idealize.ShloMosaic.StableHlo
open Idealize.SL.Sem
open Idealize.ShloMosaic.Pipeline (Dat)

variable (m : (ℓ : Loc nD τ sig) → Buf (Elt Ideal) ℓ) (ρ : Dev nD → PrngReg) (c : Dev nD)

/-! ## Buffers walked back through the segments: the arguments to the launch memory, a written buffer to the segment that wrote it -/

theorem V1_arg0 : W1 m ρ c (Proc.devRef .tc main_arg0) = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem V1_arg4 : W1 m ρ c (Proc.devRef .tc main_arg4) = m ((c : Thread nD τ).loc main_arg4) :=
  calc W1 m ρ c (Proc.devRef .tc main_arg4)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W2_arg7 : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem V3_arg1 : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem V3_arg6 : W3 m ρ c (Proc.devRef .tc main_arg6) = m ((c : Thread nD τ).loc main_arg6) :=
  calc W3 m ρ c (Proc.devRef .tc main_arg6)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W4_arg3 : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W4_arg9 : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

theorem W4_arg11 : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

theorem V5_arg2 : W5 m ρ c (Proc.devRef .tc main_arg2) = m ((c : Thread nD τ).loc main_arg2) :=
  calc W5 m ρ c (Proc.devRef .tc main_arg2)
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem V5_arg8 : W5 m ρ c (Proc.devRef .tc main_arg8) = m ((c : Thread nD τ).loc main_arg8) :=
  calc W5 m ρ c (Proc.devRef .tc main_arg8)
    _ = W4 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem V5_arg10 : W5 m ρ c (Proc.devRef .tc main_arg10) = m ((c : Thread nD τ).loc main_arg10) :=
  calc W5 m ρ c (Proc.devRef .tc main_arg10)
    _ = W4 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

theorem W6_arg13 : W6 m ρ c (Proc.devRef .tc main_arg13) = m ((c : Thread nD τ).loc main_arg13) :=
  calc W6 m ρ c (Proc.devRef .tc main_arg13)
    _ = W5 m ρ c (Proc.devRef .tc main_arg13) := W6_of_ne m ρ c main_arg13 (by decide)
    _ = W4 m ρ c (Proc.devRef .tc main_arg13) := StableHlo.after_of_forall_not_mem (b := Proc.devRef .tc main_arg13) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := rfl

theorem W6_arg15 : W6 m ρ c (Proc.devRef .tc main_arg15) = m ((c : Thread nD τ).loc main_arg15) :=
  calc W6 m ρ c (Proc.devRef .tc main_arg15)
    _ = W5 m ρ c (Proc.devRef .tc main_arg15) := W6_of_ne m ρ c main_arg15 (by decide)
    _ = W4 m ρ c (Proc.devRef .tc main_arg15) := StableHlo.after_of_forall_not_mem (b := Proc.devRef .tc main_arg15) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg15) := W4_of_ne m ρ c main_arg15 (by decide)
    _ = W2 m ρ c (Proc.devRef .tc main_arg15) := StableHlo.after_of_forall_not_mem (b := Proc.devRef .tc main_arg15) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg15) := W2_of_ne m ρ c main_arg15 (by decide)
    _ = W0 m ρ c (Proc.devRef .tc main_arg15) := StableHlo.after_of_forall_not_mem (b := Proc.devRef .tc main_arg15) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg15) := rfl

theorem V7_arg2 : W7 m ρ c (Proc.devRef .tc main_arg2) = m ((c : Thread nD τ).loc main_arg2) :=
  calc W7 m ρ c (Proc.devRef .tc main_arg2)
    _ = W6 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg2) := (W6_arr m ρ c 1).trans (((dat2 (V5 m ρ) c).arrAt_in 1 rfl _).trans (A_eq2 (V5 m ρ) c 1))
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem V7_arg12 : W7 m ρ c (Proc.devRef .tc main_arg12) = m ((c : Thread nD τ).loc main_arg12) :=
  calc W7 m ρ c (Proc.devRef .tc main_arg12)
    _ = W6 m ρ c (Proc.devRef .tc main_arg12) := StableHlo.after_of_forall_not_mem (b := Proc.devRef .tc main_arg12) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg12) := W6_of_ne m ρ c main_arg12 (by decide)
    _ = W4 m ρ c (Proc.devRef .tc main_arg12) := StableHlo.after_of_forall_not_mem (b := Proc.devRef .tc main_arg12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl

theorem V7_arg14 : W7 m ρ c (Proc.devRef .tc main_arg14) = m ((c : Thread nD τ).loc main_arg14) :=
  calc W7 m ρ c (Proc.devRef .tc main_arg14)
    _ = W6 m ρ c (Proc.devRef .tc main_arg14) := StableHlo.after_of_forall_not_mem (b := Proc.devRef .tc main_arg14) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg14) := W6_of_ne m ρ c main_arg14 (by decide)
    _ = W4 m ρ c (Proc.devRef .tc main_arg14) := StableHlo.after_of_forall_not_mem (b := Proc.devRef .tc main_arg14) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg14) := W4_of_ne m ρ c main_arg14 (by decide)
    _ = W2 m ρ c (Proc.devRef .tc main_arg14) := StableHlo.after_of_forall_not_mem (b := Proc.devRef .tc main_arg14) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := rfl

theorem W8_arg17 : W8 m ρ c (Proc.devRef .tc main_arg17) = m ((c : Thread nD τ).loc main_arg17) :=
  calc W8 m ρ c (Proc.devRef .tc main_arg17)
    _ = W7 m ρ c (Proc.devRef .tc main_arg17) := W8_of_ne m ρ c main_arg17 (by decide)
    _ = W6 m ρ c (Proc.devRef .tc main_arg17) := StableHlo.after_of_forall_not_mem (b := Proc.devRef .tc main_arg17) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg17) := W6_of_ne m ρ c main_arg17 (by decide)
    _ = W4 m ρ c (Proc.devRef .tc main_arg17) := StableHlo.after_of_forall_not_mem (b := Proc.devRef .tc main_arg17) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg17) := W4_of_ne m ρ c main_arg17 (by decide)
    _ = W2 m ρ c (Proc.devRef .tc main_arg17) := StableHlo.after_of_forall_not_mem (b := Proc.devRef .tc main_arg17) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg17) := W2_of_ne m ρ c main_arg17 (by decide)
    _ = W0 m ρ c (Proc.devRef .tc main_arg17) := StableHlo.after_of_forall_not_mem (b := Proc.devRef .tc main_arg17) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg17) := rfl

theorem V9_arg16 : W9 m ρ c (Proc.devRef .tc main_arg16) = m ((c : Thread nD τ).loc main_arg16) :=
  calc W9 m ρ c (Proc.devRef .tc main_arg16)
    _ = W8 m ρ c (Proc.devRef .tc main_arg16) := StableHlo.after_of_forall_not_mem (b := Proc.devRef .tc main_arg16) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg16) := W8_of_ne m ρ c main_arg16 (by decide)
    _ = W6 m ρ c (Proc.devRef .tc main_arg16) := StableHlo.after_of_forall_not_mem (b := Proc.devRef .tc main_arg16) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg16) := W6_of_ne m ρ c main_arg16 (by decide)
    _ = W4 m ρ c (Proc.devRef .tc main_arg16) := StableHlo.after_of_forall_not_mem (b := Proc.devRef .tc main_arg16) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg16) := W4_of_ne m ρ c main_arg16 (by decide)
    _ = W2 m ρ c (Proc.devRef .tc main_arg16) := StableHlo.after_of_forall_not_mem (b := Proc.devRef .tc main_arg16) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg16) := W2_of_ne m ρ c main_arg16 (by decide)
    _ = W0 m ρ c (Proc.devRef .tc main_arg16) := StableHlo.after_of_forall_not_mem (b := Proc.devRef .tc main_arg16) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg16) := rfl

theorem W4_v1 : W4 m ρ c (Proc.devRef .tc main_v1) = W2 m ρ c (Proc.devRef .tc main_v1) :=
  calc W4 m ρ c (Proc.devRef .tc main_v1)
    _ = W3 m ρ c (Proc.devRef .tc main_v1) := W4_of_ne m ρ c main_v1 (by decide)
    _ = W2 m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v1) := rfl

theorem W6_v3 : W6 m ρ c (Proc.devRef .tc main_v3) = W4 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v3) := rfl

theorem W6_v7 : W6 m ρ c (Proc.devRef .tc main_v7) = W5 m ρ c (Proc.devRef .tc main_v7) :=
  calc W6 m ρ c (Proc.devRef .tc main_v7)
    _ = W5 m ρ c (Proc.devRef .tc main_v7) := W6_of_ne m ρ c main_v7 (by decide)
    _ = W5 m ρ c (Proc.devRef .tc main_v7) := rfl

theorem V7_v16 : W7 m ρ c (Proc.devRef .tc main_v16) = W5 m ρ c (Proc.devRef .tc main_v16) :=
  calc W7 m ρ c (Proc.devRef .tc main_v16)
    _ = W6 m ρ c (Proc.devRef .tc main_v16) := StableHlo.after_of_forall_not_mem (b := Proc.devRef .tc main_v16) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v16) := (W6_arr m ρ c 0).trans (((dat2 (V5 m ρ) c).arrAt_in 0 rfl _).trans (A_eq2 (V5 m ρ) c 0))
    _ = W5 m ρ c (Proc.devRef .tc main_v16) := rfl

theorem W8_v1 : W8 m ρ c (Proc.devRef .tc main_v1) = W2 m ρ c (Proc.devRef .tc main_v1) :=
  calc W8 m ρ c (Proc.devRef .tc main_v1)
    _ = W7 m ρ c (Proc.devRef .tc main_v1) := W8_of_ne m ρ c main_v1 (by decide)
    _ = W6 m ρ c (Proc.devRef .tc main_v1) := StableHlo.after_of_forall_not_mem (b := Proc.devRef .tc main_v1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v1) := W6_of_ne m ρ c main_v1 (by decide)
    _ = W4 m ρ c (Proc.devRef .tc main_v1) := StableHlo.after_of_forall_not_mem (b := Proc.devRef .tc main_v1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v1) := W4_of_ne m ρ c main_v1 (by decide)
    _ = W2 m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v1) := rfl

theorem W8_v9 : W8 m ρ c (Proc.devRef .tc main_v9) = W5 m ρ c (Proc.devRef .tc main_v9) :=
  calc W8 m ρ c (Proc.devRef .tc main_v9)
    _ = W7 m ρ c (Proc.devRef .tc main_v9) := W8_of_ne m ρ c main_v9 (by decide)
    _ = W6 m ρ c (Proc.devRef .tc main_v9) := StableHlo.after_of_forall_not_mem (b := Proc.devRef .tc main_v9) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v9) := W6_of_ne m ρ c main_v9 (by decide)
    _ = W5 m ρ c (Proc.devRef .tc main_v9) := rfl

/-! ## What the host stretches write -/

theorem V1_v0 : W1 m ρ c (Proc.devRef .tc main_v0) = shapeCast S1x64 (m ((c : Thread nD τ).loc main_arg5)) shapeCasts_S64_S1x64 := by
  show StableHlo.after hostOps0 (W0 m ρ c) (Proc.devRef .tc main_v0) = _
  after_results
  rfl

theorem V3_v2 : W3 m ρ c (Proc.devRef .tc main_v2) = shapeCast S1x64 (W2 m ρ c (Proc.devRef .tc main_arg7)) shapeCasts_S64_S1x64 := by
  show StableHlo.after hostOps1 (W2 m ρ c) (Proc.devRef .tc main_v2) = _
  after_results
  rfl

/-! ### The third stretch: the gathers for the first edge network -/

theorem W5_v7 : W5 m ρ c (Proc.devRef .tc main_v7) = rowEnds (W4 m ρ c (Proc.devRef .tc main_arg3)) := by
  show StableHlo.after hostOps2 (W4 m ρ c) (Proc.devRef .tc main_v7) = _
  after_results
  rfl
theorem W5_v9 : W5 m ρ c (Proc.devRef .tc main_v9) = colEnds (W4 m ρ c (Proc.devRef .tc main_arg3)) := by
  show StableHlo.after hostOps2 (W4 m ρ c) (Proc.devRef .tc main_v9) = _
  after_results
  rfl
set_option maxHeartbeats 2000000 in
theorem V5_v16 : W5 m ρ c (Proc.devRef .tc main_v16) =
    pick (W4 m ρ c (Proc.devRef .tc main_v1)) (wrapped (colEnds (W4 m ρ c (Proc.devRef .tc main_arg3)))) := by
  show StableHlo.after hostOps2 (W4 m ρ c) (Proc.devRef .tc main_v16) = _
  after_results
  rfl
set_option maxHeartbeats 2000000 in
theorem V5_v23 : W5 m ρ c (Proc.devRef .tc main_v23) =
    pick (W4 m ρ c (Proc.devRef .tc main_v3)) (wrapped (rowEnds (W4 m ρ c (Proc.devRef .tc main_arg3)))) := by
  show StableHlo.after hostOps2 (W4 m ρ c) (Proc.devRef .tc main_v23) = _
  after_results
  rfl
theorem V5_v24 : W5 m ρ c (Proc.devRef .tc main_v24) = shapeCast S1x64 (W4 m ρ c (Proc.devRef .tc main_arg9)) shapeCasts_S64_S1x64 := by
  show StableHlo.after hostOps2 (W4 m ρ c) (Proc.devRef .tc main_v24) = _
  after_results
  rfl
theorem V5_v25 : W5 m ρ c (Proc.devRef .tc main_v25) = shapeCast S1x64 (W4 m ρ c (Proc.devRef .tc main_arg11)) shapeCasts_S64_S1x64 := by
  show StableHlo.after hostOps2 (W4 m ρ c) (Proc.devRef .tc main_v25) = _
  after_results
  rfl

/-! ### The fourth stretch: the row embeddings updated, and the gathers for the second edge network -/

set_option maxHeartbeats 2000000 in
theorem V7_v38 : W7 m ρ c (Proc.devRef .tc main_v38) =
    pick (addf (F := Ideal) (φ := .f32) (W6 m ρ c (Proc.devRef .tc main_v3))
        (gatherSum (asCol (W6 m ρ c (Proc.devRef .tc main_v7))) (W6 m ρ c (Proc.devRef .tc main_v26))))
      (wrapped (W6 m ρ c (Proc.devRef .tc main_v7))) := by
  show StableHlo.after hostOps3 (W6 m ρ c) (Proc.devRef .tc main_v38) = _
  after_results
  rfl
theorem V7_v39 : W7 m ρ c (Proc.devRef .tc main_v39) = shapeCast S1x64 (W6 m ρ c (Proc.devRef .tc main_arg13)) shapeCasts_S64_S1x64 := by
  show StableHlo.after hostOps3 (W6 m ρ c) (Proc.devRef .tc main_v39) = _
  after_results
  rfl
theorem V7_v40 : W7 m ρ c (Proc.devRef .tc main_v40) = shapeCast S1x64 (W6 m ρ c (Proc.devRef .tc main_arg15)) shapeCasts_S64_S1x64 := by
  show StableHlo.after hostOps3 (W6 m ρ c) (Proc.devRef .tc main_v40) = _
  after_results
  rfl

/-! ### The fifth stretch: the column embeddings updated; the last: the scores flattened -/

theorem V9_v45 : W9 m ρ c (Proc.devRef .tc main_v45) =
    addf (F := Ideal) (φ := .f32) (W8 m ρ c (Proc.devRef .tc main_v1))
      (gatherSum (asCol (W8 m ρ c (Proc.devRef .tc main_v9))) (W8 m ρ c (Proc.devRef .tc main_v41))) := by
  show StableHlo.after hostOps4 (W8 m ρ c) (Proc.devRef .tc main_v45) = _
  after_results
  rfl
theorem V9_v46 : W9 m ρ c (Proc.devRef .tc main_v46) = shapeCast S1x1 (W8 m ρ c (Proc.devRef .tc main_arg17)) shapeCasts_S1_S1x1 := by
  show StableHlo.after hostOps4 (W8 m ρ c) (Proc.devRef .tc main_v46) = _
  after_results
  rfl
theorem W11_v48 : W11 m ρ c (Proc.devRef .tc main_v48) = shapeCast S50000 (W10 m ρ c (Proc.devRef .tc main_v47)) shapeCasts_S50000x1_S50000 := by
  show StableHlo.after hostOps5 (W10 m ρ c) (Proc.devRef .tc main_v48) = _
  after_results
  rfl

end Cert.KernelIdeal.Val

end
-- ==== Proof.PayDense.lean ====
/-
  The arithmetic of the three dense bodies, read at one entry.

  Each body multiplies a block of 5000 rows by a whole weight matrix, adds the one bias row to every row of the
  product and, in the first two, takes the positive part.  At the extended reals a change of float format is the
  identity, a product accumulated into the zero array is the plain sum over the contracted axis, and the maximum
  with the zero splat is `max · 0`.  So entry `(p, q)` of a body's result is
  `max (∑ₖ x0[p,k] · x1[k,q] + x2[0,q]) 0` (first two bodies) or `∑ₖ x0[p,k] · x1[k,q] + x2[0,q]` (third),
  for any three operand blocks `x0`, `x1`, `x2`.  The contraction's index set has one axis; the sums are
  re-indexed along its identification with `Fin K`.
-/
import proofs.«175801_j82394652607046_2_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Cert.KernelIdeal Cert.KernelIdeal.Gen Idealize.ShloMosaic Idealize.ShloMosaic.ValueIdx Idealize.SL.Sem

/-! ## Region 0: a 5000 × 19 block times the 19 × 64 weights, plus the bias row, then the positive part -/

theorem Dense.lhs0_0 (i : S5000x64.Idx) (q : dot_S5000x19_S19x64_S5000x64_1_0_0_1_n_n.contr.Idx) :
    (dot_S5000x19_S19x64_S5000x64_1_0_0_1_n_n.lhsIdx i q 0).val = (i 0).val := by
  unfold DotDims.lhsIdx
  rw [dif_neg (show ¬(0 : Fin S5000x19.rank) ∈ dot_S5000x19_S19x64_S5000x64_1_0_0_1_n_n.lhsBatch by decide),
    dif_pos (show (0 : Fin S5000x19.rank) ∈ dot_S5000x19_S19x64_S5000x64_1_0_0_1_n_n.lhsNonContracting by decide)]
  rfl
theorem Dense.lhs0_1 (i : S5000x64.Idx) (q : dot_S5000x19_S19x64_S5000x64_1_0_0_1_n_n.contr.Idx) :
    (dot_S5000x19_S19x64_S5000x64_1_0_0_1_n_n.lhsIdx i q 1).val = (q ⟨0, by decide⟩).val :=
  dot_S5000x19_S19x64_S5000x64_1_0_0_1_n_n.lhsIdx_val_of_single rfl i q
theorem Dense.rhs0_0 (i : S5000x64.Idx) (q : dot_S5000x19_S19x64_S5000x64_1_0_0_1_n_n.contr.Idx) :
    (dot_S5000x19_S19x64_S5000x64_1_0_0_1_n_n.rhsIdx i q 0).val = (q ⟨0, by decide⟩).val :=
  dot_S5000x19_S19x64_S5000x64_1_0_0_1_n_n.rhsIdx_val_of_single rfl i q
theorem Dense.rhs0_1 (i : S5000x64.Idx) (q : dot_S5000x19_S19x64_S5000x64_1_0_0_1_n_n.contr.Idx) :
    (dot_S5000x19_S19x64_S5000x64_1_0_0_1_n_n.rhsIdx i q 1).val = (i 1).val := by
  unfold DotDims.rhsIdx
  rw [dif_neg (show ¬(1 : Fin S19x64.rank) ∈ dot_S5000x19_S19x64_S5000x64_1_0_0_1_n_n.rhsBatch by decide),
    dif_pos (show (1 : Fin S19x64.rank) ∈ dot_S5000x19_S19x64_S5000x64_1_0_0_1_n_n.rhsNonContracting by decide)]
  rfl

/-- Entry `(p, q)` of the body's result: `max (∑ₖ x0[p,k] · x1[k,q] + x2[0,q]) 0`. -/
theorem k0_pay1_apply (x0 : Vec Ideal S5000x19 .f32) (x1 : Vec Ideal S19x64 .f32) (x2 : Vec Ideal S1x64 .f32) (p : Fin 5000) (q : Fin 64) :
    k0_pay1 x0 x1 x2 (ix2 p q) = max ((∑ k : Fin 19, x0 (ix2 p k) * x1 (ix2 k q)) + x2 (ix2 0 q)) 0 := by
  unfold k0_pay1
  simp only [maximumf_apply, addf_apply, broadcast_apply]
  rw [shapeCast_self, broadcastTo_1b_ab_apply]
  simp only [matmul]
  rw [Ideal.matmul_constant_zero_apply,
    ← Equiv.sum_comp (contrEquiv1 dot_S5000x19_S19x64_S5000x64_1_0_0_1_n_n 19 rfl rfl).symm]
  have hz : (FloatOps.ofBits FTy.f32 0x00000000#32 : Ideal .f32) = 0 := Ideal.ofBits_zero_f32
  rw [hz]
  refine congrArg (fun s => max (s + x2 (ix2 0 q)) 0) (Finset.sum_congr rfl fun k _ => ?_)
  have hk := contrEquiv1_symm_val dot_S5000x19_S19x64_S5000x64_1_0_0_1_n_n 19 rfl rfl k
  have el : dot_S5000x19_S19x64_S5000x64_1_0_0_1_n_n.lhsIdx (ix2 p q)
      ((contrEquiv1 dot_S5000x19_S19x64_S5000x64_1_0_0_1_n_n 19 rfl rfl).symm k) = ix2 p k :=
    funext fun a => Fin.ext (by
      match a with
      | ⟨0, _⟩ => exact Dense.lhs0_0 _ _
      | ⟨1, _⟩ => exact (Dense.lhs0_1 _ _).trans hk)
  have er : dot_S5000x19_S19x64_S5000x64_1_0_0_1_n_n.rhsIdx (ix2 p q)
      ((contrEquiv1 dot_S5000x19_S19x64_S5000x64_1_0_0_1_n_n 19 rfl rfl).symm k) = ix2 k q :=
    funext fun a => Fin.ext (by
      match a with
      | ⟨0, _⟩ => exact (Dense.rhs0_0 _ _).trans hk
      | ⟨1, _⟩ => exact Dense.rhs0_1 _ _)
  rw [el, er]
  rfl

/-! ## Region 1: a 5000 × 14 block times the 14 × 64 weights, plus the bias row, then the positive part -/

theorem Dense.lhs1_0 (i : S5000x64.Idx) (q : dot_S5000x14_S14x64_S5000x64_1_0_0_1_n_n.contr.Idx) :
    (dot_S5000x14_S14x64_S5000x64_1_0_0_1_n_n.lhsIdx i q 0).val = (i 0).val := by
  unfold DotDims.lhsIdx
  rw [dif_neg (show ¬(0 : Fin S5000x14.rank) ∈ dot_S5000x14_S14x64_S5000x64_1_0_0_1_n_n.lhsBatch by decide),
    dif_pos (show (0 : Fin S5000x14.rank) ∈ dot_S5000x14_S14x64_S5000x64_1_0_0_1_n_n.lhsNonContracting by decide)]
  rfl
theorem Dense.lhs1_1 (i : S5000x64.Idx) (q : dot_S5000x14_S14x64_S5000x64_1_0_0_1_n_n.contr.Idx) :
    (dot_S5000x14_S14x64_S5000x64_1_0_0_1_n_n.lhsIdx i q 1).val = (q ⟨0, by decide⟩).val :=
  dot_S5000x14_S14x64_S5000x64_1_0_0_1_n_n.lhsIdx_val_of_single rfl i q
theorem Dense.rhs1_0 (i : S5000x64.Idx) (q : dot_S5000x14_S14x64_S5000x64_1_0_0_1_n_n.contr.Idx) :
    (dot_S5000x14_S14x64_S5000x64_1_0_0_1_n_n.rhsIdx i q 0).val = (q ⟨0, by decide⟩).val :=
  dot_S5000x14_S14x64_S5000x64_1_0_0_1_n_n.rhsIdx_val_of_single rfl i q
theorem Dense.rhs1_1 (i : S5000x64.Idx) (q : dot_S5000x14_S14x64_S5000x64_1_0_0_1_n_n.contr.Idx) :
    (dot_S5000x14_S14x64_S5000x64_1_0_0_1_n_n.rhsIdx i q 1).val = (i 1).val := by
  unfold DotDims.rhsIdx
  rw [dif_neg (show ¬(1 : Fin S14x64.rank) ∈ dot_S5000x14_S14x64_S5000x64_1_0_0_1_n_n.rhsBatch by decide),
    dif_pos (show (1 : Fin S14x64.rank) ∈ dot_S5000x14_S14x64_S5000x64_1_0_0_1_n_n.rhsNonContracting by decide)]
  rfl

/-- Entry `(p, q)` of the body's result: `max (∑ₖ x0[p,k] · x1[k,q] + x2[0,q]) 0`. -/
theorem k1_pay1_apply (x0 : Vec Ideal S5000x14 .f32) (x1 : Vec Ideal S14x64 .f32) (x2 : Vec Ideal S1x64 .f32) (p : Fin 5000) (q : Fin 64) :
    k1_pay1 x0 x1 x2 (ix2 p q) = max ((∑ k : Fin 14, x0 (ix2 p k) * x1 (ix2 k q)) + x2 (ix2 0 q)) 0 := by
  unfold k1_pay1
  simp only [maximumf_apply, addf_apply, broadcast_apply]
  rw [shapeCast_self, broadcastTo_1b_ab_apply]
  simp only [matmul]
  rw [Ideal.matmul_constant_zero_apply,
    ← Equiv.sum_comp (contrEquiv1 dot_S5000x14_S14x64_S5000x64_1_0_0_1_n_n 14 rfl rfl).symm]
  have hz : (FloatOps.ofBits FTy.f32 0x00000000#32 : Ideal .f32) = 0 := Ideal.ofBits_zero_f32
  rw [hz]
  refine congrArg (fun s => max (s + x2 (ix2 0 q)) 0) (Finset.sum_congr rfl fun k _ => ?_)
  have hk := contrEquiv1_symm_val dot_S5000x14_S14x64_S5000x64_1_0_0_1_n_n 14 rfl rfl k
  have el : dot_S5000x14_S14x64_S5000x64_1_0_0_1_n_n.lhsIdx (ix2 p q)
      ((contrEquiv1 dot_S5000x14_S14x64_S5000x64_1_0_0_1_n_n 14 rfl rfl).symm k) = ix2 p k :=
    funext fun a => Fin.ext (by
      match a with
      | ⟨0, _⟩ => exact Dense.lhs1_0 _ _
      | ⟨1, _⟩ => exact (Dense.lhs1_1 _ _).trans hk)
  have er : dot_S5000x14_S14x64_S5000x64_1_0_0_1_n_n.rhsIdx (ix2 p q)
      ((contrEquiv1 dot_S5000x14_S14x64_S5000x64_1_0_0_1_n_n 14 rfl rfl).symm k) = ix2 k q :=
    funext fun a => Fin.ext (by
      match a with
      | ⟨0, _⟩ => exact (Dense.rhs1_0 _ _).trans hk
      | ⟨1, _⟩ => exact Dense.rhs1_1 _ _)
  rw [el, er]
  rfl

/-! ## Region 4: a 5000 × 64 block times the 64 × 1 weights, plus the one bias entry -/

theorem Dense.lhs4_0 (i : S5000x1.Idx) (q : dot_S5000x64_S64x1_S5000x1_1_0_0_1_n_n.contr.Idx) :
    (dot_S5000x64_S64x1_S5000x1_1_0_0_1_n_n.lhsIdx i q 0).val = (i 0).val := by
  unfold DotDims.lhsIdx
  rw [dif_neg (show ¬(0 : Fin S5000x64.rank) ∈ dot_S5000x64_S64x1_S5000x1_1_0_0_1_n_n.lhsBatch by decide),
    dif_pos (show (0 : Fin S5000x64.rank) ∈ dot_S5000x64_S64x1_S5000x1_1_0_0_1_n_n.lhsNonContracting by decide)]
  rfl
theorem Dense.lhs4_1 (i : S5000x1.Idx) (q : dot_S5000x64_S64x1_S5000x1_1_0_0_1_n_n.contr.Idx) :
    (dot_S5000x64_S64x1_S5000x1_1_0_0_1_n_n.lhsIdx i q 1).val = (q ⟨0, by decide⟩).val :=
  dot_S5000x64_S64x1_S5000x1_1_0_0_1_n_n.lhsIdx_val_of_single rfl i q
theorem Dense.rhs4_0 (i : S5000x1.Idx) (q : dot_S5000x64_S64x1_S5000x1_1_0_0_1_n_n.contr.Idx) :
    (dot_S5000x64_S64x1_S5000x1_1_0_0_1_n_n.rhsIdx i q 0).val = (q ⟨0, by decide⟩).val :=
  dot_S5000x64_S64x1_S5000x1_1_0_0_1_n_n.rhsIdx_val_of_single rfl i q
theorem Dense.rhs4_1 (i : S5000x1.Idx) (q : dot_S5000x64_S64x1_S5000x1_1_0_0_1_n_n.contr.Idx) :
    (dot_S5000x64_S64x1_S5000x1_1_0_0_1_n_n.rhsIdx i q 1).val = (i 1).val := by
  unfold DotDims.rhsIdx
  rw [dif_neg (show ¬(1 : Fin S64x1.rank) ∈ dot_S5000x64_S64x1_S5000x1_1_0_0_1_n_n.rhsBatch by decide),
    dif_pos (show (1 : Fin S64x1.rank) ∈ dot_S5000x64_S64x1_S5000x1_1_0_0_1_n_n.rhsNonContracting by decide)]
  rfl

/-- Entry `(p, q)` of the body's result: `∑ₖ x0[p,k] · x1[k,q] + x2[0,q]`. -/
theorem k4_pay1_apply (x0 : Vec Ideal S5000x64 .f32) (x1 : Vec Ideal S64x1 .f32) (x2 : Vec Ideal S1x1 .f32) (p : Fin 5000) (q : Fin 1) :
    k4_pay1 x0 x1 x2 (ix2 p q) = (∑ k : Fin 64, x0 (ix2 p k) * x1 (ix2 k q)) + x2 (ix2 0 q) := by
  unfold k4_pay1
  simp only [addf_apply]
  rw [shapeCast_self, shapeCast_self, broadcastTo_1b_ab_apply]
  simp only [matmul]
  rw [Ideal.matmul_constant_zero_apply,
    ← Equiv.sum_comp (contrEquiv1 dot_S5000x64_S64x1_S5000x1_1_0_0_1_n_n 64 rfl rfl).symm]
  refine congrArg (fun s => s + x2 (ix2 0 q)) (Finset.sum_congr rfl fun k _ => ?_)
  have hk := contrEquiv1_symm_val dot_S5000x64_S64x1_S5000x1_1_0_0_1_n_n 64 rfl rfl k
  have el : dot_S5000x64_S64x1_S5000x1_1_0_0_1_n_n.lhsIdx (ix2 p q)
      ((contrEquiv1 dot_S5000x64_S64x1_S5000x1_1_0_0_1_n_n 64 rfl rfl).symm k) = ix2 p k :=
    funext fun a => Fin.ext (by
      match a with
      | ⟨0, _⟩ => exact Dense.lhs4_0 _ _
      | ⟨1, _⟩ => exact (Dense.lhs4_1 _ _).trans hk)
  have er : dot_S5000x64_S64x1_S5000x1_1_0_0_1_n_n.rhsIdx (ix2 p q)
      ((contrEquiv1 dot_S5000x64_S64x1_S5000x1_1_0_0_1_n_n 64 rfl rfl).symm k) = ix2 k q :=
    funext fun a => Fin.ext (by
      match a with
      | ⟨0, _⟩ => exact (Dense.rhs4_0 _ _).trans hk
      | ⟨1, _⟩ => exact Dense.rhs4_1 _ _)
  rw [el, er]
  rfl

end Cert.KernelIdeal.Val
end
-- ==== Proof.RegDense.lean ====
/-
  The three dense regions of the kernel, as functions of the arrays they find.

  Each region runs its body over 10 grid points.  At point `t` the body sees rows `5000·t … 5000·t + 4999` of the
  input array, the whole weight matrix and the whole one-row bias array, and what it leaves in the output block is
  written back to the same rows of the output array.  By the body's arithmetic read at an entry (the imported
  payload lemmas), entry `(p, q)` of that block is `max (∑ₖ x[5000·t + p, k] · w[k, q] + b[q]) 0` (first two regions)
  or `∑ₖ x[5000·t + p, k] · w[k, q] + b[q]` (last region): block `t` of the affine row map of the whole arrays.
  The 10 blocks cover every row (row `r` lies in block `r / 5000`), so after the region the output array is the
  affine row map, with positive part where the body takes it, whatever the buffers held at entry.
  The bias is given as a rank-1 array `b` that the one row of the region's bias buffer equals.
-/
import proofs.«175801_j82394652607046_2_alg».proof.Proof.Gen.KernelIdeal.Frame
import proofs.«175801_j82394652607046_2_alg».proof.Proof.PayDense
import proofs.«175801_j82394652607046_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a whole-block access, however they are spelt. -/
theorem Dense.hz2 : (![0, 0] : Fin 2 → Nat) = fun _ => 0 := funext fun a => by fin_cases a <;> rfl

/-! ## Region 0: 50000 × 19 rows through the first layer (19 → 64, positive part) -/

/-- One entry, over variables: if the block `x0` holds, at row `j 0`, row `i 0` of the array `a0`, the other two
    blocks are the whole arrays `a1`, `a2`, and `i`, `j` have the same column, then the body's result at `j` is
    the affine row map with positive part of `a0`, `a1` and the bias `b` (the one row of `a2`) at `i`. -/
theorem Dense.block0 (a0 : S50000x19.Idx → EReal) (a1 : S19x64.Idx → EReal) (a2 : S1x64.Idx → EReal) (b : Cert.Spec.A1 64)
    (hb : ∀ k : Fin 64, a2 (ix2 0 k) = b (ix1 k))
    (x0 : Vec Ideal S5000x19 .f32) (x1 : Vec Ideal S19x64 .f32) (x2 : Vec Ideal S1x64 .f32)
    (j : S5000x64.Idx) (i : S50000x64.Idx)
    (h0 : ∀ (y : S5000x19.Idx) (z : S50000x19.Idx), (y 0).val = (j 0).val → (z 0).val = (i 0).val → (z 1).val = (y 1).val → x0 y = a0 z)
    (h1 : ∀ y, x1 y = a1 y) (h2 : ∀ y, x2 y = a2 y) (hi1 : (i 1).val = (j 1).val) :
    k0_pay1 x0 x1 x2 j = Cert.Spec.affineRelu 50000 19 64 a0 a1 b i := by
  obtain rfl : x1 = a1 := funext h1
  obtain rfl : x2 = a2 := funext h2
  obtain ⟨p, q, rfl⟩ : ∃ (p : Fin 5000) (q : Fin 64), j = ix2 p q := ⟨j 0, j 1, eq_ix2 j⟩
  obtain ⟨r, q', rfl⟩ : ∃ (r : Fin 50000) (q' : Fin 64), i = ix2 r q' := ⟨i 0, i 1, eq_ix2 i⟩
  obtain rfl : q' = q := Fin.ext hi1
  rw [k0_pay1_apply, Cert.Spec.affineRelu_apply, hb]
  exact congrArg (fun s => max (s + b (ix1 q')) 0) (Finset.sum_congr rfl fun k _ => by rw [h0 (ix2 p k) (ix2 r k) rfl rfl rfl])

/-- The printed index maps over the 10 grid points: the first window's block moves with the output's, down the rows;
    the weights' and the bias's windows stay at block 0; the output's block index is the grid point. -/
theorem Dense.idx_facts0 : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0 :=
  (by decide +kernel : ∀ t : Fin grid0.N, _)

/-- What grid point `t` writes back is block `t` of the affine row map with positive part of the arrays the region finds. -/
theorem Dense.flushed0_eq (c : Dev nD) (b : Cert.Spec.A1 64)
    (hb : ∀ k : Fin 64, (V c main_v0 : S1x64.Idx → EReal) (ix2 0 k) = b (ix1 k)) (t : Fin cfg0.N) :
    (dat0 (F := Ideal) V c).flushed 3 t
      = ((cfg0.win 3).blk t).view.read (Elt Ideal) (Cert.Spec.affineRelu 50000 19 64 (V c main_arg0) (V c main_arg4) b) := by
  show (cfg0.win 3).cut (grid0.coords t) ((dat0 V c).after 3 t) = _
  rw [after0_3]
  unfold out0_3
  rw [View.canon_unit_zero Dense.hz2]
  simp only [View.ld_unit_zero (S := S5000x19) Dense.hz2, View.ld_unit_zero (S := S19x64) Dense.hz2, View.ld_unit_zero (S := S1x64) Dense.hz2]
  obtain ⟨e0, e1, e2, e3, e4, e5, e6, e7⟩ := Dense.idx_facts0 t
  funext j
  show k0_pay1 (iblk0 V c 0 t) (iblk0 V c 1 t) (iblk0 V c 2 t) j
    = Cert.Spec.affineRelu 50000 19 64 (V c main_arg0) (V c main_arg4) b (((cfg0.win 3).blk t).view.emb j)
  refine Dense.block0 (V c main_arg0) (V c main_arg4) (V c main_v0) b hb _ _ _ j _ (fun y z hy hz0 hz1 => ?_) (fun y => ?_) (fun y => ?_) ?_
  · show V c main_arg0 (((cfg0.win 0).blk t).view.emb y) = V c main_arg0 z
    refine congrArg _ (funext fun a => Fin.ext ?_)
    have hz0' : (z 0).val = win0_3.index t (0 : Fin 2) * 5000 + 1 * (j 0).val := hz0
    match a with
    | ⟨0, _⟩ => show win0_0.index t (0 : Fin 2) * 5000 + 1 * (y 0).val = (z 0).val; omega
    | ⟨1, _⟩ => show win0_0.index t (1 : Fin 2) * 19 + 1 * (y 1).val = (z 1).val; omega
  · show V c main_arg4 (((cfg0.win 1).blk t).view.emb y) = V c main_arg4 y
    refine congrArg _ (funext fun a => Fin.ext ?_)
    match a with
    | ⟨0, _⟩ => show win0_1.index t (0 : Fin 2) * 19 + 1 * (y 0).val = (y 0).val; omega
    | ⟨1, _⟩ => show win0_1.index t (1 : Fin 2) * 64 + 1 * (y 1).val = (y 1).val; omega
  · show V c main_v0 (((cfg0.win 2).blk t).view.emb y) = V c main_v0 y
    refine congrArg _ (funext fun a => Fin.ext ?_)
    match a with
    | ⟨0, _⟩ => show win0_2.index t (0 : Fin 2) * 1 + 1 * (y 0).val = (y 0).val; omega
    | ⟨1, _⟩ => show win0_2.index t (1 : Fin 2) * 64 + 1 * (y 1).val = (y 1).val; omega
  · show win0_3.index t (1 : Fin 2) * 64 + 1 * (j 1).val = (j 1).val; omega

/-- An index of the output array is in grid point `t`'s block iff each coordinate is in the block's range on its axis. -/
theorem Dense.mem_blk0 (t : Fin cfg0.N) (i : S50000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v1).slice (win0_3.rect t)).set ↔ _
  rw [View.set_slice_whole, Rect.mem_set_unit]
  exact Iff.rfl

/-- Every row of the output array lies in one of the 10 blocks of 5000 rows: row `r` in block `r / 5000`. -/
theorem Dense.cover0 (i : S50000x64.Idx) : ∃ t : Fin cfg0.N, (cfg0.win 3).flush t = true ∧ i ∈ ((cfg0.win 3).blk t).view.set := by
  have hi0 : (i 0).val < 50000 := (i 0).isLt
  have hi1 : (i 1).val < 64 := (i 1).isLt
  have ht : (i 0).val / 5000 < 10 := by omega
  refine ⟨⟨(i 0).val / 5000, ht⟩, flush0_3 _, ?_⟩
  rw [Dense.mem_blk0]
  obtain ⟨e0, e1, e2, e3, e4, e5, e6, e7⟩ := Dense.idx_facts0 ⟨(i 0).val / 5000, ht⟩
  have e6' : win0_3.index ⟨(i 0).val / 5000, ht⟩ (0 : Fin 2) = (i 0).val / 5000 := e6
  intro a
  match a with
  | ⟨0, _⟩ =>
    show win0_3.index ⟨(i 0).val / 5000, ht⟩ (0 : Fin 2) * 5000 ≤ (i 0).val ∧ (i 0).val < win0_3.index ⟨(i 0).val / 5000, ht⟩ (0 : Fin 2) * 5000 + 5000
    omega
  | ⟨1, _⟩ =>
    show win0_3.index ⟨(i 0).val / 5000, ht⟩ (1 : Fin 2) * 64 ≤ (i 1).val ∧ (i 1).val < win0_3.index ⟨(i 0).val / 5000, ht⟩ (1 : Fin 2) * 64 + 64
    omega

/-- REGION 0: after its 10 grid points the output array is the affine row map with positive part of the input array, the weights and the
    bias, whatever the buffers held when the region was entered. -/
theorem reg0_final (c : Dev nD) (b : Cert.Spec.A1 64)
    (hb : ∀ k : Fin 64, (V c main_v0 : S1x64.Idx → EReal) (ix2 0 k) = b (ix1 k)) :
    ((dat0 (F := Ideal) V c).arrAt 3 cfg0.N : S50000x64.Idx → EReal)
      = Cert.Spec.affineRelu 50000 19 64 (V c main_arg0) (V c main_arg4) b :=
  (dat0 (F := Ideal) V c).arrAt_eq_of_cover 3 _ (fun t _ => Dense.flushed0_eq V c b hb t) Dense.cover0

/-! ## Region 1: 50000 × 14 rows through the first layer (14 → 64, positive part) -/

/-- One entry, over variables: if the block `x0` holds, at row `j 0`, row `i 0` of the array `a0`, the other two
    blocks are the whole arrays `a1`, `a2`, and `i`, `j` have the same column, then the body's result at `j` is
    the affine row map with positive part of `a0`, `a1` and the bias `b` (the one row of `a2`) at `i`. -/
theorem Dense.block1 (a0 : S50000x14.Idx → EReal) (a1 : S14x64.Idx → EReal) (a2 : S1x64.Idx → EReal) (b : Cert.Spec.A1 64)
    (hb : ∀ k : Fin 64, a2 (ix2 0 k) = b (ix1 k))
    (x0 : Vec Ideal S5000x14 .f32) (x1 : Vec Ideal S14x64 .f32) (x2 : Vec Ideal S1x64 .f32)
    (j : S5000x64.Idx) (i : S50000x64.Idx)
    (h0 : ∀ (y : S5000x14.Idx) (z : S50000x14.Idx), (y 0).val = (j 0).val → (z 0).val = (i 0).val → (z 1).val = (y 1).val → x0 y = a0 z)
    (h1 : ∀ y, x1 y = a1 y) (h2 : ∀ y, x2 y = a2 y) (hi1 : (i 1).val = (j 1).val) :
    k1_pay1 x0 x1 x2 j = Cert.Spec.affineRelu 50000 14 64 a0 a1 b i := by
  obtain rfl : x1 = a1 := funext h1
  obtain rfl : x2 = a2 := funext h2
  obtain ⟨p, q, rfl⟩ : ∃ (p : Fin 5000) (q : Fin 64), j = ix2 p q := ⟨j 0, j 1, eq_ix2 j⟩
  obtain ⟨r, q', rfl⟩ : ∃ (r : Fin 50000) (q' : Fin 64), i = ix2 r q' := ⟨i 0, i 1, eq_ix2 i⟩
  obtain rfl : q' = q := Fin.ext hi1
  rw [k1_pay1_apply, Cert.Spec.affineRelu_apply, hb]
  exact congrArg (fun s => max (s + b (ix1 q')) 0) (Finset.sum_congr rfl fun k _ => by rw [h0 (ix2 p k) (ix2 r k) rfl rfl rfl])

/-- The printed index maps over the 10 grid points: the first window's block moves with the output's, down the rows;
    the weights' and the bias's windows stay at block 0; the output's block index is the grid point. -/
theorem Dense.idx_facts1 : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = t.val
    ∧ win1_3.index t (1 : Fin 2) = 0 :=
  (by decide +kernel : ∀ t : Fin grid1.N, _)

/-- What grid point `t` writes back is block `t` of the affine row map with positive part of the arrays the region finds. -/
theorem Dense.flushed1_eq (c : Dev nD) (b : Cert.Spec.A1 64)
    (hb : ∀ k : Fin 64, (V c main_v2 : S1x64.Idx → EReal) (ix2 0 k) = b (ix1 k)) (t : Fin cfg1.N) :
    (dat1 (F := Ideal) V c).flushed 3 t
      = ((cfg1.win 3).blk t).view.read (Elt Ideal) (Cert.Spec.affineRelu 50000 14 64 (V c main_arg1) (V c main_arg6) b) := by
  show (cfg1.win 3).cut (grid1.coords t) ((dat1 V c).after 3 t) = _
  rw [after1_3]
  unfold out1_3
  rw [View.canon_unit_zero Dense.hz2]
  simp only [View.ld_unit_zero (S := S5000x14) Dense.hz2, View.ld_unit_zero (S := S14x64) Dense.hz2, View.ld_unit_zero (S := S1x64) Dense.hz2]
  obtain ⟨e0, e1, e2, e3, e4, e5, e6, e7⟩ := Dense.idx_facts1 t
  funext j
  show k1_pay1 (iblk1 V c 0 t) (iblk1 V c 1 t) (iblk1 V c 2 t) j
    = Cert.Spec.affineRelu 50000 14 64 (V c main_arg1) (V c main_arg6) b (((cfg1.win 3).blk t).view.emb j)
  refine Dense.block1 (V c main_arg1) (V c main_arg6) (V c main_v2) b hb _ _ _ j _ (fun y z hy hz0 hz1 => ?_) (fun y => ?_) (fun y => ?_) ?_
  · show V c main_arg1 (((cfg1.win 0).blk t).view.emb y) = V c main_arg1 z
    refine congrArg _ (funext fun a => Fin.ext ?_)
    have hz0' : (z 0).val = win1_3.index t (0 : Fin 2) * 5000 + 1 * (j 0).val := hz0
    match a with
    | ⟨0, _⟩ => show win1_0.index t (0 : Fin 2) * 5000 + 1 * (y 0).val = (z 0).val; omega
    | ⟨1, _⟩ => show win1_0.index t (1 : Fin 2) * 14 + 1 * (y 1).val = (z 1).val; omega
  · show V c main_arg6 (((cfg1.win 1).blk t).view.emb y) = V c main_arg6 y
    refine congrArg _ (funext fun a => Fin.ext ?_)
    match a with
    | ⟨0, _⟩ => show win1_1.index t (0 : Fin 2) * 14 + 1 * (y 0).val = (y 0).val; omega
    | ⟨1, _⟩ => show win1_1.index t (1 : Fin 2) * 64 + 1 * (y 1).val = (y 1).val; omega
  · show V c main_v2 (((cfg1.win 2).blk t).view.emb y) = V c main_v2 y
    refine congrArg _ (funext fun a => Fin.ext ?_)
    match a with
    | ⟨0, _⟩ => show win1_2.index t (0 : Fin 2) * 1 + 1 * (y 0).val = (y 0).val; omega
    | ⟨1, _⟩ => show win1_2.index t (1 : Fin 2) * 64 + 1 * (y 1).val = (y 1).val; omega
  · show win1_3.index t (1 : Fin 2) * 64 + 1 * (j 1).val = (j 1).val; omega

/-- An index of the output array is in grid point `t`'s block iff each coordinate is in the block's range on its axis. -/
theorem Dense.mem_blk1 (t : Fin cfg1.N) (i : S50000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v3).slice (win1_3.rect t)).set ↔ _
  rw [View.set_slice_whole, Rect.mem_set_unit]
  exact Iff.rfl

/-- Every row of the output array lies in one of the 10 blocks of 5000 rows: row `r` in block `r / 5000`. -/
theorem Dense.cover1 (i : S50000x64.Idx) : ∃ t : Fin cfg1.N, (cfg1.win 3).flush t = true ∧ i ∈ ((cfg1.win 3).blk t).view.set := by
  have hi0 : (i 0).val < 50000 := (i 0).isLt
  have hi1 : (i 1).val < 64 := (i 1).isLt
  have ht : (i 0).val / 5000 < 10 := by omega
  refine ⟨⟨(i 0).val / 5000, ht⟩, flush1_3 _, ?_⟩
  rw [Dense.mem_blk1]
  obtain ⟨e0, e1, e2, e3, e4, e5, e6, e7⟩ := Dense.idx_facts1 ⟨(i 0).val / 5000, ht⟩
  have e6' : win1_3.index ⟨(i 0).val / 5000, ht⟩ (0 : Fin 2) = (i 0).val / 5000 := e6
  intro a
  match a with
  | ⟨0, _⟩ =>
    show win1_3.index ⟨(i 0).val / 5000, ht⟩ (0 : Fin 2) * 5000 ≤ (i 0).val ∧ (i 0).val < win1_3.index ⟨(i 0).val / 5000, ht⟩ (0 : Fin 2) * 5000 + 5000
    omega
  | ⟨1, _⟩ =>
    show win1_3.index ⟨(i 0).val / 5000, ht⟩ (1 : Fin 2) * 64 ≤ (i 1).val ∧ (i 1).val < win1_3.index ⟨(i 0).val / 5000, ht⟩ (1 : Fin 2) * 64 + 64
    omega

/-- REGION 1: after its 10 grid points the output array is the affine row map with positive part of the input array, the weights and the
    bias, whatever the buffers held when the region was entered. -/
theorem reg1_final (c : Dev nD) (b : Cert.Spec.A1 64)
    (hb : ∀ k : Fin 64, (V c main_v2 : S1x64.Idx → EReal) (ix2 0 k) = b (ix1 k)) :
    ((dat1 (F := Ideal) V c).arrAt 3 cfg1.N : S50000x64.Idx → EReal)
      = Cert.Spec.affineRelu 50000 14 64 (V c main_arg1) (V c main_arg6) b :=
  (dat1 (F := Ideal) V c).arrAt_eq_of_cover 3 _ (fun t _ => Dense.flushed1_eq V c b hb t) Dense.cover1

/-! ## Region 4: 50000 × 64 rows through the last layer (64 → 1) -/

/-- One entry, over variables: if the block `x0` holds, at row `j 0`, row `i 0` of the array `a0`, the other two
    blocks are the whole arrays `a1`, `a2`, and `i`, `j` have the same column, then the body's result at `j` is
    the affine row map of `a0`, `a1` and the bias `b` (the one row of `a2`) at `i`. -/
theorem Dense.block4 (a0 : S50000x64.Idx → EReal) (a1 : S64x1.Idx → EReal) (a2 : S1x1.Idx → EReal) (b : Cert.Spec.A1 1)
    (hb : ∀ k : Fin 1, a2 (ix2 0 k) = b (ix1 k))
    (x0 : Vec Ideal S5000x64 .f32) (x1 : Vec Ideal S64x1 .f32) (x2 : Vec Ideal S1x1 .f32)
    (j : S5000x1.Idx) (i : S50000x1.Idx)
    (h0 : ∀ (y : S5000x64.Idx) (z : S50000x64.Idx), (y 0).val = (j 0).val → (z 0).val = (i 0).val → (z 1).val = (y 1).val → x0 y = a0 z)
    (h1 : ∀ y, x1 y = a1 y) (h2 : ∀ y, x2 y = a2 y) (hi1 : (i 1).val = (j 1).val) :
    k4_pay1 x0 x1 x2 j = Cert.Spec.affine 50000 64 1 a0 a1 b i := by
  obtain rfl : x1 = a1 := funext h1
  obtain rfl : x2 = a2 := funext h2
  obtain ⟨p, q, rfl⟩ : ∃ (p : Fin 5000) (q : Fin 1), j = ix2 p q := ⟨j 0, j 1, eq_ix2 j⟩
  obtain ⟨r, q', rfl⟩ : ∃ (r : Fin 50000) (q' : Fin 1), i = ix2 r q' := ⟨i 0, i 1, eq_ix2 i⟩
  obtain rfl : q' = q := Fin.ext hi1
  rw [k4_pay1_apply, Cert.Spec.affine_apply, hb]
  exact congrArg (fun s => s + b (ix1 q')) (Finset.sum_congr rfl fun k _ => by rw [h0 (ix2 p k) (ix2 r k) rfl rfl rfl])

/-- The printed index maps over the 10 grid points: the first window's block moves with the output's, down the rows;
    the weights' and the bias's windows stay at block 0; the output's block index is the grid point. -/
theorem Dense.idx_facts4 : ∀ t : Fin cfg4.N, win4_0.index t (0 : Fin 2) = win4_3.index t (0 : Fin 2)
    ∧ win4_0.index t (1 : Fin 2) = 0
    ∧ win4_1.index t (0 : Fin 2) = 0
    ∧ win4_1.index t (1 : Fin 2) = 0
    ∧ win4_2.index t (0 : Fin 2) = 0
    ∧ win4_2.index t (1 : Fin 2) = 0
    ∧ win4_3.index t (0 : Fin 2) = t.val
    ∧ win4_3.index t (1 : Fin 2) = 0 :=
  (by decide +kernel : ∀ t : Fin grid4.N, _)

/-- What grid point `t` writes back is block `t` of the affine row map of the arrays the region finds. -/
theorem Dense.flushed4_eq (c : Dev nD) (b : Cert.Spec.A1 1)
    (hb : ∀ k : Fin 1, (V c main_v46 : S1x1.Idx → EReal) (ix2 0 k) = b (ix1 k)) (t : Fin cfg4.N) :
    (dat4 (F := Ideal) V c).flushed 3 t
      = ((cfg4.win 3).blk t).view.read (Elt Ideal) (Cert.Spec.affine 50000 64 1 (V c main_v45) (V c main_arg16) b) := by
  show (cfg4.win 3).cut (grid4.coords t) ((dat4 V c).after 3 t) = _
  rw [after4_3]
  unfold out4_3
  rw [View.canon_unit_zero Dense.hz2]
  simp only [View.ld_unit_zero (S := S5000x64) Dense.hz2, View.ld_unit_zero (S := S64x1) Dense.hz2, View.ld_unit_zero (S := S1x1) Dense.hz2]
  obtain ⟨e0, e1, e2, e3, e4, e5, e6, e7⟩ := Dense.idx_facts4 t
  funext j
  show k4_pay1 (iblk4 V c 0 t) (iblk4 V c 1 t) (iblk4 V c 2 t) j
    = Cert.Spec.affine 50000 64 1 (V c main_v45) (V c main_arg16) b (((cfg4.win 3).blk t).view.emb j)
  refine Dense.block4 (V c main_v45) (V c main_arg16) (V c main_v46) b hb _ _ _ j _ (fun y z hy hz0 hz1 => ?_) (fun y => ?_) (fun y => ?_) ?_
  · show V c main_v45 (((cfg4.win 0).blk t).view.emb y) = V c main_v45 z
    refine congrArg _ (funext fun a => Fin.ext ?_)
    have hz0' : (z 0).val = win4_3.index t (0 : Fin 2) * 5000 + 1 * (j 0).val := hz0
    match a with
    | ⟨0, _⟩ => show win4_0.index t (0 : Fin 2) * 5000 + 1 * (y 0).val = (z 0).val; omega
    | ⟨1, _⟩ => show win4_0.index t (1 : Fin 2) * 64 + 1 * (y 1).val = (z 1).val; omega
  · show V c main_arg16 (((cfg4.win 1).blk t).view.emb y) = V c main_arg16 y
    refine congrArg _ (funext fun a => Fin.ext ?_)
    match a with
    | ⟨0, _⟩ => show win4_1.index t (0 : Fin 2) * 64 + 1 * (y 0).val = (y 0).val; omega
    | ⟨1, _⟩ => show win4_1.index t (1 : Fin 2) * 1 + 1 * (y 1).val = (y 1).val; omega
  · show V c main_v46 (((cfg4.win 2).blk t).view.emb y) = V c main_v46 y
    refine congrArg _ (funext fun a => Fin.ext ?_)
    match a with
    | ⟨0, _⟩ => show win4_2.index t (0 : Fin 2) * 1 + 1 * (y 0).val = (y 0).val; omega
    | ⟨1, _⟩ => show win4_2.index t (1 : Fin 2) * 1 + 1 * (y 1).val = (y 1).val; omega
  · show win4_3.index t (1 : Fin 2) * 1 + 1 * (j 1).val = (j 1).val; omega

/-- An index of the output array is in grid point `t`'s block iff each coordinate is in the block's range on its axis. -/
theorem Dense.mem_blk4 (t : Fin cfg4.N) (i : S50000x1.Idx) :
    i ∈ ((cfg4.win 3).blk t).view.set ↔ ∀ a : Fin 2, win4_3.index t a * S5000x1.size a ≤ (i a).val ∧ (i a).val < win4_3.index t a * S5000x1.size a + S5000x1.size a := by
  show i ∈ ((View.whole main_v47).slice (win4_3.rect t)).set ↔ _
  rw [View.set_slice_whole, Rect.mem_set_unit]
  exact Iff.rfl

/-- Every row of the output array lies in one of the 10 blocks of 5000 rows: row `r` in block `r / 5000`. -/
theorem Dense.cover4 (i : S50000x1.Idx) : ∃ t : Fin cfg4.N, (cfg4.win 3).flush t = true ∧ i ∈ ((cfg4.win 3).blk t).view.set := by
  have hi0 : (i 0).val < 50000 := (i 0).isLt
  have hi1 : (i 1).val < 1 := (i 1).isLt
  have ht : (i 0).val / 5000 < 10 := by omega
  refine ⟨⟨(i 0).val / 5000, ht⟩, flush4_3 _, ?_⟩
  rw [Dense.mem_blk4]
  obtain ⟨e0, e1, e2, e3, e4, e5, e6, e7⟩ := Dense.idx_facts4 ⟨(i 0).val / 5000, ht⟩
  have e6' : win4_3.index ⟨(i 0).val / 5000, ht⟩ (0 : Fin 2) = (i 0).val / 5000 := e6
  intro a
  match a with
  | ⟨0, _⟩ =>
    show win4_3.index ⟨(i 0).val / 5000, ht⟩ (0 : Fin 2) * 5000 ≤ (i 0).val ∧ (i 0).val < win4_3.index ⟨(i 0).val / 5000, ht⟩ (0 : Fin 2) * 5000 + 5000
    omega
  | ⟨1, _⟩ =>
    show win4_3.index ⟨(i 0).val / 5000, ht⟩ (1 : Fin 2) * 1 ≤ (i 1).val ∧ (i 1).val < win4_3.index ⟨(i 0).val / 5000, ht⟩ (1 : Fin 2) * 1 + 1
    omega

/-- REGION 4: after its 10 grid points the output array is the affine row map of the input array, the weights and the
    bias, whatever the buffers held when the region was entered. -/
theorem reg4_final (c : Dev nD) (b : Cert.Spec.A1 1)
    (hb : ∀ k : Fin 1, (V c main_v46 : S1x1.Idx → EReal) (ix2 0 k) = b (ix1 k)) :
    ((dat4 (F := Ideal) V c).arrAt 3 cfg4.N : S50000x1.Idx → EReal)
      = Cert.Spec.affine 50000 64 1 (V c main_v45) (V c main_arg16) b :=
  (dat4 (F := Ideal) V c).arrAt_eq_of_cover 3 _ (fun t _ => Dense.flushed4_eq V c b hb t) Dense.cover4

end Cert.KernelIdeal.Val
end
-- ==== Proof.PayMlp.lean ====
/-
  The edge network's payload, read at an index, at the ideal values.

  The body of the two edge regions joins three blocks of 5000 rows along the columns ([5000,64], [5000,1], [5000,64] into
  [5000,129]), multiplies by the first weights [129,64], adds the first bias, takes the positive part, multiplies by
  the second weights [64,64] and adds the second bias.  At the ideal values a rounding to a narrower format is the
  identity, a product into the zero accumulator is the plain sum over the contracted axis, and the maximum is `max`.

  Proved here: each product at an index (`edge_mm1_apply`, `edge_mm2_apply`); the payload at an index with the blocks' join kept
  as the body writes it (`k2_pay1_apply`); the join of three pieces read column by column (`cat3_left`, `cat3_mid`,
  `cat3_right`) and its restriction to a row (`cat3_row`); and, from these, that entry `(p, q)` of the payload is entry
  `(r, q)` of the two-layer map of the arrays' join whenever block row `p` is array row `r` (`k2_pay1_eq_twoLayer`).
-/
import proofs.«175801_j82394652607046_2_alg».proof.Proof.Gen.KernelIdeal.Frame
import proofs.«175801_j82394652607046_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Cert.KernelIdeal Cert.KernelIdeal.Gen Idealize.ShloMosaic Idealize.ShloMosaic.TcCoe Idealize.SL.Sem
open Idealize.ShloMosaic.ValueIdx

/-! ## The two products at an index -/

/-- The contraction record of the first layer's product ([5000,129] by [129,64]). -/
abbrev edgeDot1 : DotDims S5000x129 S129x64 S5000x64 := dot_S5000x129_S129x64_S5000x64_1_0_0_1_n_n
/-- The contraction record of the second layer's product ([5000,64] by [64,64]). -/
abbrev edgeDot2 : DotDims S5000x64 S64x64 S5000x64 := dot_S5000x64_S64x64_S5000x64_1_0_0_1_n_n

theorem edgeDot1_lhs0 (i : S5000x64.Idx) (q : edgeDot1.contr.Idx) : (edgeDot1.lhsIdx i q 0).val = (i 0).val := by
  unfold DotDims.lhsIdx
  rw [dif_neg (show ¬(0 : Fin S5000x129.rank) ∈ edgeDot1.lhsBatch by decide), dif_pos (show (0 : Fin S5000x129.rank) ∈ edgeDot1.lhsNonContracting by decide)]
  rfl
theorem edgeDot1_lhs1 (i : S5000x64.Idx) (q : edgeDot1.contr.Idx) : (edgeDot1.lhsIdx i q 1).val = (q ⟨0, by decide⟩).val :=
  edgeDot1.lhsIdx_val_of_single rfl i q
theorem edgeDot1_rhs0 (i : S5000x64.Idx) (q : edgeDot1.contr.Idx) : (edgeDot1.rhsIdx i q 0).val = (q ⟨0, by decide⟩).val :=
  edgeDot1.rhsIdx_val_of_single rfl i q
theorem edgeDot1_rhs1 (i : S5000x64.Idx) (q : edgeDot1.contr.Idx) : (edgeDot1.rhsIdx i q 1).val = (i 1).val := by
  unfold DotDims.rhsIdx
  rw [dif_neg (show ¬(1 : Fin S129x64.rank) ∈ edgeDot1.rhsBatch by decide), dif_pos (show (1 : Fin S129x64.rank) ∈ edgeDot1.rhsNonContracting by decide)]
  rfl

theorem edgeDot2_lhs0 (i : S5000x64.Idx) (q : edgeDot2.contr.Idx) : (edgeDot2.lhsIdx i q 0).val = (i 0).val := by
  unfold DotDims.lhsIdx
  rw [dif_neg (show ¬(0 : Fin S5000x64.rank) ∈ edgeDot2.lhsBatch by decide), dif_pos (show (0 : Fin S5000x64.rank) ∈ edgeDot2.lhsNonContracting by decide)]
  rfl
theorem edgeDot2_lhs1 (i : S5000x64.Idx) (q : edgeDot2.contr.Idx) : (edgeDot2.lhsIdx i q 1).val = (q ⟨0, by decide⟩).val :=
  edgeDot2.lhsIdx_val_of_single rfl i q
theorem edgeDot2_rhs0 (i : S5000x64.Idx) (q : edgeDot2.contr.Idx) : (edgeDot2.rhsIdx i q 0).val = (q ⟨0, by decide⟩).val :=
  edgeDot2.rhsIdx_val_of_single rfl i q
theorem edgeDot2_rhs1 (i : S5000x64.Idx) (q : edgeDot2.contr.Idx) : (edgeDot2.rhsIdx i q 1).val = (i 1).val := by
  unfold DotDims.rhsIdx
  rw [dif_neg (show ¬(1 : Fin S64x64.rank) ∈ edgeDot2.rhsBatch by decide), dif_pos (show (1 : Fin S64x64.rank) ∈ edgeDot2.rhsNonContracting by decide)]
  rfl

/-- The first product into the zero accumulator, at an index: the sum over the 129 joined columns. -/
theorem edge_mm1_apply (x : FVec Ideal S5000x129 .bf16) (w : FVec Ideal S129x64 .bf16) (p : Fin 5000) (k : Fin 64) :
    matmul edgeDot1 none x w (constant (F := Ideal) S5000x64 .f32 0x00000000#32) (ix2 p k)
      = ∑ l : Fin 129, x (ix2 p l) * w (ix2 l k) := by
  simp only [matmul]
  rw [Ideal.matmul_constant_zero_apply, ← Equiv.sum_comp (contrEquiv1 edgeDot1 129 rfl rfl).symm]
  refine Finset.sum_congr rfl fun l _ => ?_
  have hl := contrEquiv1_symm_val edgeDot1 129 rfl rfl l
  have el : edgeDot1.lhsIdx (ix2 p k) ((contrEquiv1 edgeDot1 129 rfl rfl).symm l) = ix2 p l := funext fun a => Fin.ext (by
    match a with
    | ⟨0, _⟩ => exact edgeDot1_lhs0 _ _
    | ⟨1, _⟩ => exact (edgeDot1_lhs1 _ _).trans hl)
  have er : edgeDot1.rhsIdx (ix2 p k) ((contrEquiv1 edgeDot1 129 rfl rfl).symm l) = ix2 l k := funext fun a => Fin.ext (by
    match a with
    | ⟨0, _⟩ => exact (edgeDot1_rhs0 _ _).trans hl
    | ⟨1, _⟩ => exact edgeDot1_rhs1 _ _)
  rw [el, er]

/-- The second product into the zero accumulator, at an index: the sum over the 64 hidden columns. -/
theorem edge_mm2_apply (x : FVec Ideal S5000x64 .bf16) (w : FVec Ideal S64x64 .bf16) (p : Fin 5000) (q : Fin 64) :
    matmul edgeDot2 none x w (constant (F := Ideal) S5000x64 .f32 0x00000000#32) (ix2 p q)
      = ∑ k : Fin 64, x (ix2 p k) * w (ix2 k q) := by
  simp only [matmul]
  rw [Ideal.matmul_constant_zero_apply, ← Equiv.sum_comp (contrEquiv1 edgeDot2 64 rfl rfl).symm]
  refine Finset.sum_congr rfl fun k _ => ?_
  have hk := contrEquiv1_symm_val edgeDot2 64 rfl rfl k
  have el : edgeDot2.lhsIdx (ix2 p q) ((contrEquiv1 edgeDot2 64 rfl rfl).symm k) = ix2 p k := funext fun a => Fin.ext (by
    match a with
    | ⟨0, _⟩ => exact edgeDot2_lhs0 _ _
    | ⟨1, _⟩ => exact (edgeDot2_lhs1 _ _).trans hk)
  have er : edgeDot2.rhsIdx (ix2 p q) ((contrEquiv1 edgeDot2 64 rfl rfl).symm k) = ix2 k q := funext fun a => Fin.ext (by
    match a with
    | ⟨0, _⟩ => exact (edgeDot2_rhs0 _ _).trans hk
    | ⟨1, _⟩ => exact edgeDot2_rhs1 _ _)
  rw [el, er]

/-! ## The payload at an index -/

/-- The zero the positive part compares against is the extended real `0`. -/
theorem edge_ofBits_zero : (FloatOps.ofBits (F := Ideal) .f32 0x00000000#32 : EReal) = 0 := Ideal.ofBits_zero_f32

/-- THE PAYLOAD AT AN INDEX. Row `p`, column `q` of what the body stores: the joined block row times the first
    weights plus the first bias, its positive part, times the second weights plus the second bias; the join of the
    three blocks is kept as the body writes it. -/
theorem k2_pay1_apply (x0 : Vec Ideal S5000x64 .bf16) (x1 : Vec Ideal S5000x1 .f32) (x2 : Vec Ideal S5000x64 .bf16)
    (x3 : Vec Ideal S129x64 .f32) (x4 : Vec Ideal S1x64 .f32) (x5 : Vec Ideal S64x64 .f32) (x6 : Vec Ideal S1x64 .f32)
    (p : Fin 5000) (q : Fin 64) :
    k2_pay1 (F := Ideal) x0 x1 x2 x3 x4 x5 x6 (ix2 p q)
      = (∑ k : Fin 64, max ((∑ l : Fin 129,
            (concatenate S5000x129 1 [⟨S5000x64, x0⟩, ⟨S5000x1, x1⟩, ⟨S5000x64, x2⟩]
              concatenates_S5000x64_S5000x1_S5000x64_S5000x129_d1 : S5000x129.Idx → EReal) (ix2 p l) * x3 (ix2 l k))
          + x4 (ix2 (0 : Fin 1) k)) 0 * x5 (ix2 k q)) + x6 (ix2 (0 : Fin 1) q) := by
  unfold k2_pay1
  simp only [shapeCast_self]
  rw [shapeCast_self x0, shapeCast_self x2, show (truncf .bf16 (x1 : FVec Ideal S5000x1 .f32) bitsLt_bf16_f32 : FVec Ideal S5000x1 .bf16) = x1 from rfl]
  rw [addf_apply, edge_mm2_apply, broadcastTo_1b_ab_apply]
  congr 1
  refine Finset.sum_congr rfl fun k _ => ?_
  rw [truncf_apply, truncf_apply, maximumf_apply, addf_apply, edge_mm1_apply, broadcastTo_1b_ab_apply, broadcast_apply,
    edge_ofBits_zero]
  simp only [truncf_apply]

/-! ## The join of three pieces [·,64], [·,1], [·,64] along the columns, read at an index -/

section Join
variable {M : ℕ}

/-- Columns below 64 read the first piece. -/
theorem cat3_left (A : (⟨2, ![M, 64]⟩ : Shape).Idx → EReal) (E : (⟨2, ![M, 1]⟩ : Shape).Idx → EReal)
    (B : (⟨2, ![M, 64]⟩ : Shape).Idx → EReal)
    (h : Shape.Concatenates [(⟨2, ![M, 64]⟩ : Shape), ⟨2, ![M, 1]⟩, ⟨2, ![M, 64]⟩] (⟨2, ![M, 129]⟩ : Shape) 1)
    (r : Fin M) (l : Fin 129) (hl : l.val < 64) :
    concatenate (⟨2, ![M, 129]⟩ : Shape) 1 [⟨⟨2, ![M, 64]⟩, A⟩, ⟨⟨2, ![M, 1]⟩, E⟩, ⟨⟨2, ![M, 64]⟩, B⟩] h (ix2 r l)
      = A (ix2 r ⟨l.val, hl⟩) :=
  concatenate_apply_piece (1 : Fin (⟨2, ![M, 129]⟩ : Shape).rank) [⟨⟨2, ![M, 64]⟩, A⟩, ⟨⟨2, ![M, 1]⟩, E⟩, ⟨⟨2, ![M, 64]⟩, B⟩] h (ix2 r l) 0 (by show 0 < 3; omega) ⟨2, ![M, 64]⟩ A rfl rfl 0 rfl
    (ix2 r ⟨l.val, hl⟩)
    (fun b hb => match b with
      | ⟨0, _⟩ => rfl
      | ⟨1, _⟩ => absurd rfl hb)
    (Nat.zero_add _)

/-- Column 64 reads the middle piece's one column. -/
theorem cat3_mid (A : (⟨2, ![M, 64]⟩ : Shape).Idx → EReal) (E : (⟨2, ![M, 1]⟩ : Shape).Idx → EReal)
    (B : (⟨2, ![M, 64]⟩ : Shape).Idx → EReal)
    (h : Shape.Concatenates [(⟨2, ![M, 64]⟩ : Shape), ⟨2, ![M, 1]⟩, ⟨2, ![M, 64]⟩] (⟨2, ![M, 129]⟩ : Shape) 1)
    (r : Fin M) (l : Fin 129) (hl : l.val = 64) :
    concatenate (⟨2, ![M, 129]⟩ : Shape) 1 [⟨⟨2, ![M, 64]⟩, A⟩, ⟨⟨2, ![M, 1]⟩, E⟩, ⟨⟨2, ![M, 64]⟩, B⟩] h (ix2 r l)
      = E (ix2 r (0 : Fin 1)) :=
  concatenate_apply_piece (1 : Fin (⟨2, ![M, 129]⟩ : Shape).rank) [⟨⟨2, ![M, 64]⟩, A⟩, ⟨⟨2, ![M, 1]⟩, E⟩, ⟨⟨2, ![M, 64]⟩, B⟩] h (ix2 r l) 1 (by show 1 < 3; omega) ⟨2, ![M, 1]⟩ E rfl rfl 64 rfl
    (ix2 r (0 : Fin 1))
    (fun b hb => match b with
      | ⟨0, _⟩ => rfl
      | ⟨1, _⟩ => absurd rfl hb)
    (by show 64 + 0 = l.val; omega)

/-- Columns above 64 read the last piece, 65 columns to the left. -/
theorem cat3_right (A : (⟨2, ![M, 64]⟩ : Shape).Idx → EReal) (E : (⟨2, ![M, 1]⟩ : Shape).Idx → EReal)
    (B : (⟨2, ![M, 64]⟩ : Shape).Idx → EReal)
    (h : Shape.Concatenates [(⟨2, ![M, 64]⟩ : Shape), ⟨2, ![M, 1]⟩, ⟨2, ![M, 64]⟩] (⟨2, ![M, 129]⟩ : Shape) 1)
    (r : Fin M) (l : Fin 129) (hl : 64 < l.val) :
    concatenate (⟨2, ![M, 129]⟩ : Shape) 1 [⟨⟨2, ![M, 64]⟩, A⟩, ⟨⟨2, ![M, 1]⟩, E⟩, ⟨⟨2, ![M, 64]⟩, B⟩] h (ix2 r l)
      = B (ix2 r ⟨l.val - 65, by have := l.isLt; omega⟩) :=
  concatenate_apply_piece (1 : Fin (⟨2, ![M, 129]⟩ : Shape).rank) [⟨⟨2, ![M, 64]⟩, A⟩, ⟨⟨2, ![M, 1]⟩, E⟩, ⟨⟨2, ![M, 64]⟩, B⟩] h (ix2 r l) 2 (by show 2 < 3; omega) ⟨2, ![M, 64]⟩ B rfl rfl 65 rfl
    (ix2 r ⟨l.val - 65, by have := l.isLt; omega⟩)
    (fun b hb => match b with
      | ⟨0, _⟩ => rfl
      | ⟨1, _⟩ => absurd rfl hb)
    (by show 65 + (l.val - 65) = l.val; omega)

end Join

/-- ROW RESTRICTION of the join: when row `y` of three blocks is row `r` of three arrays, the join of the blocks at
    row `y` is the join of the arrays at row `r`, column by column. -/
theorem cat3_row {M m : ℕ} (A : (⟨2, ![M, 64]⟩ : Shape).Idx → EReal) (E : (⟨2, ![M, 1]⟩ : Shape).Idx → EReal)
    (B : (⟨2, ![M, 64]⟩ : Shape).Idx → EReal)
    (a : (⟨2, ![m, 64]⟩ : Shape).Idx → EReal) (e : (⟨2, ![m, 1]⟩ : Shape).Idx → EReal)
    (b : (⟨2, ![m, 64]⟩ : Shape).Idx → EReal)
    (hC : Shape.Concatenates [(⟨2, ![M, 64]⟩ : Shape), ⟨2, ![M, 1]⟩, ⟨2, ![M, 64]⟩] (⟨2, ![M, 129]⟩ : Shape) 1)
    (hc : Shape.Concatenates [(⟨2, ![m, 64]⟩ : Shape), ⟨2, ![m, 1]⟩, ⟨2, ![m, 64]⟩] (⟨2, ![m, 129]⟩ : Shape) 1)
    (r : Fin M) (y : Fin m)
    (ha : ∀ k : Fin 64, a (ix2 y k) = A (ix2 r k)) (he : e (ix2 y (0 : Fin 1)) = E (ix2 r (0 : Fin 1)))
    (hb : ∀ k : Fin 64, b (ix2 y k) = B (ix2 r k)) (l : Fin 129) :
    concatenate (⟨2, ![m, 129]⟩ : Shape) 1 [⟨⟨2, ![m, 64]⟩, a⟩, ⟨⟨2, ![m, 1]⟩, e⟩, ⟨⟨2, ![m, 64]⟩, b⟩] hc (ix2 y l)
      = concatenate (⟨2, ![M, 129]⟩ : Shape) 1 [⟨⟨2, ![M, 64]⟩, A⟩, ⟨⟨2, ![M, 1]⟩, E⟩, ⟨⟨2, ![M, 64]⟩, B⟩] hC (ix2 r l) := by
  rcases Nat.lt_trichotomy l.val 64 with hl | hl | hl
  · rw [cat3_left a e b hc y l hl, cat3_left A E B hC r l hl]; exact ha _
  · rw [cat3_mid a e b hc y l hl, cat3_mid A E B hC r l hl]; exact he
  · rw [cat3_right a e b hc y l hl, cat3_right A E B hC r l hl]; exact hb _

/-! ## From a block row to the arrays' row -/

/-- The second edge region's payload is the first's, letter for letter. -/
theorem k3_pay1_eq : @k3_pay1 = @k2_pay1 := rfl

/-- THE PAYLOAD OF A BLOCK ROW IS THE TWO-LAYER MAP OF THE ARRAYS' ROW. When row `p` of the three input blocks is row `r`
    of three arrays, and the weight and bias blocks are the weight and bias arrays, entry `(p, q)` of the payload is entry
    `(r, q)` of the two-layer map of the arrays' join. -/
theorem k2_pay1_eq_twoLayer
    (x0 : Vec Ideal S5000x64 .bf16) (x1 : Vec Ideal S5000x1 .f32) (x2 : Vec Ideal S5000x64 .bf16)
    (x3 : Vec Ideal S129x64 .f32) (x4 : Vec Ideal S1x64 .f32) (x5 : Vec Ideal S64x64 .f32) (x6 : Vec Ideal S1x64 .f32)
    (A : S1000000x64.Idx → EReal) (E : S1000000x1.Idx → EReal) (B : S1000000x64.Idx → EReal)
    (W1 : Cert.Spec.A2 129 64) (b1 : Cert.Spec.A1 64) (W2 : Cert.Spec.A2 64 64) (b2 : Cert.Spec.A1 64)
    (hcat : Shape.Concatenates [S1000000x64, S1000000x1, S1000000x64] (⟨2, ![1000000, 129]⟩ : Shape) 1)
    (r : Fin 1000000) (p : Fin 5000) (q : Fin 64)
    (h0 : ∀ k : Fin 64, x0 (ix2 p k) = A (ix2 r k))
    (h1 : x1 (ix2 p (0 : Fin 1)) = E (ix2 r (0 : Fin 1)))
    (h2 : ∀ k : Fin 64, x2 (ix2 p k) = B (ix2 r k))
    (h3 : ∀ (l : Fin 129) (k : Fin 64), x3 (ix2 l k) = W1 (ix2 l k))
    (h4 : ∀ k : Fin 64, x4 (ix2 (0 : Fin 1) k) = b1 (ix1 k))
    (h5 : ∀ k q : Fin 64, x5 (ix2 k q) = W2 (ix2 k q))
    (h6 : ∀ k : Fin 64, x6 (ix2 (0 : Fin 1) k) = b2 (ix1 k)) :
    k2_pay1 (F := Ideal) x0 x1 x2 x3 x4 x5 x6 (ix2 p q)
      = Cert.Spec.twoLayer 1000000 129
          (concatenate (⟨2, ![1000000, 129]⟩ : Shape) 1 [⟨S1000000x64, A⟩, ⟨S1000000x1, E⟩, ⟨S1000000x64, B⟩] hcat)
          W1 b1 W2 b2 (ix2 r q) := by
  have hs : ∀ k : Fin 64,
      (∑ l : Fin 129, (concatenate S5000x129 1 [⟨S5000x64, x0⟩, ⟨S5000x1, x1⟩, ⟨S5000x64, x2⟩]
          concatenates_S5000x64_S5000x1_S5000x64_S5000x129_d1 : S5000x129.Idx → EReal) (ix2 p l) * x3 (ix2 l k))
        = ∑ l : Fin 129, (concatenate (⟨2, ![1000000, 129]⟩ : Shape) 1
            [⟨S1000000x64, A⟩, ⟨S1000000x1, E⟩, ⟨S1000000x64, B⟩] hcat : (⟨2, ![1000000, 129]⟩ : Shape).Idx → EReal) (ix2 r l)
            * W1 (ix2 l k) := fun k =>
    Finset.sum_congr rfl fun l _ => by
      rw [h3, cat3_row A E B x0 x1 x2 hcat concatenates_S5000x64_S5000x1_S5000x64_S5000x129_d1 r p h0 h1 h2 l]
  rw [k2_pay1_apply]
  simp only [hs, h4, h5, h6]
  unfold Cert.Spec.twoLayer
  rw [Cert.Spec.affine_apply]
  simp only [Cert.Spec.affineRelu_apply]

end Cert.KernelIdeal.Val

end
-- ==== Proof.Reg2.lean ====
/-
  The first edge region of the idealized kernel: the array it leaves, as one function of the arrays it finds.

  The region runs the edge network's body at 200 grid points.  At point `t` the three row-blocked inputs and the output
  are rows `t * 5000 … t * 5000 + 4999` of their arrays (block index `t` on the rows, `0` on the columns); the two
  weight arrays and the two bias rows are staged whole.  So block row `y` of every row-blocked window is array row
  `t * 5000 + y`, the body's payload there is the two-layer map of the joined arrays at that row (`k2_pay1_eq_twoLayer`),
  and the 200 blocks written back tile the output array: row `r` lies in the block of point `r / 5000`.  Hence the output
  array after the region is the two-layer map of the join of the three input arrays (`reg2_final`), for any buffer
  contents `V` the region is entered with.
-/
import proofs.«175801_j82394652607046_2_alg».proof.Proof.Gen.KernelIdeal.Frame
import proofs.«175801_j82394652607046_2_alg».proof.Proof.Spec
import proofs.«175801_j82394652607046_2_alg».proof.Proof.PayMlp
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Cert.KernelIdeal Cert.KernelIdeal.Gen Idealize.ShloMosaic Idealize.ShloMosaic.TcCoe Idealize.SL.Sem
open Idealize.ShloMosaic.ValueIdx

section Region2

variable (V : (c : Dev nD) → (b : Ref sig .tc) → Buf (Elt Ideal) ((c : Thread nD τ).loc b))

/-- The stores' offset is the origin. -/
theorem hz2 : (![0, 0] : Fin 2 → Nat) = fun _ => 0 := funext fun a => by fin_cases a <;> rfl

/-- The printed index maps, decided over the 200 grid points: the three row-blocked inputs and the output sit at block
    row `t`, block column 0; the weights and biases are whole arrays, at block (0, 0). -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-! ## The input blocks at an index: block row `y` of point `t` is array row `t * 5000 + y` -/

theorem iblk2_0_apply (c : Dev nD) (t : Fin cfg2.N) (y : Fin 5000) (k : Fin 64) (hr : t.val * 5000 + y.val < 1000000) :
    (iblk2 (F := Ideal) V c 0 t : S5000x64.Idx → EReal) (ix2 y k)
      = (V c main_v16 : S1000000x64.Idx → EReal) (ix2 ⟨t.val * 5000 + y.val, hr⟩ k) := by
  obtain ⟨e0, e1, -⟩ := idx_facts2 t
  show (V c main_v16 : S1000000x64.Idx → EReal) (((cfg2.win 0).blk t).view.emb (ix2 y k)) = _
  refine congrArg _ (funext fun a => Fin.ext ?_)
  match a with
  | ⟨0, _⟩ => show win2_0.index t (0 : Fin 2) * 5000 + 1 * y.val = t.val * 5000 + y.val; rw [e0]; omega
  | ⟨1, _⟩ => show win2_0.index t (1 : Fin 2) * 64 + 1 * k.val = k.val; rw [e1]; omega

theorem iblk2_1_apply (c : Dev nD) (t : Fin cfg2.N) (y : Fin 5000) (hr : t.val * 5000 + y.val < 1000000) :
    (iblk2 (F := Ideal) V c 1 t : S5000x1.Idx → EReal) (ix2 y (0 : Fin 1))
      = (V c main_arg2 : S1000000x1.Idx → EReal) (ix2 ⟨t.val * 5000 + y.val, hr⟩ (0 : Fin 1)) := by
  obtain ⟨-, -, e0, e1, -⟩ := idx_facts2 t
  show (V c main_arg2 : S1000000x1.Idx → EReal) (((cfg2.win 1).blk t).view.emb (ix2 y (0 : Fin 1))) = _
  refine congrArg _ (funext fun a => Fin.ext ?_)
  match a with
  | ⟨0, _⟩ => show win2_1.index t (0 : Fin 2) * 5000 + 1 * y.val = t.val * 5000 + y.val; rw [e0]; omega
  | ⟨1, _⟩ => show win2_1.index t (1 : Fin 2) * 1 + 1 * 0 = 0; rw [e1]

theorem iblk2_2_apply (c : Dev nD) (t : Fin cfg2.N) (y : Fin 5000) (k : Fin 64) (hr : t.val * 5000 + y.val < 1000000) :
    (iblk2 (F := Ideal) V c 2 t : S5000x64.Idx → EReal) (ix2 y k)
      = (V c main_v23 : S1000000x64.Idx → EReal) (ix2 ⟨t.val * 5000 + y.val, hr⟩ k) := by
  obtain ⟨-, -, -, -, e0, e1, -⟩ := idx_facts2 t
  show (V c main_v23 : S1000000x64.Idx → EReal) (((cfg2.win 2).blk t).view.emb (ix2 y k)) = _
  refine congrArg _ (funext fun a => Fin.ext ?_)
  match a with
  | ⟨0, _⟩ => show win2_2.index t (0 : Fin 2) * 5000 + 1 * y.val = t.val * 5000 + y.val; rw [e0]; omega
  | ⟨1, _⟩ => show win2_2.index t (1 : Fin 2) * 64 + 1 * k.val = k.val; rw [e1]; omega

/-! ## The weight and bias blocks are the whole arrays -/

theorem iblk2_3_apply (c : Dev nD) (t : Fin cfg2.N) (l : Fin 129) (k : Fin 64) :
    (iblk2 (F := Ideal) V c 3 t : S129x64.Idx → EReal) (ix2 l k) = (V c main_arg8 : S129x64.Idx → EReal) (ix2 l k) := by
  obtain ⟨-, -, -, -, -, -, e0, e1, -⟩ := idx_facts2 t
  show (V c main_arg8 : S129x64.Idx → EReal) (((cfg2.win 3).blk t).view.emb (ix2 l k)) = _
  refine congrArg _ (funext fun a => Fin.ext ?_)
  match a with
  | ⟨0, _⟩ => show win2_3.index t (0 : Fin 2) * 129 + 1 * l.val = l.val; rw [e0]; omega
  | ⟨1, _⟩ => show win2_3.index t (1 : Fin 2) * 64 + 1 * k.val = k.val; rw [e1]; omega

theorem iblk2_4_apply (c : Dev nD) (t : Fin cfg2.N) (k : Fin 64) :
    (iblk2 (F := Ideal) V c 4 t : S1x64.Idx → EReal) (ix2 (0 : Fin 1) k) = (V c main_v24 : S1x64.Idx → EReal) (ix2 (0 : Fin 1) k) := by
  obtain ⟨-, -, -, -, -, -, -, -, e0, e1, -⟩ := idx_facts2 t
  show (V c main_v24 : S1x64.Idx → EReal) (((cfg2.win 4).blk t).view.emb (ix2 (0 : Fin 1) k)) = _
  refine congrArg _ (funext fun a => Fin.ext ?_)
  match a with
  | ⟨0, _⟩ => show win2_4.index t (0 : Fin 2) * 1 + 1 * 0 = 0; rw [e0]
  | ⟨1, _⟩ => show win2_4.index t (1 : Fin 2) * 64 + 1 * k.val = k.val; rw [e1]; omega

theorem iblk2_5_apply (c : Dev nD) (t : Fin cfg2.N) (k q : Fin 64) :
    (iblk2 (F := Ideal) V c 5 t : S64x64.Idx → EReal) (ix2 k q) = (V c main_arg10 : S64x64.Idx → EReal) (ix2 k q) := by
  obtain ⟨-, -, -, -, -, -, -, -, -, -, e0, e1, -⟩ := idx_facts2 t
  show (V c main_arg10 : S64x64.Idx → EReal) (((cfg2.win 5).blk t).view.emb (ix2 k q)) = _
  refine congrArg _ (funext fun a => Fin.ext ?_)
  match a with
  | ⟨0, _⟩ => show win2_5.index t (0 : Fin 2) * 64 + 1 * k.val = k.val; rw [e0]; omega
  | ⟨1, _⟩ => show win2_5.index t (1 : Fin 2) * 64 + 1 * q.val = q.val; rw [e1]; omega

theorem iblk2_6_apply (c : Dev nD) (t : Fin cfg2.N) (k : Fin 64) :
    (iblk2 (F := Ideal) V c 6 t : S1x64.Idx → EReal) (ix2 (0 : Fin 1) k) = (V c main_v25 : S1x64.Idx → EReal) (ix2 (0 : Fin 1) k) := by
  obtain ⟨-, -, -, -, -, -, -, -, -, -, -, -, e0, e1, -⟩ := idx_facts2 t
  show (V c main_v25 : S1x64.Idx → EReal) (((cfg2.win 6).blk t).view.emb (ix2 (0 : Fin 1) k)) = _
  refine congrArg _ (funext fun a => Fin.ext ?_)
  match a with
  | ⟨0, _⟩ => show win2_6.index t (0 : Fin 2) * 1 + 1 * 0 = 0; rw [e0]
  | ⟨1, _⟩ => show win2_6.index t (1 : Fin 2) * 64 + 1 * k.val = k.val; rw [e1]; omega

/-! ## What a point writes back, and the array after the region -/

/-- WHAT POINT `t` WRITES BACK is block `t` of the two-layer map of the joined arrays: the body's one store covers its
    buffer, its payload at block row `y` is the two-layer map at array row `t * 5000 + y`, and the output's block sits at
    the same rows. -/
theorem flushed2_7_eq (c : Dev nD) (b1 b2 : Cert.Spec.A1 64)
    (hb1 : ∀ k : Fin 64, (V c main_v24 : S1x64.Idx → EReal) (ix2 0 k) = b1 (ix1 k))
    (hb2 : ∀ k : Fin 64, (V c main_v25 : S1x64.Idx → EReal) (ix2 0 k) = b2 (ix1 k))
    (hcat : Shape.Concatenates [S1000000x64, S1000000x1, S1000000x64] (⟨2, ![1000000, 129]⟩ : Shape) 1)
    (t : Fin cfg2.N) :
    (dat2 (F := Ideal) V c).flushed 7 t = ((cfg2.win 7).blk t).view.read (Elt Ideal)
        (Cert.Spec.twoLayer 1000000 129
          (concatenate (⟨2, ![1000000, 129]⟩ : Shape) 1 [⟨S1000000x64, (V c main_v16 : S1000000x64.Idx → EReal)⟩,
            ⟨S1000000x1, (V c main_arg2 : S1000000x1.Idx → EReal)⟩, ⟨S1000000x64, (V c main_v23 : S1000000x64.Idx → EReal)⟩] hcat)
          (V c main_arg8) b1 (V c main_arg10) b2) := by
  show (cfg2.win 7).cut (grid2.coords t) ((dat2 (F := Ideal) V c).after 7 t) = _
  rw [after2_7]
  unfold out2_7
  rw [View.canon_unit_zero hz2]
  simp only [View.ld_unit_zero (S := S5000x64) hz2, View.ld_unit_zero (S := S5000x1) hz2,
    View.ld_unit_zero (S := S129x64) hz2, View.ld_unit_zero (S := S1x64) hz2, View.ld_unit_zero (S := S64x64) hz2]
  funext j
  have ht : t.val < 200 := t.isLt
  have hj0 : (j 0).val < 5000 := (j 0).isLt
  have hj1 : (j 1).val < 64 := (j 1).isLt
  have hr : t.val * 5000 + (j 0).val < 1000000 := by omega
  obtain ⟨-, -, -, -, -, -, -, -, -, -, -, -, -, -, e0, e1⟩ := idx_facts2 t
  have hidx : (cfg2.win 7).xinj (grid2.coords t) j = ix2 (⟨(j 0).val, hj0⟩ : Fin 5000) (⟨(j 1).val, hj1⟩ : Fin 64) :=
    funext fun a => match a with
      | ⟨0, _⟩ => rfl
      | ⟨1, _⟩ => rfl
  show k2_pay1 (F := Ideal) (iblk2 V c 0 t) (iblk2 V c 1 t) (iblk2 V c 2 t) (iblk2 V c 3 t) (iblk2 V c 4 t)
      (iblk2 V c 5 t) (iblk2 V c 6 t) ((cfg2.win 7).xinj (grid2.coords t) j)
    = (Cert.Spec.twoLayer 1000000 129
          (concatenate (⟨2, ![1000000, 129]⟩ : Shape) 1 [⟨S1000000x64, (V c main_v16 : S1000000x64.Idx → EReal)⟩,
            ⟨S1000000x1, (V c main_arg2 : S1000000x1.Idx → EReal)⟩, ⟨S1000000x64, (V c main_v23 : S1000000x64.Idx → EReal)⟩] hcat)
          (V c main_arg8) b1 (V c main_arg10) b2) (((cfg2.win 7).blk t).view.emb j)
  rw [hidx]
  refine (k2_pay1_eq_twoLayer (iblk2 V c 0 t) (iblk2 V c 1 t) (iblk2 V c 2 t) (iblk2 V c 3 t) (iblk2 V c 4 t)
      (iblk2 V c 5 t) (iblk2 V c 6 t) (V c main_v16) (V c main_arg2) (V c main_v23) (V c main_arg8) b1 (V c main_arg10) b2 hcat
      ⟨t.val * 5000 + (j 0).val, hr⟩ ⟨(j 0).val, hj0⟩ ⟨(j 1).val, hj1⟩
      (fun k => iblk2_0_apply V c t _ k hr) (iblk2_1_apply V c t _ hr) (fun k => iblk2_2_apply V c t _ k hr)
      (fun l k => iblk2_3_apply V c t l k) (fun k => (iblk2_4_apply V c t k).trans (hb1 k))
      (fun k q => iblk2_5_apply V c t k q) (fun k => (iblk2_6_apply V c t k).trans (hb2 k))).trans ?_
  refine congrArg _ (funext fun a => Fin.ext ?_)
  match a with
  | ⟨0, _⟩ => show t.val * 5000 + (j 0).val = win2_7.index t (0 : Fin 2) * 5000 + 1 * (j 0).val; rw [e0]; omega
  | ⟨1, _⟩ => show (j 1).val = win2_7.index t (1 : Fin 2) * 64 + 1 * (j 1).val; rw [e1]; omega

/-- An index of the output array is in point `t`'s block iff each coordinate is in the block's range on its axis. -/
theorem mem_blk2_7 (t : Fin cfg2.N) (i : S1000000x64.Idx) :
    i ∈ ((cfg2.win 7).blk t).view.set ↔ ∀ a : Fin 2, win2_7.index t a * S5000x64.size a ≤ (i a).val
      ∧ (i a).val < win2_7.index t a * S5000x64.size a + S5000x64.size a := by
  show i ∈ ((View.whole main_v26).slice (win2_7.rect t)).set ↔ _
  rw [View.set_slice_whole, Rect.mem_set_unit]
  exact Iff.rfl

/-- THE BLOCKS COVER THE ARRAY: row `r` lies in the block of point `r / 5000`. -/
theorem covered2_7 (i : S1000000x64.Idx) :
    ∃ t : Fin cfg2.N, (cfg2.win 7).flush t = true ∧ i ∈ ((cfg2.win 7).blk t).view.set := by
  have hi0 : (i 0).val < 1000000 := (i 0).isLt
  have hi1 : (i 1).val < 64 := (i 1).isLt
  have hq : (i 0).val / 5000 < 200 := by omega
  obtain ⟨-, -, -, -, -, -, -, -, -, -, -, -, -, -, e0, e1⟩ := idx_facts2 ⟨(i 0).val / 5000, hq⟩
  refine ⟨⟨(i 0).val / 5000, hq⟩, flush2_7 _, ?_⟩
  rw [mem_blk2_7]
  intro a
  match a with
  | ⟨0, _⟩ =>
    show win2_7.index ⟨(i 0).val / 5000, hq⟩ (0 : Fin 2) * 5000 ≤ (i 0).val
      ∧ (i 0).val < win2_7.index ⟨(i 0).val / 5000, hq⟩ (0 : Fin 2) * 5000 + 5000
    rw [e0]; show (i 0).val / 5000 * 5000 ≤ (i 0).val ∧ (i 0).val < (i 0).val / 5000 * 5000 + 5000; omega
  | ⟨1, _⟩ =>
    show win2_7.index ⟨(i 0).val / 5000, hq⟩ (1 : Fin 2) * 64 ≤ (i 1).val
      ∧ (i 1).val < win2_7.index ⟨(i 0).val / 5000, hq⟩ (1 : Fin 2) * 64 + 64
    rw [e1]; omega

/-- THE ARRAY AFTER THE REGION is the two-layer map of the join of the three input arrays, with the weights and biases the
    region finds: every point writes back its block of that one function, and the blocks cover the array. -/
theorem reg2_final (c : Dev nD) (b1 b2 : Cert.Spec.A1 64)
    (hb1 : ∀ k : Fin 64, (V c main_v24 : S1x64.Idx → EReal) (ValueIdx.ix2 0 k) = b1 (ValueIdx.ix1 k))
    (hb2 : ∀ k : Fin 64, (V c main_v25 : S1x64.Idx → EReal) (ValueIdx.ix2 0 k) = b2 (ValueIdx.ix1 k))
    (hcat : Shape.Concatenates [S1000000x64, S1000000x1, S1000000x64] (⟨2, ![1000000, 129]⟩ : Shape) 1) :
    ((dat2 (F := Ideal) V c).arrAt 7 cfg2.N : S1000000x64.Idx → EReal) =
      Cert.Spec.twoLayer 1000000 129 (concatenate (⟨2, ![1000000, 129]⟩ : Shape) 1 [⟨S1000000x64, (V c main_v16 : S1000000x64.Idx → EReal)⟩, ⟨S1000000x1, (V c main_arg2 : S1000000x1.Idx → EReal)⟩, ⟨S1000000x64, (V c main_v23 : S1000000x64.Idx → EReal)⟩] hcat) (V c main_arg8) b1 (V c main_arg10) b2 :=
  (dat2 (F := Ideal) V c).arrAt_eq_of_cover 7 _ (fun t _ => flushed2_7_eq V c b1 b2 hb1 hb2 hcat t) covered2_7

end Region2

end Cert.KernelIdeal.Val

end
-- ==== Proof.Reg3.lean ====
/-
  The second edge region of the idealized kernel: the array it leaves, as one function of the arrays it finds.

  The region runs the edge network's body at 200 grid points.  At point `t` the three row-blocked inputs and the output
  are rows `t * 5000 … t * 5000 + 4999` of their arrays (block index `t` on the rows, `0` on the columns); the two
  weight arrays and the two bias rows are staged whole.  So block row `y` of every row-blocked window is array row
  `t * 5000 + y`, the body's payload there is the two-layer map of the joined arrays at that row (`k2_pay1_eq_twoLayer`),
  and the 200 blocks written back tile the output array: row `r` lies in the block of point `r / 5000`.  Hence the output
  array after the region is the two-layer map of the join of the three input arrays (`reg3_final`), for any buffer
  contents `V` the region is entered with.
-/
import proofs.«175801_j82394652607046_2_alg».proof.Proof.Gen.KernelIdeal.Frame
import proofs.«175801_j82394652607046_2_alg».proof.Proof.Spec
import proofs.«175801_j82394652607046_2_alg».proof.Proof.PayMlp
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Cert.KernelIdeal Cert.KernelIdeal.Gen Idealize.ShloMosaic Idealize.ShloMosaic.TcCoe Idealize.SL.Sem
open Idealize.ShloMosaic.ValueIdx

section Region3

variable (V : (c : Dev nD) → (b : Ref sig .tc) → Buf (Elt Ideal) ((c : Thread nD τ).loc b))

/-- The stores' offset is the origin. -/
theorem hz3 : (![0, 0] : Fin 2 → Nat) = fun _ => 0 := funext fun a => by fin_cases a <;> rfl

/-- The printed index maps, decided over the 200 grid points: the three row-blocked inputs and the output sit at block
    row `t`, block column 0; the weights and biases are whole arrays, at block (0, 0). -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0 :=
  (by decide +kernel : ∀ t : Fin grid3.N, _)

/-! ## The input blocks at an index: block row `y` of point `t` is array row `t * 5000 + y` -/

theorem iblk3_0_apply (c : Dev nD) (t : Fin cfg3.N) (y : Fin 5000) (k : Fin 64) (hr : t.val * 5000 + y.val < 1000000) :
    (iblk3 (F := Ideal) V c 0 t : S5000x64.Idx → EReal) (ix2 y k)
      = (V c main_v38 : S1000000x64.Idx → EReal) (ix2 ⟨t.val * 5000 + y.val, hr⟩ k) := by
  obtain ⟨e0, e1, -⟩ := idx_facts3 t
  show (V c main_v38 : S1000000x64.Idx → EReal) (((cfg3.win 0).blk t).view.emb (ix2 y k)) = _
  refine congrArg _ (funext fun a => Fin.ext ?_)
  match a with
  | ⟨0, _⟩ => show win3_0.index t (0 : Fin 2) * 5000 + 1 * y.val = t.val * 5000 + y.val; rw [e0]; omega
  | ⟨1, _⟩ => show win3_0.index t (1 : Fin 2) * 64 + 1 * k.val = k.val; rw [e1]; omega

theorem iblk3_1_apply (c : Dev nD) (t : Fin cfg3.N) (y : Fin 5000) (hr : t.val * 5000 + y.val < 1000000) :
    (iblk3 (F := Ideal) V c 1 t : S5000x1.Idx → EReal) (ix2 y (0 : Fin 1))
      = (V c main_arg2 : S1000000x1.Idx → EReal) (ix2 ⟨t.val * 5000 + y.val, hr⟩ (0 : Fin 1)) := by
  obtain ⟨-, -, e0, e1, -⟩ := idx_facts3 t
  show (V c main_arg2 : S1000000x1.Idx → EReal) (((cfg3.win 1).blk t).view.emb (ix2 y (0 : Fin 1))) = _
  refine congrArg _ (funext fun a => Fin.ext ?_)
  match a with
  | ⟨0, _⟩ => show win3_1.index t (0 : Fin 2) * 5000 + 1 * y.val = t.val * 5000 + y.val; rw [e0]; omega
  | ⟨1, _⟩ => show win3_1.index t (1 : Fin 2) * 1 + 1 * 0 = 0; rw [e1]

theorem iblk3_2_apply (c : Dev nD) (t : Fin cfg3.N) (y : Fin 5000) (k : Fin 64) (hr : t.val * 5000 + y.val < 1000000) :
    (iblk3 (F := Ideal) V c 2 t : S5000x64.Idx → EReal) (ix2 y k)
      = (V c main_v16 : S1000000x64.Idx → EReal) (ix2 ⟨t.val * 5000 + y.val, hr⟩ k) := by
  obtain ⟨-, -, -, -, e0, e1, -⟩ := idx_facts3 t
  show (V c main_v16 : S1000000x64.Idx → EReal) (((cfg3.win 2).blk t).view.emb (ix2 y k)) = _
  refine congrArg _ (funext fun a => Fin.ext ?_)
  match a with
  | ⟨0, _⟩ => show win3_2.index t (0 : Fin 2) * 5000 + 1 * y.val = t.val * 5000 + y.val; rw [e0]; omega
  | ⟨1, _⟩ => show win3_2.index t (1 : Fin 2) * 64 + 1 * k.val = k.val; rw [e1]; omega

/-! ## The weight and bias blocks are the whole arrays -/

theorem iblk3_3_apply (c : Dev nD) (t : Fin cfg3.N) (l : Fin 129) (k : Fin 64) :
    (iblk3 (F := Ideal) V c 3 t : S129x64.Idx → EReal) (ix2 l k) = (V c main_arg12 : S129x64.Idx → EReal) (ix2 l k) := by
  obtain ⟨-, -, -, -, -, -, e0, e1, -⟩ := idx_facts3 t
  show (V c main_arg12 : S129x64.Idx → EReal) (((cfg3.win 3).blk t).view.emb (ix2 l k)) = _
  refine congrArg _ (funext fun a => Fin.ext ?_)
  match a with
  | ⟨0, _⟩ => show win3_3.index t (0 : Fin 2) * 129 + 1 * l.val = l.val; rw [e0]; omega
  | ⟨1, _⟩ => show win3_3.index t (1 : Fin 2) * 64 + 1 * k.val = k.val; rw [e1]; omega

theorem iblk3_4_apply (c : Dev nD) (t : Fin cfg3.N) (k : Fin 64) :
    (iblk3 (F := Ideal) V c 4 t : S1x64.Idx → EReal) (ix2 (0 : Fin 1) k) = (V c main_v39 : S1x64.Idx → EReal) (ix2 (0 : Fin 1) k) := by
  obtain ⟨-, -, -, -, -, -, -, -, e0, e1, -⟩ := idx_facts3 t
  show (V c main_v39 : S1x64.Idx → EReal) (((cfg3.win 4).blk t).view.emb (ix2 (0 : Fin 1) k)) = _
  refine congrArg _ (funext fun a => Fin.ext ?_)
  match a with
  | ⟨0, _⟩ => show win3_4.index t (0 : Fin 2) * 1 + 1 * 0 = 0; rw [e0]
  | ⟨1, _⟩ => show win3_4.index t (1 : Fin 2) * 64 + 1 * k.val = k.val; rw [e1]; omega

theorem iblk3_5_apply (c : Dev nD) (t : Fin cfg3.N) (k q : Fin 64) :
    (iblk3 (F := Ideal) V c 5 t : S64x64.Idx → EReal) (ix2 k q) = (V c main_arg14 : S64x64.Idx → EReal) (ix2 k q) := by
  obtain ⟨-, -, -, -, -, -, -, -, -, -, e0, e1, -⟩ := idx_facts3 t
  show (V c main_arg14 : S64x64.Idx → EReal) (((cfg3.win 5).blk t).view.emb (ix2 k q)) = _
  refine congrArg _ (funext fun a => Fin.ext ?_)
  match a with
  | ⟨0, _⟩ => show win3_5.index t (0 : Fin 2) * 64 + 1 * k.val = k.val; rw [e0]; omega
  | ⟨1, _⟩ => show win3_5.index t (1 : Fin 2) * 64 + 1 * q.val = q.val; rw [e1]; omega

theorem iblk3_6_apply (c : Dev nD) (t : Fin cfg3.N) (k : Fin 64) :
    (iblk3 (F := Ideal) V c 6 t : S1x64.Idx → EReal) (ix2 (0 : Fin 1) k) = (V c main_v40 : S1x64.Idx → EReal) (ix2 (0 : Fin 1) k) := by
  obtain ⟨-, -, -, -, -, -, -, -, -, -, -, -, e0, e1, -⟩ := idx_facts3 t
  show (V c main_v40 : S1x64.Idx → EReal) (((cfg3.win 6).blk t).view.emb (ix2 (0 : Fin 1) k)) = _
  refine congrArg _ (funext fun a => Fin.ext ?_)
  match a with
  | ⟨0, _⟩ => show win3_6.index t (0 : Fin 2) * 1 + 1 * 0 = 0; rw [e0]
  | ⟨1, _⟩ => show win3_6.index t (1 : Fin 2) * 64 + 1 * k.val = k.val; rw [e1]; omega

/-! ## What a point writes back, and the array after the region -/

/-- WHAT POINT `t` WRITES BACK is block `t` of the two-layer map of the joined arrays: the body's one store covers its
    buffer, its payload at block row `y` is the two-layer map at array row `t * 5000 + y`, and the output's block sits at
    the same rows. -/
theorem flushed3_7_eq (c : Dev nD) (b1 b2 : Cert.Spec.A1 64)
    (hb1 : ∀ k : Fin 64, (V c main_v39 : S1x64.Idx → EReal) (ix2 0 k) = b1 (ix1 k))
    (hb2 : ∀ k : Fin 64, (V c main_v40 : S1x64.Idx → EReal) (ix2 0 k) = b2 (ix1 k))
    (hcat : Shape.Concatenates [S1000000x64, S1000000x1, S1000000x64] (⟨2, ![1000000, 129]⟩ : Shape) 1)
    (t : Fin cfg3.N) :
    (dat3 (F := Ideal) V c).flushed 7 t = ((cfg3.win 7).blk t).view.read (Elt Ideal)
        (Cert.Spec.twoLayer 1000000 129
          (concatenate (⟨2, ![1000000, 129]⟩ : Shape) 1 [⟨S1000000x64, (V c main_v38 : S1000000x64.Idx → EReal)⟩,
            ⟨S1000000x1, (V c main_arg2 : S1000000x1.Idx → EReal)⟩, ⟨S1000000x64, (V c main_v16 : S1000000x64.Idx → EReal)⟩] hcat)
          (V c main_arg12) b1 (V c main_arg14) b2) := by
  show (cfg3.win 7).cut (grid3.coords t) ((dat3 (F := Ideal) V c).after 7 t) = _
  rw [after3_7]
  unfold out3_7
  rw [View.canon_unit_zero hz3]
  simp only [View.ld_unit_zero (S := S5000x64) hz3, View.ld_unit_zero (S := S5000x1) hz3,
    View.ld_unit_zero (S := S129x64) hz3, View.ld_unit_zero (S := S1x64) hz3, View.ld_unit_zero (S := S64x64) hz3]
  funext j
  have ht : t.val < 200 := t.isLt
  have hj0 : (j 0).val < 5000 := (j 0).isLt
  have hj1 : (j 1).val < 64 := (j 1).isLt
  have hr : t.val * 5000 + (j 0).val < 1000000 := by omega
  obtain ⟨-, -, -, -, -, -, -, -, -, -, -, -, -, -, e0, e1⟩ := idx_facts3 t
  have hidx : (cfg3.win 7).xinj (grid3.coords t) j = ix2 (⟨(j 0).val, hj0⟩ : Fin 5000) (⟨(j 1).val, hj1⟩ : Fin 64) :=
    funext fun a => match a with
      | ⟨0, _⟩ => rfl
      | ⟨1, _⟩ => rfl
  show k3_pay1 (F := Ideal) (iblk3 V c 0 t) (iblk3 V c 1 t) (iblk3 V c 2 t) (iblk3 V c 3 t) (iblk3 V c 4 t)
      (iblk3 V c 5 t) (iblk3 V c 6 t) ((cfg3.win 7).xinj (grid3.coords t) j)
    = (Cert.Spec.twoLayer 1000000 129
          (concatenate (⟨2, ![1000000, 129]⟩ : Shape) 1 [⟨S1000000x64, (V c main_v38 : S1000000x64.Idx → EReal)⟩,
            ⟨S1000000x1, (V c main_arg2 : S1000000x1.Idx → EReal)⟩, ⟨S1000000x64, (V c main_v16 : S1000000x64.Idx → EReal)⟩] hcat)
          (V c main_arg12) b1 (V c main_arg14) b2) (((cfg3.win 7).blk t).view.emb j)
  rw [hidx, k3_pay1_eq]
  refine (k2_pay1_eq_twoLayer (iblk3 V c 0 t) (iblk3 V c 1 t) (iblk3 V c 2 t) (iblk3 V c 3 t) (iblk3 V c 4 t)
      (iblk3 V c 5 t) (iblk3 V c 6 t) (V c main_v38) (V c main_arg2) (V c main_v16) (V c main_arg12) b1 (V c main_arg14) b2 hcat
      ⟨t.val * 5000 + (j 0).val, hr⟩ ⟨(j 0).val, hj0⟩ ⟨(j 1).val, hj1⟩
      (fun k => iblk3_0_apply V c t _ k hr) (iblk3_1_apply V c t _ hr) (fun k => iblk3_2_apply V c t _ k hr)
      (fun l k => iblk3_3_apply V c t l k) (fun k => (iblk3_4_apply V c t k).trans (hb1 k))
      (fun k q => iblk3_5_apply V c t k q) (fun k => (iblk3_6_apply V c t k).trans (hb2 k))).trans ?_
  refine congrArg _ (funext fun a => Fin.ext ?_)
  match a with
  | ⟨0, _⟩ => show t.val * 5000 + (j 0).val = win3_7.index t (0 : Fin 2) * 5000 + 1 * (j 0).val; rw [e0]; omega
  | ⟨1, _⟩ => show (j 1).val = win3_7.index t (1 : Fin 2) * 64 + 1 * (j 1).val; rw [e1]; omega

/-- An index of the output array is in point `t`'s block iff each coordinate is in the block's range on its axis. -/
theorem mem_blk3_7 (t : Fin cfg3.N) (i : S1000000x64.Idx) :
    i ∈ ((cfg3.win 7).blk t).view.set ↔ ∀ a : Fin 2, win3_7.index t a * S5000x64.size a ≤ (i a).val
      ∧ (i a).val < win3_7.index t a * S5000x64.size a + S5000x64.size a := by
  show i ∈ ((View.whole main_v41).slice (win3_7.rect t)).set ↔ _
  rw [View.set_slice_whole, Rect.mem_set_unit]
  exact Iff.rfl

/-- THE BLOCKS COVER THE ARRAY: row `r` lies in the block of point `r / 5000`. -/
theorem covered3_7 (i : S1000000x64.Idx) :
    ∃ t : Fin cfg3.N, (cfg3.win 7).flush t = true ∧ i ∈ ((cfg3.win 7).blk t).view.set := by
  have hi0 : (i 0).val < 1000000 := (i 0).isLt
  have hi1 : (i 1).val < 64 := (i 1).isLt
  have hq : (i 0).val / 5000 < 200 := by omega
  obtain ⟨-, -, -, -, -, -, -, -, -, -, -, -, -, -, e0, e1⟩ := idx_facts3 ⟨(i 0).val / 5000, hq⟩
  refine ⟨⟨(i 0).val / 5000, hq⟩, flush3_7 _, ?_⟩
  rw [mem_blk3_7]
  intro a
  match a with
  | ⟨0, _⟩ =>
    show win3_7.index ⟨(i 0).val / 5000, hq⟩ (0 : Fin 2) * 5000 ≤ (i 0).val
      ∧ (i 0).val < win3_7.index ⟨(i 0).val / 5000, hq⟩ (0 : Fin 2) * 5000 + 5000
    rw [e0]; show (i 0).val / 5000 * 5000 ≤ (i 0).val ∧ (i 0).val < (i 0).val / 5000 * 5000 + 5000; omega
  | ⟨1, _⟩ =>
    show win3_7.index ⟨(i 0).val / 5000, hq⟩ (1 : Fin 2) * 64 ≤ (i 1).val
      ∧ (i 1).val < win3_7.index ⟨(i 0).val / 5000, hq⟩ (1 : Fin 2) * 64 + 64
    rw [e1]; omega

/-- THE ARRAY AFTER THE REGION is the two-layer map of the join of the three input arrays, with the weights and biases the
    region finds: every point writes back its block of that one function, and the blocks cover the array. -/
theorem reg3_final (c : Dev nD) (b1 b2 : Cert.Spec.A1 64)
    (hb1 : ∀ k : Fin 64, (V c main_v39 : S1x64.Idx → EReal) (ValueIdx.ix2 0 k) = b1 (ValueIdx.ix1 k))
    (hb2 : ∀ k : Fin 64, (V c main_v40 : S1x64.Idx → EReal) (ValueIdx.ix2 0 k) = b2 (ValueIdx.ix1 k))
    (hcat : Shape.Concatenates [S1000000x64, S1000000x1, S1000000x64] (⟨2, ![1000000, 129]⟩ : Shape) 1) :
    ((dat3 (F := Ideal) V c).arrAt 7 cfg3.N : S1000000x64.Idx → EReal) =
      Cert.Spec.twoLayer 1000000 129 (concatenate (⟨2, ![1000000, 129]⟩ : Shape) 1 [⟨S1000000x64, (V c main_v38 : S1000000x64.Idx → EReal)⟩, ⟨S1000000x1, (V c main_arg2 : S1000000x1.Idx → EReal)⟩, ⟨S1000000x64, (V c main_v16 : S1000000x64.Idx → EReal)⟩] hcat) (V c main_arg12) b1 (V c main_arg14) b2 :=
  (dat3 (F := Ideal) V c).arrAt_eq_of_cover 7 _ (fun t _ => flushed3_7_eq V c b1 b2 hb1 hb2 hcat t) covered3_7

end Region3

end Cert.KernelIdeal.Val

end
-- ==== Proof.KWhole.lean ====
/-
  The idealized kernel's result buffer holds the network's scores.

  Region by region: each pallas region leaves in its output array the specification's row map of the arrays it
  found; between the regions the host operations gather, scatter-add and add.  Composed along the program's
  segments this is the one function `scores` of the eighteen argument arrays.
-/
import proofs.«175801_j82394652607046_2_alg».proof.Proof.FoldA
import proofs.«175801_j82394652607046_2_alg».proof.Proof.RegDense
import proofs.«175801_j82394652607046_2_alg».proof.Proof.Reg2
import proofs.«175801_j82394652607046_2_alg».proof.Proof.Reg3
import Idealize.ShloMosaic.Lib.ValueLayout

set_option maxRecDepth 16384

noncomputable section

namespace Cert.KernelIdeal.Val

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (ρ : Dev nD → PrngReg) (c : Dev nD)
variable (hcat : Shape.Concatenates [S1000000x64, S1000000x1, S1000000x64] Joined 1)

/-- Region 0 leaves the column-node embeddings. -/
theorem k_colEmb : W2 m ρ c (Proc.devRef .tc main_v1) = colEmb (m ((c : Thread nD τ).loc main_arg0)) (m ((c : Thread nD τ).loc main_arg4)) (m ((c : Thread nD τ).loc main_arg5)) := by
  have hb : ∀ k : Fin 64, (V1 m ρ c main_v0 : S1x64.Idx → EReal) (ix2 0 k) = (m ((c : Thread nD τ).loc main_arg5)) (ix1 k) := fun k => by
    rw [show V1 m ρ c main_v0 = _ from V1_v0 m ρ c]
    exact shapeCast_a_1a_apply _ _ 0 k
  have h := reg0_final (V1 m ρ) c (m ((c : Thread nD τ).loc main_arg5)) hb
  rw [show V1 m ρ c main_arg0 = _ from V1_arg0 m ρ c, show V1 m ρ c main_arg4 = _ from V1_arg4 m ρ c] at h
  exact (W2_arr m ρ c 3).trans h

/-- Region 1 leaves the row-node embeddings. -/
theorem k_rowEmb : W4 m ρ c (Proc.devRef .tc main_v3) = rowEmb (m ((c : Thread nD τ).loc main_arg1)) (m ((c : Thread nD τ).loc main_arg6)) (m ((c : Thread nD τ).loc main_arg7)) := by
  have hb : ∀ k : Fin 64, (V3 m ρ c main_v2 : S1x64.Idx → EReal) (ix2 0 k) = (m ((c : Thread nD τ).loc main_arg7)) (ix1 k) := fun k => by
    rw [show V3 m ρ c main_v2 = _ from V3_v2 m ρ c, W2_arg7]
    exact shapeCast_a_1a_apply _ _ 0 k
  have h := reg1_final (V3 m ρ) c (m ((c : Thread nD τ).loc main_arg7)) hb
  rw [show V3 m ρ c main_arg1 = _ from V3_arg1 m ρ c, show V3 m ρ c main_arg6 = _ from V3_arg6 m ρ c] at h
  exact (W4_arr m ρ c 3).trans h

/-- Region 2 leaves the messages towards the row nodes. -/
theorem k_msgToRows : W6 m ρ c (Proc.devRef .tc main_v26) = msgToRows hcat (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  have hb1 : ∀ k : Fin 64, (V5 m ρ c main_v24 : S1x64.Idx → EReal) (ix2 0 k) = (m ((c : Thread nD τ).loc main_arg9)) (ix1 k) := fun k => by
    rw [show V5 m ρ c main_v24 = _ from V5_v24 m ρ c, W4_arg9]
    exact shapeCast_a_1a_apply _ _ 0 k
  have hb2 : ∀ k : Fin 64, (V5 m ρ c main_v25 : S1x64.Idx → EReal) (ix2 0 k) = (m ((c : Thread nD τ).loc main_arg11)) (ix1 k) := fun k => by
    rw [show V5 m ρ c main_v25 = _ from V5_v25 m ρ c, W4_arg11]
    exact shapeCast_a_1a_apply _ _ 0 k
  have h := reg2_final (V5 m ρ) c (m ((c : Thread nD τ).loc main_arg9)) (m ((c : Thread nD τ).loc main_arg11)) hb1 hb2 hcat
  rw [show V5 m ρ c main_v16 = _ from V5_v16 m ρ c, show V5 m ρ c main_v23 = _ from V5_v23 m ρ c,
    show V5 m ρ c main_arg2 = _ from V5_arg2 m ρ c, show V5 m ρ c main_arg8 = _ from V5_arg8 m ρ c,
    show V5 m ρ c main_arg10 = _ from V5_arg10 m ρ c, W4_v1, k_colEmb, k_rowEmb, W4_arg3] at h
  exact (W6_arr m ρ c 7).trans h

/-- After the fourth stretch the first operand of region 3 holds the updated row embeddings' rows. -/
theorem k_pickRows' : W7 m ρ c (Proc.devRef .tc main_v38) =
    pick (rowEmb' hcat (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (wrapped (rowEnds (m ((c : Thread nD τ).loc main_arg3)))) := by
  rw [V7_v38, W6_v3, k_rowEmb, W6_v7, W5_v7, W4_arg3, k_msgToRows m ρ c hcat]
  rfl

/-- Region 3 leaves the messages towards the column nodes. -/
theorem k_msgToCols : W8 m ρ c (Proc.devRef .tc main_v41) = msgToCols hcat (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  have hb1 : ∀ k : Fin 64, (V7 m ρ c main_v39 : S1x64.Idx → EReal) (ix2 0 k) = (m ((c : Thread nD τ).loc main_arg13)) (ix1 k) := fun k => by
    rw [show V7 m ρ c main_v39 = _ from V7_v39 m ρ c, W6_arg13]
    exact shapeCast_a_1a_apply _ _ 0 k
  have hb2 : ∀ k : Fin 64, (V7 m ρ c main_v40 : S1x64.Idx → EReal) (ix2 0 k) = (m ((c : Thread nD τ).loc main_arg15)) (ix1 k) := fun k => by
    rw [show V7 m ρ c main_v40 = _ from V7_v40 m ρ c, W6_arg15]
    exact shapeCast_a_1a_apply _ _ 0 k
  have h := reg3_final (V7 m ρ) c (m ((c : Thread nD τ).loc main_arg13)) (m ((c : Thread nD τ).loc main_arg15)) hb1 hb2 hcat
  rw [show V7 m ρ c main_v38 = _ from k_pickRows' m ρ c hcat, show V7 m ρ c main_v16 = _ from V7_v16 m ρ c,
    show V7 m ρ c main_arg2 = _ from V7_arg2 m ρ c, show V7 m ρ c main_arg12 = _ from V7_arg12 m ρ c,
    show V7 m ρ c main_arg14 = _ from V7_arg14 m ρ c, V5_v16, W4_v1, k_colEmb, W4_arg3] at h
  exact (W8_arr m ρ c 7).trans h

/-- THE RESULT: after the last stretch the result buffer holds the scores. -/
theorem kernel_scores : W11 m ρ c (Proc.devRef .tc main_v48) = scores hcat (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  have hb : ∀ k : Fin 1, (V9 m ρ c main_v46 : S1x1.Idx → EReal) (ix2 0 k) = (m ((c : Thread nD τ).loc main_arg17)) (ix1 k) := fun k => by
    rw [show V9 m ρ c main_v46 = _ from V9_v46 m ρ c, W8_arg17]
    exact shapeCast_a_1a_apply _ _ 0 k
  have h := reg4_final (V9 m ρ) c (m ((c : Thread nD τ).loc main_arg17)) hb
  rw [show V9 m ρ c main_v45 = _ from V9_v45 m ρ c, show V9 m ρ c main_arg16 = _ from V9_arg16 m ρ c,
    W8_v1, k_colEmb, W8_v9, W5_v9, W4_arg3, k_msgToCols m ρ c hcat] at h
  rw [W11_v48, (W10_arr m ρ c 3).trans h]
  rfl

end Cert.KernelIdeal.Val

end
-- ==== Proof.RefStages.lean ====
/-
  Each dense layer of the reference program is the specification's affine row map.

  A dense layer of the reference is a contraction of the input's rows with a weight matrix, plus the bias
  row repeated down the rows, and for a hidden layer the maximum with the zero array.  Read at an entry
  `(r, j)` this is `∑ₖ x[r,k] · w[k,j] + b[j]` (and its positive part), which is the entry of
  `Cert.Spec.affine` (`Cert.Spec.affineRelu`) by definition.  The only work is to identify the index maps of
  the contraction and of the two bias broadcasts with the coordinate pairs `(r,k)`, `(k,j)` and `j`.
-/
import proofs.«175801_j82394652607046_2_alg».proof.Proof.Gen.ReferenceIdeal.Read
import proofs.«175801_j82394652607046_2_alg».proof.Proof.Spec

noncomputable section

namespace Cert.RefStages

open Cert.ReferenceIdeal Cert.ReferenceIdeal.Gen Cert.ReferenceIdeal.Read Idealize.ShloMosaic Idealize.ShloMosaic.ValueIdx

/-- The first node layer: `max (x₀ · w + b) 0`. -/
theorem v5_eq (x0 : (⟨S50000x19, .f32⟩ : BufTy).Contents (Elt Ideal)) (x4 : (⟨S19x64, .f32⟩ : BufTy).Contents (Elt Ideal))
    (x5 : (⟨S64, .f32⟩ : BufTy).Contents (Elt Ideal)) :
    val_main_v5 (F := Ideal) x0 x4 x5 =
      Cert.Spec.affineRelu 50000 19 64 x0 x4 x5 := by
  funext i
  obtain ⟨r, j, rfl⟩ : ∃ r j, i = ix2 r j := ⟨i 0, i 1, eq_ix2 i⟩
  rw [Cert.Spec.affineRelu_apply, val_main_v5_apply, val_main_v3_apply, val_main_v0_apply, val_main_v2_apply, val_main_v1_apply, val_main_v4_apply, val_main_cst_apply]
  have el : ∀ k : Fin 19, lidx_main_v0 (ix2 r j) k = ix2 r k := fun k => funext fun a => Fin.ext (by
    match a with | ⟨0, _⟩ => rfl | ⟨1, _⟩ => rfl)
  have er : ∀ k : Fin 19, ridx_main_v0 (ix2 r j) k = ix2 k j := fun k => funext fun a => Fin.ext (by
    match a with | ⟨0, _⟩ => rfl | ⟨1, _⟩ => rfl)
  have eb : idx_main_v1 (idx_main_v2 (ix2 r j)) = ix1 j := funext fun a => Fin.ext (by
    match a with | ⟨0, _⟩ => rfl)
  simp only [el, er, eb, Ideal.ofBits_def, Ideal.ofBits_zero_f32, Ideal.addf_def, Ideal.maximumf_def]

/-- The second node layer: `max (x₁ · w + b) 0`. -/
theorem v11_eq (x1 : (⟨S50000x14, .f32⟩ : BufTy).Contents (Elt Ideal)) (x6 : (⟨S14x64, .f32⟩ : BufTy).Contents (Elt Ideal))
    (x7 : (⟨S64, .f32⟩ : BufTy).Contents (Elt Ideal)) :
    val_main_v11 (F := Ideal) x1 x6 x7 =
      Cert.Spec.affineRelu 50000 14 64 x1 x6 x7 := by
  funext i
  obtain ⟨r, j, rfl⟩ : ∃ r j, i = ix2 r j := ⟨i 0, i 1, eq_ix2 i⟩
  rw [Cert.Spec.affineRelu_apply, val_main_v11_apply, val_main_v9_apply, val_main_v6_apply, val_main_v8_apply, val_main_v7_apply, val_main_v10_apply, val_main_cst_0_apply]
  have el : ∀ k : Fin 14, lidx_main_v6 (ix2 r j) k = ix2 r k := fun k => funext fun a => Fin.ext (by
    match a with | ⟨0, _⟩ => rfl | ⟨1, _⟩ => rfl)
  have er : ∀ k : Fin 14, ridx_main_v6 (ix2 r j) k = ix2 k j := fun k => funext fun a => Fin.ext (by
    match a with | ⟨0, _⟩ => rfl | ⟨1, _⟩ => rfl)
  have eb : idx_main_v7 (idx_main_v8 (ix2 r j)) = ix1 j := funext fun a => Fin.ext (by
    match a with | ⟨0, _⟩ => rfl)
  simp only [el, er, eb, Ideal.ofBits_def, Ideal.ofBits_zero_f32, Ideal.addf_def, Ideal.maximumf_def]

/-- The first edge network's hidden layer, on the joined edge input: `max (e · w + b) 0`. -/
theorem v36_eq (x0 : (⟨S50000x19, .f32⟩ : BufTy).Contents (Elt Ideal)) (x1 : (⟨S50000x14, .f32⟩ : BufTy).Contents (Elt Ideal))
    (x2 : (⟨S1000000x1, .f32⟩ : BufTy).Contents (Elt Ideal)) (x3 : (⟨S2x1000000, .i32⟩ : BufTy).Contents (Elt Ideal))
    (x4 : (⟨S19x64, .f32⟩ : BufTy).Contents (Elt Ideal)) (x5 : (⟨S64, .f32⟩ : BufTy).Contents (Elt Ideal))
    (x6 : (⟨S14x64, .f32⟩ : BufTy).Contents (Elt Ideal)) (x7 : (⟨S64, .f32⟩ : BufTy).Contents (Elt Ideal))
    (x8 : (⟨S129x64, .f32⟩ : BufTy).Contents (Elt Ideal)) (x9 : (⟨S64, .f32⟩ : BufTy).Contents (Elt Ideal)) :
    val_main_v36 (F := Ideal) x0 x1 x2 x3 x4 x5 x6 x7 x8 x9 =
      Cert.Spec.affineRelu 1000000 129 64 (val_main_v30 (F := Ideal) x0 x1 x2 x3 x4 x5 x6 x7) x8 x9 := by
  funext i
  obtain ⟨r, j, rfl⟩ : ∃ r j, i = ix2 r j := ⟨i 0, i 1, eq_ix2 i⟩
  rw [Cert.Spec.affineRelu_apply, val_main_v36_apply, val_main_v34_apply, val_main_v31_apply, val_main_v33_apply, val_main_v32_apply, val_main_v35_apply, val_main_cst_4_apply]
  have el : ∀ k : Fin 129, lidx_main_v31 (ix2 r j) k = ix2 r k := fun k => funext fun a => Fin.ext (by
    match a with | ⟨0, _⟩ => rfl | ⟨1, _⟩ => rfl)
  have er : ∀ k : Fin 129, ridx_main_v31 (ix2 r j) k = ix2 k j := fun k => funext fun a => Fin.ext (by
    match a with | ⟨0, _⟩ => rfl | ⟨1, _⟩ => rfl)
  have eb : idx_main_v32 (idx_main_v33 (ix2 r j)) = ix1 j := funext fun a => Fin.ext (by
    match a with | ⟨0, _⟩ => rfl)
  simp only [el, er, eb, Ideal.ofBits_def, Ideal.ofBits_zero_f32, Ideal.addf_def, Ideal.maximumf_def]

/-- The first edge network's output layer: `h · w + b`. -/
theorem v40_eq (x0 : (⟨S50000x19, .f32⟩ : BufTy).Contents (Elt Ideal)) (x1 : (⟨S50000x14, .f32⟩ : BufTy).Contents (Elt Ideal))
    (x2 : (⟨S1000000x1, .f32⟩ : BufTy).Contents (Elt Ideal)) (x3 : (⟨S2x1000000, .i32⟩ : BufTy).Contents (Elt Ideal))
    (x4 : (⟨S19x64, .f32⟩ : BufTy).Contents (Elt Ideal)) (x5 : (⟨S64, .f32⟩ : BufTy).Contents (Elt Ideal))
    (x6 : (⟨S14x64, .f32⟩ : BufTy).Contents (Elt Ideal)) (x7 : (⟨S64, .f32⟩ : BufTy).Contents (Elt Ideal))
    (x8 : (⟨S129x64, .f32⟩ : BufTy).Contents (Elt Ideal)) (x9 : (⟨S64, .f32⟩ : BufTy).Contents (Elt Ideal))
    (x10 : (⟨S64x64, .f32⟩ : BufTy).Contents (Elt Ideal)) (x11 : (⟨S64, .f32⟩ : BufTy).Contents (Elt Ideal)) :
    val_main_v40 (F := Ideal) x0 x1 x2 x3 x4 x5 x6 x7 x8 x9 x10 x11 =
      Cert.Spec.affine 1000000 64 64 (val_main_v36 (F := Ideal) x0 x1 x2 x3 x4 x5 x6 x7 x8 x9) x10 x11 := by
  funext i
  obtain ⟨r, j, rfl⟩ : ∃ r j, i = ix2 r j := ⟨i 0, i 1, eq_ix2 i⟩
  rw [Cert.Spec.affine_apply, val_main_v40_apply, val_main_v37_apply, val_main_v39_apply, val_main_v38_apply]
  have el : ∀ k : Fin 64, lidx_main_v37 (ix2 r j) k = ix2 r k := fun k => funext fun a => Fin.ext (by
    match a with | ⟨0, _⟩ => rfl | ⟨1, _⟩ => rfl)
  have er : ∀ k : Fin 64, ridx_main_v37 (ix2 r j) k = ix2 k j := fun k => funext fun a => Fin.ext (by
    match a with | ⟨0, _⟩ => rfl | ⟨1, _⟩ => rfl)
  have eb : idx_main_v38 (idx_main_v39 (ix2 r j)) = ix1 j := funext fun a => Fin.ext (by
    match a with | ⟨0, _⟩ => rfl)
  simp only [el, er, eb, Ideal.addf_def]

/-- The second edge network's hidden layer, on the joined edge input: `max (e · w + b) 0`. -/
theorem v65_eq (x0 : (⟨S50000x19, .f32⟩ : BufTy).Contents (Elt Ideal)) (x1 : (⟨S50000x14, .f32⟩ : BufTy).Contents (Elt Ideal))
    (x2 : (⟨S1000000x1, .f32⟩ : BufTy).Contents (Elt Ideal)) (x3 : (⟨S2x1000000, .i32⟩ : BufTy).Contents (Elt Ideal))
    (x4 : (⟨S19x64, .f32⟩ : BufTy).Contents (Elt Ideal)) (x5 : (⟨S64, .f32⟩ : BufTy).Contents (Elt Ideal))
    (x6 : (⟨S14x64, .f32⟩ : BufTy).Contents (Elt Ideal)) (x7 : (⟨S64, .f32⟩ : BufTy).Contents (Elt Ideal))
    (x8 : (⟨S129x64, .f32⟩ : BufTy).Contents (Elt Ideal)) (x9 : (⟨S64, .f32⟩ : BufTy).Contents (Elt Ideal))
    (x10 : (⟨S64x64, .f32⟩ : BufTy).Contents (Elt Ideal)) (x11 : (⟨S64, .f32⟩ : BufTy).Contents (Elt Ideal))
    (x12 : (⟨S129x64, .f32⟩ : BufTy).Contents (Elt Ideal)) (x13 : (⟨S64, .f32⟩ : BufTy).Contents (Elt Ideal)) :
    val_main_v65 (F := Ideal) x0 x1 x2 x3 x4 x5 x6 x7 x8 x9 x10 x11 x12 x13 =
      Cert.Spec.affineRelu 1000000 129 64 (val_main_v59 (F := Ideal) x0 x1 x2 x3 x4 x5 x6 x7 x8 x9 x10 x11) x12 x13 := by
  funext i
  obtain ⟨r, j, rfl⟩ : ∃ r j, i = ix2 r j := ⟨i 0, i 1, eq_ix2 i⟩
  rw [Cert.Spec.affineRelu_apply, val_main_v65_apply, val_main_v63_apply, val_main_v60_apply, val_main_v62_apply, val_main_v61_apply, val_main_v64_apply, val_main_cst_10_apply]
  have el : ∀ k : Fin 129, lidx_main_v60 (ix2 r j) k = ix2 r k := fun k => funext fun a => Fin.ext (by
    match a with | ⟨0, _⟩ => rfl | ⟨1, _⟩ => rfl)
  have er : ∀ k : Fin 129, ridx_main_v60 (ix2 r j) k = ix2 k j := fun k => funext fun a => Fin.ext (by
    match a with | ⟨0, _⟩ => rfl | ⟨1, _⟩ => rfl)
  have eb : idx_main_v61 (idx_main_v62 (ix2 r j)) = ix1 j := funext fun a => Fin.ext (by
    match a with | ⟨0, _⟩ => rfl)
  simp only [el, er, eb, Ideal.ofBits_def, Ideal.ofBits_zero_f32, Ideal.addf_def, Ideal.maximumf_def]

/-- The second edge network's output layer: `h · w + b`. -/
theorem v69_eq (x0 : (⟨S50000x19, .f32⟩ : BufTy).Contents (Elt Ideal)) (x1 : (⟨S50000x14, .f32⟩ : BufTy).Contents (Elt Ideal))
    (x2 : (⟨S1000000x1, .f32⟩ : BufTy).Contents (Elt Ideal)) (x3 : (⟨S2x1000000, .i32⟩ : BufTy).Contents (Elt Ideal))
    (x4 : (⟨S19x64, .f32⟩ : BufTy).Contents (Elt Ideal)) (x5 : (⟨S64, .f32⟩ : BufTy).Contents (Elt Ideal))
    (x6 : (⟨S14x64, .f32⟩ : BufTy).Contents (Elt Ideal)) (x7 : (⟨S64, .f32⟩ : BufTy).Contents (Elt Ideal))
    (x8 : (⟨S129x64, .f32⟩ : BufTy).Contents (Elt Ideal)) (x9 : (⟨S64, .f32⟩ : BufTy).Contents (Elt Ideal))
    (x10 : (⟨S64x64, .f32⟩ : BufTy).Contents (Elt Ideal)) (x11 : (⟨S64, .f32⟩ : BufTy).Contents (Elt Ideal))
    (x12 : (⟨S129x64, .f32⟩ : BufTy).Contents (Elt Ideal)) (x13 : (⟨S64, .f32⟩ : BufTy).Contents (Elt Ideal))
    (x14 : (⟨S64x64, .f32⟩ : BufTy).Contents (Elt Ideal)) (x15 : (⟨S64, .f32⟩ : BufTy).Contents (Elt Ideal)) :
    val_main_v69 (F := Ideal) x0 x1 x2 x3 x4 x5 x6 x7 x8 x9 x10 x11 x12 x13 x14 x15 =
      Cert.Spec.affine 1000000 64 64 (val_main_v65 (F := Ideal) x0 x1 x2 x3 x4 x5 x6 x7 x8 x9 x10 x11 x12 x13) x14 x15 := by
  funext i
  obtain ⟨r, j, rfl⟩ : ∃ r j, i = ix2 r j := ⟨i 0, i 1, eq_ix2 i⟩
  rw [Cert.Spec.affine_apply, val_main_v69_apply, val_main_v66_apply, val_main_v68_apply, val_main_v67_apply]
  have el : ∀ k : Fin 64, lidx_main_v66 (ix2 r j) k = ix2 r k := fun k => funext fun a => Fin.ext (by
    match a with | ⟨0, _⟩ => rfl | ⟨1, _⟩ => rfl)
  have er : ∀ k : Fin 64, ridx_main_v66 (ix2 r j) k = ix2 k j := fun k => funext fun a => Fin.ext (by
    match a with | ⟨0, _⟩ => rfl | ⟨1, _⟩ => rfl)
  have eb : idx_main_v67 (idx_main_v68 (ix2 r j)) = ix1 j := funext fun a => Fin.ext (by
    match a with | ⟨0, _⟩ => rfl)
  simp only [el, er, eb, Ideal.addf_def]

/-- The read-out layer: `h · w + b` with a single output column and a one-entry bias. -/
theorem v77_eq (x0 : (⟨S50000x19, .f32⟩ : BufTy).Contents (Elt Ideal)) (x1 : (⟨S50000x14, .f32⟩ : BufTy).Contents (Elt Ideal))
    (x2 : (⟨S1000000x1, .f32⟩ : BufTy).Contents (Elt Ideal)) (x3 : (⟨S2x1000000, .i32⟩ : BufTy).Contents (Elt Ideal))
    (x4 : (⟨S19x64, .f32⟩ : BufTy).Contents (Elt Ideal)) (x5 : (⟨S64, .f32⟩ : BufTy).Contents (Elt Ideal))
    (x6 : (⟨S14x64, .f32⟩ : BufTy).Contents (Elt Ideal)) (x7 : (⟨S64, .f32⟩ : BufTy).Contents (Elt Ideal))
    (x8 : (⟨S129x64, .f32⟩ : BufTy).Contents (Elt Ideal)) (x9 : (⟨S64, .f32⟩ : BufTy).Contents (Elt Ideal))
    (x10 : (⟨S64x64, .f32⟩ : BufTy).Contents (Elt Ideal)) (x11 : (⟨S64, .f32⟩ : BufTy).Contents (Elt Ideal))
    (x12 : (⟨S129x64, .f32⟩ : BufTy).Contents (Elt Ideal)) (x13 : (⟨S64, .f32⟩ : BufTy).Contents (Elt Ideal))
    (x14 : (⟨S64x64, .f32⟩ : BufTy).Contents (Elt Ideal)) (x15 : (⟨S64, .f32⟩ : BufTy).Contents (Elt Ideal))
    (x16 : (⟨S64x1, .f32⟩ : BufTy).Contents (Elt Ideal)) (x17 : (⟨S1, .f32⟩ : BufTy).Contents (Elt Ideal)) :
    val_main_v77 (F := Ideal) x0 x1 x2 x3 x4 x5 x6 x7 x8 x9 x10 x11 x12 x13 x14 x15 x16 x17 =
      Cert.Spec.affine 50000 64 1 (val_main_v73 (F := Ideal) x0 x1 x2 x3 x4 x5 x6 x7 x8 x9 x10 x11 x12 x13 x14 x15) x16 x17 := by
  funext i
  obtain ⟨r, j, rfl⟩ : ∃ r j, i = ix2 r j := ⟨i 0, i 1, eq_ix2 i⟩
  rw [Cert.Spec.affine_apply, val_main_v77_apply, val_main_v74_apply, val_main_v76_apply, val_main_v75_apply]
  have el : ∀ k : Fin 64, lidx_main_v74 (ix2 r j) k = ix2 r k := fun k => funext fun a => Fin.ext (by
    match a with | ⟨0, _⟩ => rfl | ⟨1, _⟩ => rfl)
  have er : ∀ k : Fin 64, ridx_main_v74 (ix2 r j) k = ix2 k j := fun k => funext fun a => Fin.ext (by
    match a with | ⟨0, _⟩ => rfl | ⟨1, _⟩ => rfl)
  have eb : idx_main_v75 (idx_main_v76 (ix2 r j)) = ix1 j := funext fun a => Fin.ext (by
    match a with | ⟨0, _⟩ => exact (Fin.val_eq_zero j).symm)
  simp only [el, er, eb, Ideal.addf_def]

end Cert.RefStages

end
-- ==== Proof.RefWhole.lean ====
/-
  The reference computes the network's scores.

  Its dense layers are the specification's row maps (proved stage by stage from the reference's own read-back);
  its index arithmetic, gathers, concatenations, scatter-additions and residual additions are, term for term,
  the operations the specification is written with.
-/
import proofs.«175801_j82394652607046_2_alg».proof.Proof.Gen.ReferenceIdeal.Read
import proofs.«175801_j82394652607046_2_alg».proof.Proof.RefStages
import proofs.«175801_j82394652607046_2_alg».proof.Proof.Terms

set_option maxRecDepth 16384

noncomputable section

namespace Cert.RefWhole

open Cert.ReferenceIdeal Cert.ReferenceIdeal.Read Idealize.ShloMosaic Idealize.ShloMosaic.TcCoe Idealize.SL.Sem

variable (hcat : Shape.Concatenates [S1000000x64, S1000000x1, S1000000x64] Cert.KernelIdeal.Val.Joined 1)
variable (x0 : (⟨S50000x19, .f32⟩ : BufTy).Contents (Elt Ideal)) (x1 : (⟨S50000x14, .f32⟩ : BufTy).Contents (Elt Ideal))
  (x2 : (⟨S1000000x1, .f32⟩ : BufTy).Contents (Elt Ideal)) (x3 : (⟨S2x1000000, .i32⟩ : BufTy).Contents (Elt Ideal))
  (x4 : (⟨S19x64, .f32⟩ : BufTy).Contents (Elt Ideal)) (x5 : (⟨S64, .f32⟩ : BufTy).Contents (Elt Ideal))
  (x6 : (⟨S14x64, .f32⟩ : BufTy).Contents (Elt Ideal)) (x7 : (⟨S64, .f32⟩ : BufTy).Contents (Elt Ideal))
  (x8 : (⟨S129x64, .f32⟩ : BufTy).Contents (Elt Ideal)) (x9 : (⟨S64, .f32⟩ : BufTy).Contents (Elt Ideal))
  (x10 : (⟨S64x64, .f32⟩ : BufTy).Contents (Elt Ideal)) (x11 : (⟨S64, .f32⟩ : BufTy).Contents (Elt Ideal))
  (x12 : (⟨S129x64, .f32⟩ : BufTy).Contents (Elt Ideal)) (x13 : (⟨S64, .f32⟩ : BufTy).Contents (Elt Ideal))
  (x14 : (⟨S64x64, .f32⟩ : BufTy).Contents (Elt Ideal)) (x15 : (⟨S64, .f32⟩ : BufTy).Contents (Elt Ideal))
  (x16 : (⟨S64x1, .f32⟩ : BufTy).Contents (Elt Ideal)) (x17 : (⟨S1, .f32⟩ : BufTy).Contents (Elt Ideal))

/-! ## The index arrays: the two rows of the edge index array, wrapped for a gather or as they are for a scatter -/

theorem wrapCols : val_main_v21 (F := Ideal) x3 = Cert.KernelIdeal.Val.wrapped (Cert.KernelIdeal.Val.colEnds x3) := rfl
theorem wrapRows : val_main_v28 (F := Ideal) x3 = Cert.KernelIdeal.Val.wrapped (Cert.KernelIdeal.Val.rowEnds x3) := rfl
theorem wrapRows' : val_main_v50 (F := Ideal) x3 = Cert.KernelIdeal.Val.wrapped (Cert.KernelIdeal.Val.rowEnds x3) := rfl
theorem wrapCols' : val_main_v57 (F := Ideal) x3 = Cert.KernelIdeal.Val.wrapped (Cert.KernelIdeal.Val.colEnds x3) := rfl
theorem segRows : val_main_v42 (F := Ideal) x3 = Cert.KernelIdeal.Val.asCol (Cert.KernelIdeal.Val.rowEnds x3) := rfl
theorem segCols : val_main_v71 (F := Ideal) x3 = Cert.KernelIdeal.Val.asCol (Cert.KernelIdeal.Val.colEnds x3) := rfl

/-! ## The stages -/

theorem colEmb_eq : val_main_v5 (F := Ideal) x0 x4 x5 = Cert.KernelIdeal.Val.colEmb x0 x4 x5 := Cert.RefStages.v5_eq x0 x4 x5
theorem rowEmb_eq : val_main_v11 (F := Ideal) x1 x6 x7 = Cert.KernelIdeal.Val.rowEmb x1 x6 x7 := Cert.RefStages.v11_eq x1 x6 x7

theorem msgToRows_eq : val_main_v40 (F := Ideal) x0 x1 x2 x3 x4 x5 x6 x7 x8 x9 x10 x11 = Cert.KernelIdeal.Val.msgToRows hcat x0 x1 x2 x3 x4 x5 x6 x7 x8 x9 x10 x11 := by
  rw [Cert.RefStages.v40_eq, Cert.RefStages.v36_eq]
  unfold val_main_v30 val_main_v22 val_main_v29
  rw [colEmb_eq, rowEmb_eq, wrapCols, wrapRows]
  rfl

theorem rowEmb'_eq : val_main_v44 (F := Ideal) x0 x1 x2 x3 x4 x5 x6 x7 x8 x9 x10 x11 = Cert.KernelIdeal.Val.rowEmb' hcat x0 x1 x2 x3 x4 x5 x6 x7 x8 x9 x10 x11 := by
  unfold val_main_v44 val_main_v43
  rw [rowEmb_eq, msgToRows_eq hcat, segRows]
  rfl

theorem msgToCols_eq : val_main_v69 (F := Ideal) x0 x1 x2 x3 x4 x5 x6 x7 x8 x9 x10 x11 x12 x13 x14 x15 = Cert.KernelIdeal.Val.msgToCols hcat x0 x1 x2 x3 x4 x5 x6 x7 x8 x9 x10 x11 x12 x13 x14 x15 := by
  rw [Cert.RefStages.v69_eq, Cert.RefStages.v65_eq]
  unfold val_main_v59 val_main_v51 val_main_v58
  rw [rowEmb'_eq hcat, colEmb_eq, wrapRows', wrapCols']
  rfl

theorem colEmb'_eq : val_main_v73 (F := Ideal) x0 x1 x2 x3 x4 x5 x6 x7 x8 x9 x10 x11 x12 x13 x14 x15 = Cert.KernelIdeal.Val.colEmb' hcat x0 x1 x2 x3 x4 x5 x6 x7 x8 x9 x10 x11 x12 x13 x14 x15 := by
  unfold val_main_v73 val_main_v72
  rw [colEmb_eq, msgToCols_eq hcat, segCols]
  rfl

/-- THE RESULT: the reference's last stage is the scores. -/
theorem scores_eq : val_main_v78 (F := Ideal) x0 x1 x2 x3 x4 x5 x6 x7 x8 x9 x10 x11 x12 x13 x14 x15 x16 x17 = Cert.KernelIdeal.Val.scores hcat x0 x1 x2 x3 x4 x5 x6 x7 x8 x9 x10 x11 x12 x13 x14 x15 x16 x17 := by
  unfold val_main_v78
  rw [Cert.RefStages.v77_eq, colEmb'_eq hcat]
  rfl

end Cert.RefWhole

end
-- ==== Proof.lean ====
/-
  The certificate: the kernel — two dense node projections, two edge networks fed by gathers and followed by
  scatter-additions, and a final scoring layer, each dense part a pallas region — against the plain reference.

  The three frames: the two kernel programs' are generated whole; the reference's is its generated run with
  the result dropped.  The idealization rewrote nothing, so it is preserved trivially.  At the ideal instance a
  change of float format is the identity and a matrix product is a plain sum, so every pallas region leaves in
  its output array the row map `x ↦ x · w + b` (with the positive part where the layer has one) of the arrays it
  reads, block of rows by block of rows, and the host operations between the regions are the reference's own
  gathers, concatenations, scatter-additions and additions.  Both programs therefore end with the one function
  `scores` of the eighteen arguments: the kernel's side is read off its run segment by segment, the reference's
  off its read-back stage by stage.  No law of the extended reals beyond the definitions is used, so the
  precondition is not needed.
-/
import proofs.«175801_j82394652607046_2_alg».proof.Defs
import proofs.«175801_j82394652607046_2_alg».proof.Proof.Gen.Kernel
import proofs.«175801_j82394652607046_2_alg».proof.Proof.Gen.Kernel.Skeleton
import proofs.«175801_j82394652607046_2_alg».proof.Proof.Gen.Kernel.Launch
import proofs.«175801_j82394652607046_2_alg».proof.Proof.Gen.Kernel.Points
import proofs.«175801_j82394652607046_2_alg».proof.Proof.Gen.Kernel.Frame
import proofs.«175801_j82394652607046_2_alg».proof.Proof.Gen.KernelIdeal
import proofs.«175801_j82394652607046_2_alg».proof.Proof.Gen.KernelIdeal.Skeleton
import proofs.«175801_j82394652607046_2_alg».proof.Proof.Gen.KernelIdeal.Launch
import proofs.«175801_j82394652607046_2_alg».proof.Proof.Gen.KernelIdeal.Points
import proofs.«175801_j82394652607046_2_alg».proof.Proof.Gen.KernelIdeal.Frame
import proofs.«175801_j82394652607046_2_alg».proof.Proof.Gen.ReferenceIdeal
import proofs.«175801_j82394652607046_2_alg».proof.Proof.Gen.Pre_finite_inputs
import proofs.«175801_j82394652607046_2_alg».proof.Proof.Gen.ReferenceIdeal.Run
import proofs.«175801_j82394652607046_2_alg».proof.Proof.Gen.ReferenceIdeal.Read
import proofs.«175801_j82394652607046_2_alg».proof.Proof.KRun
import proofs.«175801_j82394652607046_2_alg».proof.Proof.KWhole
import proofs.«175801_j82394652607046_2_alg».proof.Proof.RefWhole
import Idealize.ShloMosaic.Adequacy
import Idealize.ShloMosaic.Init

set_option maxRecDepth 16384

noncomputable section

namespace Cert.Proof

open Idealize.ShloMosaic Idealize.ShloMosaic.TcCoe Idealize.SL.Sem

/-- The three pieces of a joined edge input have the widths 64, 1 and 64 of its 129 columns. -/
theorem hcat : Shape.Concatenates [Cert.KernelIdeal.S1000000x64, Cert.KernelIdeal.S1000000x1, Cert.KernelIdeal.S1000000x64]
    Cert.KernelIdeal.Val.Joined 1 :=
  Cert.ReferenceIdeal.Gen.concatenates_S1000000x64_S1000000x1_S1000000x64_S1000000x129_d1

/-- Equal arguments, equal scores. -/
theorem scores_congr (a0 : Cert.KernelIdeal.S50000x19.Idx → EReal) (a1 : Cert.KernelIdeal.S50000x14.Idx → EReal) (a2 : Cert.KernelIdeal.S1000000x1.Idx → EReal) (a3 : Cert.KernelIdeal.Val.EdgeIdx) (a4 : Cert.KernelIdeal.S19x64.Idx → EReal) (a5 : Cert.KernelIdeal.S64.Idx → EReal) (a6 : Cert.KernelIdeal.S14x64.Idx → EReal) (a7 : Cert.KernelIdeal.S64.Idx → EReal) (a8 : Cert.KernelIdeal.S129x64.Idx → EReal) (a9 : Cert.KernelIdeal.S64.Idx → EReal) (a10 : Cert.KernelIdeal.S64x64.Idx → EReal) (a11 : Cert.KernelIdeal.S64.Idx → EReal) (a12 : Cert.KernelIdeal.S129x64.Idx → EReal) (a13 : Cert.KernelIdeal.S64.Idx → EReal) (a14 : Cert.KernelIdeal.S64x64.Idx → EReal) (a15 : Cert.KernelIdeal.S64.Idx → EReal) (a16 : Cert.KernelIdeal.S64x1.Idx → EReal) (a17 : Cert.KernelIdeal.S1.Idx → EReal)
    (b0 : Cert.KernelIdeal.S50000x19.Idx → EReal) (b1 : Cert.KernelIdeal.S50000x14.Idx → EReal) (b2 : Cert.KernelIdeal.S1000000x1.Idx → EReal) (b3 : Cert.KernelIdeal.Val.EdgeIdx) (b4 : Cert.KernelIdeal.S19x64.Idx → EReal) (b5 : Cert.KernelIdeal.S64.Idx → EReal) (b6 : Cert.KernelIdeal.S14x64.Idx → EReal) (b7 : Cert.KernelIdeal.S64.Idx → EReal) (b8 : Cert.KernelIdeal.S129x64.Idx → EReal) (b9 : Cert.KernelIdeal.S64.Idx → EReal) (b10 : Cert.KernelIdeal.S64x64.Idx → EReal) (b11 : Cert.KernelIdeal.S64.Idx → EReal) (b12 : Cert.KernelIdeal.S129x64.Idx → EReal) (b13 : Cert.KernelIdeal.S64.Idx → EReal) (b14 : Cert.KernelIdeal.S64x64.Idx → EReal) (b15 : Cert.KernelIdeal.S64.Idx → EReal) (b16 : Cert.KernelIdeal.S64x1.Idx → EReal) (b17 : Cert.KernelIdeal.S1.Idx → EReal)
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) (h15 : a15 = b15) (h16 : a16 = b16) (h17 : a17 = b17) :
    Cert.KernelIdeal.Val.scores hcat a0 a1 a2 a3 a4 a5 a6 a7 a8 a9 a10 a11 a12 a13 a14 a15 a16 a17 =
      Cert.KernelIdeal.Val.scores hcat b0 b1 b2 b3 b4 b5 b6 b7 b8 b9 b10 b11 b12 b13 b14 b15 b16 b17 := by
  subst h0 h1 h2 h3 h4 h5 h6 h7 h8 h9 h10 h11 h12 h13 h14 h15 h16 h17
  rfl

theorem frame_k : Cert.frame_Kernel (hKernel := Cert.Kernel.Gen.facts) (hPre_finite_inputs := Cert.Pre_finite_inputs.Gen.facts) :=
  fun m ρ _ => Cert.Kernel.Gen.frame m ρ
theorem frame_ki : Cert.frame_KernelIdeal (hKernelIdeal := Cert.KernelIdeal.Gen.facts) (hPre_finite_inputs := Cert.Pre_finite_inputs.Gen.facts) :=
  fun m ρ _ => Cert.KernelIdeal.Gen.frame m ρ
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealization rewrote no operation. -/
theorem preserves : Cert.preserves_Kernel_KernelIdeal := trivial

set_option maxHeartbeats 1000000 in
/-- Both idealized programs end with the scores of their (agreeing) arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Val.scores hcat (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)), ?_, ?_⟩
  · exact (θ_run Cert.KernelIdeal.defs _ _).mono
      (fun r h c => ⟨(h c).1.trans (Cert.KernelIdeal.Val.kernel_scores m ρ c hcat), (h c).2⟩)
      (Cert.KernelIdeal.Val.run_result (F := Ideal) m ρ)
  · refine (θ_run Cert.ReferenceIdeal.defs _ _).mono (fun _ h c => ⟨?_, (h c).2⟩)
      (Cert.ReferenceIdeal.Value.run (F := Ideal) m' ρ')
    obtain ⟨e0, e1, e2, e3, e4, e5, e6, e7, e8, e9, e10, e11, e12, e13, e14, e15, e16, e17⟩ := hagree c
    exact ((h c).1.trans (Cert.ReferenceIdeal.Read.val_main_v78_eq m' c)).trans
      ((Cert.RefWhole.scores_eq hcat _ _ _ _ _ _ _ _ _ _ _ _ _ _ _ _ _ _).trans
        (scores_congr _ _ _ _ _ _ _ _ _ _ _ _ _ _ _ _ _ _ _ _ _ _ _ _ _ _ _ _ _ _ _ _ _ _ _ _ e0 e1 e2 e3 e4 e5 e6 e7 e8 e9 e10 e11 e12 e13 e14 e15 e16 e17))

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
